-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S16x4096 : Shape := ⟨2, ![16, 4096]⟩
abbrev S4096x16 : Shape := ⟨2, ![4096, 16]⟩
abbrev S16 : Shape := ⟨1, ![16]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S16x4096 : S_.BroadcastsInDim S16x4096 (![] : Fin 0 → Fin S16x4096.rank)
  reducesTo_S16x4096_S_d0_1 : S16x4096.ReducesTo [0, 1] S_
  bcast_S_S4096x16 : S_.BroadcastsInDim S4096x16 (![] : Fin 0 → Fin S4096x16.rank)
  reducesTo_S4096x16_S_d0_1 : S4096x16.ReducesTo [0, 1] S_
  bcast_S_S16 : S_.BroadcastsInDim S16 (![] : Fin 0 → Fin S16.rank)
  reducesTo_S16_S_d0 : S16.ReducesTo [0] S_
  bcast_S_S4096 : S_.BroadcastsInDim S4096 (![] : Fin 0 → Fin S4096.rank)
  reducesTo_S4096_S_d0 : S4096.ReducesTo [0] S_

variable [Facts]

def fn_part3 {F : FTy → Type} [FloatOps F] (main_arg11 : FVec F S4096x16 .f32) (main_arg12 : FVec F S4096 .f32) (main_v48 : IVec S_ 1) (main_v49 : FVec F S16x4096 .f32) (main_v50 : FVec F S16x4096 .f32) : IVec S_ 1 :=
  let main_v51 : IVec S16x4096 1 := cmpf .olt main_v49 main_v50
  let main_c_19 : IVec S_ 1 := constantI S_ 1 1#1
  let main_v52 : IVec S_ 1 := (fun x v => Host.reduce IntOp.andi x v reducesTo_S16x4096_S_d0_1 h_S_) main_v51 main_c_19
  let main_v53 : IVec S_ 1 := andi main_v48 main_v52
  let main_v54 : FVec F S4096x16 .f32 := Host.absf main_arg11
  let main_cst_20 : FVec F S_ .f32 := constant S_ .f32 0x7F800000#32
  let main_v55 : FVec F S4096x16 .f32 := broadcastInDim S4096x16 ![] bcast_S_S4096x16 main_cst_20
  let main_v56 : IVec S4096x16 1 := cmpf .olt main_v54 main_v55
  let main_c_21 : IVec S_ 1 := constantI S_ 1 1#1
  let main_v57 : IVec S_ 1 := (fun x v => Host.reduce IntOp.andi x v reducesTo_S4096x16_S_d0_1 h_S_) main_v56 main_c_21
  let main_v58 : IVec S_ 1 := andi main_v53 main_v57
  let main_v59 : FVec F S4096 .f32 := Host.absf main_arg12
  let main_cst_22 : FVec F S_ .f32 := constant S_ .f32 0x7F800000#32
  let main_v60 : FVec F S4096 .f32 := broadcastInDim S4096 ![] bcast_S_S4096 main_cst_22
  let main_v61 : IVec S4096 1 := cmpf .olt main_v59 main_v60
  let main_c_23 : IVec S_ 1 := constantI S_ 1 1#1
  let main_v62 : IVec S_ 1 := (fun x v => Host.reduce IntOp.andi x v reducesTo_S4096_S_d0 h_S_) main_v61 main_c_23
  let main_v63 : IVec S_ 1 := andi main_v58 main_v62
  main_v63

def fn_part2 {F : FTy → Type} [FloatOps F] (main_arg7 : FVec F S4096x16 .f32) (main_arg8 : FVec F S16 .f32) (main_arg9 : FVec F S4096 .f32) (main_arg10 : FVec F S16x4096 .f32) (main_arg11 : FVec F S4096x16 .f32) (main_arg12 : FVec F S4096 .f32) (main_v33 : IVec S_ 1) : IVec S_ 1 :=
  let main_v34 : FVec F S4096x16 .f32 := Host.absf main_arg7
  let main_cst_12 : FVec F S_ .f32 := constant S_ .f32 0x7F800000#32
  let main_v35 : FVec F S4096x16 .f32 := broadcastInDim S4096x16 ![] bcast_S_S4096x16 main_cst_12
  let main_v36 : IVec S4096x16 1 := cmpf .olt main_v34 main_v35
  let main_c_13 : IVec S_ 1 := constantI S_ 1 1#1
  let main_v37 : IVec S_ 1 := (fun x v => Host.reduce IntOp.andi x v reducesTo_S4096x16_S_d0_1 h_S_) main_v36 main_c_13
  let main_v38 : IVec S_ 1 := andi main_v33 main_v37
  let main_v39 : FVec F S16 .f32 := Host.absf main_arg8
  let main_cst_14 : FVec F S_ .f32 := constant S_ .f32 0x7F800000#32
  let main_v40 : FVec F S16 .f32 := broadcastInDim S16 ![] bcast_S_S16 main_cst_14
  let main_v41 : IVec S16 1 := cmpf .olt main_v39 main_v40
  let main_c_15 : IVec S_ 1 := constantI S_ 1 1#1
  let main_v42 : IVec S_ 1 := (fun x v => Host.reduce IntOp.andi x v reducesTo_S16_S_d0 h_S_) main_v41 main_c_15
  let main_v43 : IVec S_ 1 := andi main_v38 main_v42
  let main_v44 : FVec F S4096 .f32 := Host.absf main_arg9
  let main_cst_16 : FVec F S_ .f32 := constant S_ .f32 0x7F800000#32
  let main_v45 : FVec F S4096 .f32 := broadcastInDim S4096 ![] bcast_S_S4096 main_cst_16
  let main_v46 : IVec S4096 1 := cmpf .olt main_v44 main_v45
  let main_c_17 : IVec S_ 1 := constantI S_ 1 1#1
  let main_v47 : IVec S_ 1 := (fun x v => Host.reduce IntOp.andi x v reducesTo_S4096_S_d0 h_S_) main_v46 main_c_17
  let main_v48 : IVec S_ 1 := andi main_v43 main_v47
  let main_v49 : FVec F S16x4096 .f32 := Host.absf main_arg10
  let main_cst_18 : FVec F S_ .f32 := constant S_ .f32 0x7F800000#32
  let main_v50 : FVec F S16x4096 .f32 := broadcastInDim S16x4096 ![] bcast_S_S16x4096 main_cst_18
  fn_part3 (F := F) main_arg11 main_arg12 main_v48 main_v49 main_v50

def fn_part1 {F : FTy → Type} [FloatOps F] (main_arg4 : FVec F S16x4096 .f32) (main_arg5 : FVec F S4096x16 .f32) (main_arg6 : FVec F S16x4096 .f32) (main_arg7 : FVec F S4096x16 .f32) (main_arg8 : FVec F S16 .f32) (main_arg9 : FVec F S4096 .f32) (main_arg10 : FVec F S16x4096 .f32) (main_arg11 : FVec F S4096x16 .f32) (main_arg12 : FVec F S4096 .f32) (main_v13 : IVec S_ 1) (main_v16 : IVec S4096x16 1) : IVec S_ 1 :=
  let main_c_5 : IVec S_ 1 := constantI S_ 1 1#1
  let main_v17 : IVec S_ 1 := (fun x v => Host.reduce IntOp.andi x v reducesTo_S4096x16_S_d0_1 h_S_) main_v16 main_c_5
  let main_v18 : IVec S_ 1 := andi main_v13 main_v17
  let main_v19 : FVec F S16x4096 .f32 := Host.absf main_arg4
  let main_cst_6 : FVec F S_ .f32 := constant S_ .f32 0x7F800000#32
  let main_v20 : FVec F S16x4096 .f32 := broadcastInDim S16x4096 ![] bcast_S_S16x4096 main_cst_6
  let main_v21 : IVec S16x4096 1 := cmpf .olt main_v19 main_v20
  let main_c_7 : IVec S_ 1 := constantI S_ 1 1#1
  let main_v22 : IVec S_ 1 := (fun x v => Host.reduce IntOp.andi x v reducesTo_S16x4096_S_d0_1 h_S_) main_v21 main_c_7
  let main_v23 : IVec S_ 1 := andi main_v18 main_v22
  let main_v24 : FVec F S4096x16 .f32 := Host.absf main_arg5
  let main_cst_8 : FVec F S_ .f32 := constant S_ .f32 0x7F800000#32
  let main_v25 : FVec F S4096x16 .f32 := broadcastInDim S4096x16 ![] bcast_S_S4096x16 main_cst_8
  let main_v26 : IVec S4096x16 1 := cmpf .olt main_v24 main_v25
  let main_c_9 : IVec S_ 1 := constantI S_ 1 1#1
  let main_v27 : IVec S_ 1 := (fun x v => Host.reduce IntOp.andi x v reducesTo_S4096x16_S_d0_1 h_S_) main_v26 main_c_9
  let main_v28 : IVec S_ 1 := andi main_v23 main_v27
  let main_v29 : FVec F S16x4096 .f32 := Host.absf main_arg6
  let main_cst_10 : FVec F S_ .f32 := constant S_ .f32 0x7F800000#32
  let main_v30 : FVec F S16x4096 .f32 := broadcastInDim S16x4096 ![] bcast_S_S16x4096 main_cst_10
  let main_v31 : IVec S16x4096 1 := cmpf .olt main_v29 main_v30
  let main_c_11 : IVec S_ 1 := constantI S_ 1 1#1
  let main_v32 : IVec S_ 1 := (fun x v => Host.reduce IntOp.andi x v reducesTo_S16x4096_S_d0_1 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S8192x4096 .f32) (main_arg1 : FVec F S4096x4096 .f32) (main_arg2 : FVec F S16x4096 .f32) (main_arg3 : FVec F S4096x16 .f32) (main_arg4 : FVec F S16x4096 .f32) (main_arg5 : FVec F S4096x16 .f32) (main_arg6 : FVec F S16x4096 .f32) (main_arg7 : FVec F S4096x16 .f32) (main_arg8 : FVec F S16 .f32) (main_arg9 : FVec F S4096 .f32) (main_arg10 : FVec F S16x4096 .f32) (main_arg11 : FVec F S4096x16 .f32) (main_arg12 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S16x4096 .f32 := Host.absf main_arg2
  let main_cst_2 : FVec F S_ .f32 := constant S_ .f32 0x7F800000#32
  let main_v10 : FVec F S16x4096 .f32 := broadcastInDim S16x4096 ![] bcast_S_S16x4096 main_cst_2
  let main_v11 : IVec S16x4096 1 := cmpf .olt main_v9 main_v10
  let main_c_3 : IVec S_ 1 := constantI S_ 1 1#1
  let main_v12 : IVec S_ 1 := (fun x v => Host.reduce IntOp.andi x v reducesTo_S16x4096_S_d0_1 h_S_) main_v11 main_c_3
  let main_v13 : IVec S_ 1 := andi main_v8 main_v12
  let main_v14 : FVec F S4096x16 .f32 := Host.absf main_arg3
  let main_cst_4 : FVec F S_ .f32 := constant S_ .f32 0x7F800000#32
  let main_v15 : FVec F S4096x16 .f32 := broadcastInDim S4096x16 ![] bcast_S_S4096x16 main_cst_4
  let main_v16 : IVec S4096x16 1 := cmpf .olt main_v14 main_v15
  fn_part1 (F := F) main_arg4 main_arg5 main_arg6 main_arg7 main_arg8 main_arg9 main_arg10 main_arg11 main_arg12 main_v13 main_v16
-- ==== Kernel.lean ====
abbrev S8192x4096 : Shape := ⟨2, ![8192, 4096]⟩
abbrev S4096x4096 : Shape := ⟨2, ![4096, 4096]⟩
abbrev S16x4096 : Shape := ⟨2, ![16, 4096]⟩
abbrev S4096x16 : Shape := ⟨2, ![4096, 16]⟩
abbrev S16 : Shape := ⟨1, ![16]⟩
abbrev S4096 : Shape := ⟨1, ![4096]⟩
abbrev S_ : Shape := ⟨0, ![]⟩
abbrev S2048x4096 : Shape := ⟨2, ![2048, 4096]⟩
abbrev S2048x16 : Shape := ⟨2, ![2048, 16]⟩
abbrev S1x16 : Shape := ⟨2, ![1, 16]⟩
abbrev S8192x16 : Shape := ⟨2, ![8192, 16]⟩
abbrev S1x4096x16 : Shape := ⟨3, ![1, 4096, 16]⟩
abbrev S4x4096x16 : Shape := ⟨3, ![4, 4096, 16]⟩
abbrev S1x4096 : Shape := ⟨2, ![1, 4096]⟩
abbrev S2048x512 : Shape := ⟨2, ![2048, 512]⟩
abbrev S1x2048x16 : Shape := ⟨3, ![1, 2048, 16]⟩
abbrev S1x2048 : Shape := ⟨2, ![1, 2048]⟩
abbrev S2048x2048 : Shape := ⟨2, ![2048, 2048]⟩

abbrev nBuf : Space → Nat
  | .hbm => 50
  | .vmem => 14
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S16x4096, .f32⟩
  | .hbm, ⟨3, _⟩ => ⟨S4096x16, .f32⟩
  | .hbm, ⟨4, _⟩ => ⟨S16x4096, .f32⟩
  | .hbm, ⟨5, _⟩ => ⟨S4096x16, .f32⟩
  | .hbm, ⟨6, _⟩ => ⟨S16x4096, .f32⟩
  | .hbm, ⟨7, _⟩ => ⟨S4096x16, .f32⟩
  | .hbm, ⟨8, _⟩ => ⟨S16, .f32⟩
  | .hbm, ⟨9, _⟩ => ⟨S4096, .f32⟩
  | .hbm, ⟨10, _⟩ => ⟨S16x4096, .f32⟩
  | .hbm, ⟨11, _⟩ => ⟨S4096x16, .f32⟩
  | .hbm, ⟨12, _⟩ => ⟨S4096, .f32⟩
  | .hbm, ⟨13, _⟩ => ⟨S4096x4096, .f32⟩
  | .hbm, ⟨14, _⟩ => ⟨S_, .f32⟩
  | .hbm, ⟨15, _⟩ => ⟨S4096x4096, .f32⟩
  | .hbm, ⟨16, _⟩ => ⟨S4096x4096, .f32⟩
  | .hbm, ⟨17, _⟩ => ⟨S4096x4096, .f32⟩
  | .hbm, ⟨18, _⟩ => ⟨S4096x4096, .f32⟩
  | .hbm, ⟨19, _⟩ => ⟨S_, .f32⟩
  | .hbm, ⟨20, _⟩ => ⟨S4096, .f32⟩
  | .hbm, ⟨21, _⟩ => ⟨S4096, .f32⟩
  | .hbm, ⟨22, _⟩ => ⟨S4096, .f32⟩
  | .hbm, ⟨23, _⟩ => ⟨S2048x4096, .f32⟩
  | .hbm, ⟨24, _⟩ => ⟨S4096x16, .f32⟩
  | .hbm, ⟨25, _⟩ => ⟨S2048x16, .f32⟩
  | .hbm, ⟨26, _⟩ => ⟨S2048x4096, .f32⟩
  | .hbm, ⟨27, _⟩ => ⟨S4096x16, .f32⟩
  | .hbm, ⟨28, _⟩ => ⟨S2048x16, .f32⟩
  | .hbm, ⟨29, _⟩ => ⟨S2048x4096, .f32⟩
  | .hbm, ⟨30, _⟩ => ⟨S_, .f32⟩
  | .hbm, ⟨31, _⟩ => ⟨S2048x4096, .f32⟩
  | .hbm, ⟨32, _⟩ => ⟨S2048x4096, .f32⟩
  | .hbm, ⟨33, _⟩ => ⟨S4096x16, .f32⟩
  | .hbm, ⟨34, _⟩ => ⟨S2048x16, .f32⟩
  | .hbm, ⟨35, _⟩ => ⟨S1x16, .f32⟩
  | .hbm, ⟨36, _⟩ => ⟨S2048x16, .f32⟩
  | .hbm, ⟨37, _⟩ => ⟨S2048x16, .f32⟩
  | .hbm, ⟨38, _⟩ => ⟨S2048x4096, .f32⟩
  | .hbm, ⟨39, _⟩ => ⟨S4096x16, .f32⟩
  | .hbm, ⟨40, _⟩ => ⟨S2048x16, .f32⟩
  | .hbm, ⟨41, _⟩ => ⟨S8192x16, .f32⟩
  | .hbm, ⟨42, _⟩ => ⟨S1x4096x16, .f32⟩
  | .hbm, ⟨43, _⟩ => ⟨S1x4096x16, .f32⟩
  | .hbm, ⟨44, _⟩ => ⟨S1x4096x16, .f32⟩
  | .hbm, ⟨45, _⟩ => ⟨S1x4096x16, .f32⟩
  | .hbm, ⟨46, _⟩ => ⟨S4x4096x16, .f32⟩
  | .hbm, ⟨47, _⟩ => ⟨S1x4096, .f32⟩
  | .hbm, ⟨48, _⟩ => ⟨S1x4096, .f32⟩
  | .hbm, ⟨49, _⟩ => ⟨S8192x4096, .f32⟩
  | .local _ .vmem, ⟨0, _⟩ => ⟨S2048x512, .f32⟩
  | .local _ .vmem, ⟨1, _⟩ => ⟨S2048x512, .f32⟩
  | .local _ .vmem, ⟨2, _⟩ => ⟨S2048x512, .f32⟩
  | .local _ .vmem, ⟨3, _⟩ => ⟨S2048x512, .f32⟩
  | .local _ .vmem, ⟨4, _⟩ => ⟨S2048x16, .f32⟩
  | .local _ .vmem, ⟨5, _⟩ => ⟨S2048x16, .f32⟩
  | .local _ .vmem, ⟨6, _⟩ => ⟨S1x2048x16, .f32⟩
  | .local _ .vmem, ⟨7, _⟩ => ⟨S1x2048x16, .f32⟩
  | .local _ .vmem, ⟨8, _⟩ => ⟨S1x2048, .f32⟩
  | .local _ .vmem, ⟨9, _⟩ => ⟨S1x2048, .f32⟩
  | .local _ .vmem, ⟨10, _⟩ => ⟨S1x2048, .f32⟩
  | .local _ .vmem, ⟨11, _⟩ => ⟨S1x2048, .f32⟩
  | .local _ .vmem, ⟨12, _⟩ => ⟨S2048x2048, .f32⟩
  | .local _ .vmem, ⟨13, _⟩ => ⟨S2048x2048, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_cst : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_1 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![4, 2, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x2048x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S2048x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

class Facts₀ : Prop where
  bcast_S_S4096x4096 : S_.BroadcastsInDim S4096x4096 (![] : Fin 0 → Fin S4096x4096.rank)
  reducesTo_S4096x4096_S4096_d1 : S4096x4096.ReducesTo [1] S4096
  h_S_ : 0 < S_.numel
  slices_S8192x4096_S2048x4096_0_0 : S8192x4096.Slices ![0, 0] S2048x4096
  transposes_S16x4096_S4096x16_1_0 : S16x4096.Transposes [1, 0] S4096x16
  slices_S8192x4096_S2048x4096_2048_0 : S8192x4096.Slices ![2048, 0] S2048x4096
  slices_S8192x4096_S2048x4096_4096_0 : S8192x4096.Slices ![4096, 0] S2048x4096
  bcast_S_S2048x4096 : S_.BroadcastsInDim S2048x4096 (![] : Fin 0 → Fin S2048x4096.rank)
  bcast_S16_S1x16_1 : S16.BroadcastsInDim S1x16 (![1] : Fin 1 → Fin S1x16.rank)
  bcast_S1x16_S2048x16_0_1 : S1x16.BroadcastsInDim S2048x16 (![0, 1] : Fin 2 → Fin S2048x16.rank)
  slices_S8192x4096_S2048x4096_6144_0 : S8192x4096.Slices ![6144, 0] S2048x4096
  concatenates_S2048x16_S2048x16_S2048x16_S2048x16_S8192x16_d0 : Shape.Concatenates [S2048x16, S2048x16, S2048x16, S2048x16] S8192x16 0
  bcast_S4096x16_S1x4096x16_1_2 : S4096x16.BroadcastsInDim S1x4096x16 (![1, 2] : Fin 2 → Fin S1x4096x16.rank)
  concatenates_S1x4096x16_S1x4096x16_S1x4096x16_S1x4096x16_S4x4096x16_d0 : Shape.Concatenates [S1x4096x16, S1x4096x16, S1x4096x16, S1x4096x16] S4x4096x16 0
  shapeCasts_S4096_S1x4096 : S4096.ShapeCasts S1x4096
  inb_S2048x2048_S2048x2048_0_0 : ∀ a, (![0, 0] : Fin 2 → Nat) a + S2048x2048.size a ≤ S2048x2048.size a
  h_S2048x2048 : 0 < S2048x2048.numel
  inb_S2048x512_S2048x512_0_0 : ∀ a, (![0, 0] : Fin 2 → Nat) a + S2048x512.size a ≤ S2048x512.size a
  h_S2048x512 : 0 < S2048x512.numel
  bitsLt_bf16_f32 : FTy.bits .bf16 < FTy.bits .f32
  shapeCasts_S2048x2048_S2048x2048 : S2048x2048.ShapeCasts S2048x2048
  inb_S2048x16_S2048x16_0_0 : ∀ a, (![0, 0] : Fin 2 → Nat) a + S2048x16.size a ≤ S2048x16.size a
  h_S2048x16 : 0 < S2048x16.numel
  shapeCasts_S2048x16_S2048x16 : S2048x16.ShapeCasts S2048x16
  inb_S1x2048x16_S1x2048x16_0_0_0 : ∀ a, (![0, 0, 0] : Fin 3 → Nat) a + S1x2048x16.size a ≤ S1x2048x16.size a
  h_S1x2048x16 : 0 < S1x2048x16.numel
  shapeCasts_S1x2048x16_S2048x16 : S1x2048x16.ShapeCasts S2048x16
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S2048x2048 : S1x2048.Broadcasts S2048x2048
  dot_S4096x16_S16x4096_S4096x4096_1_0_0_1_n_n_wf : DotDims.WF S4096x16 S16x4096 S4096x4096 [1] [0] [0] [1] [] []
  dot_S2048x4096_S4096x16_S2048x16_1_0_0_1_n_n_wf : DotDims.WF S2048x4096 S4096x16 S2048x16 [1] [0] [0] [1] [] []
  dot_S2048x512_S2048x512_S2048x2048_1_1_0_0_n_n_wf : DotDims.WF S2048x512 S2048x512 S2048x2048 [1] [1] [0] [0] [] []
  dot_S2048x16_S2048x16_S2048x2048_1_1_0_0_n_n_wf : DotDims.WF S2048x16 S2048x16 S2048x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S8192x4096.size a
  hwx0_0 : ∀ i : grid0.Coords, EltTy.bits .f32 = 32 ∨ (Rect.block (s := S8192x4096) S2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S4096x4096.size a
  hwx0_1 : ∀ i : grid0.Coords, EltTy.bits .f32 = 32 ∨ (Rect.block (s := S4096x4096) S2048x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x16.size a ≤ S8192x16.size a
  hwx0_2 : ∀ i : grid0.Coords, EltTy.bits .f32 = 32 ∨ (Rect.block (s := S8192x16) S2048x16.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048x16.size a ≤ S4x4096x16.size a
  hwx0_3 : ∀ i : grid0.Coords, EltTy.bits .f32 = 32 ∨ (Rect.block (s := S4x4096x16) S1x2048x16.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x2048.size a ≤ S1x4096.size a
  hwx0_4 : ∀ i : grid0.Coords, EltTy.bits .f32 = 32 ∨ (Rect.block (s := S1x4096) S1x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x2048.size a ≤ S1x4096.size a
  hwx0_5 : ∀ i : grid0.Coords, EltTy.bits .f32 = 32 ∨ (Rect.block (s := S1x4096) S1x2048.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2048x2048.size a ≤ S8192x4096.size a
  hwx0_6 : ∀ i : grid0.Coords, EltTy.bits .f32 = 32 ∨ (Rect.block (s := S8192x4096) S2048x2048.size (cc0_transform_6 i) (hinb0_6 i)).WholeWords (EltTy.packing .f32)

variable [Facts₀]

def dot_S4096x16_S16x4096_S4096x4096_1_0_0_1_n_n : DotDims S4096x16 S16x4096 S4096x4096 where
  lhsContracting := [1]
  rhsContracting := [0]
  lhsNonContracting := [0]
  rhsNonContracting := [1]
  lhsBatch := []
  rhsBatch := []
  wf := dot_S4096x16_S16x4096_S4096x4096_1_0_0_1_n_n_wf
def dot_S2048x4096_S4096x16_S2048x16_1_0_0_1_n_n : DotDims S2048x4096 S4096x16 S2048x16 where
  lhsContracting := [1]
  rhsContracting := [0]
  lhsNonContracting := [0]
  rhsNonContracting := [1]
  lhsBatch := []
  rhsBatch := []
  wf := dot_S2048x4096_S4096x16_S2048x16_1_0_0_1_n_n_wf
def dot_S2048x512_S2048x512_S2048x2048_1_1_0_0_n_n : DotDims S2048x512 S2048x512 S2048x2048 where
  lhsContracting := [1]
  rhsContracting := [1]
  lhsNonContracting := [0]
  rhsNonContracting := [0]
  lhsBatch := []
  rhsBatch := []
  wf := dot_S2048x512_S2048x512_S2048x2048_1_1_0_0_n_n_wf
def dot_S2048x16_S2048x16_S2048x2048_1_1_0_0_n_n : DotDims S2048x16 S2048x16 S2048x2048 where
  lhsContracting := [1]
  rhsContracting := [1]
  lhsNonContracting := [0]
  rhsNonContracting := [0]
  lhsBatch := []
  rhsBatch := []
  wf := dot_S2048x16_S2048x16_S2048x2048_1_1_0_0_n_n_wf

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v25) S2048x16.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v30) S1x2048x16.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v31) S1x2048.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v32) S1x2048.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v33) S2048x2048.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S4096x4096 : Shape := ⟨2, ![4096, 4096]⟩
abbrev S16x4096 : Shape := ⟨2, ![16, 4096]⟩
abbrev S4096x16 : Shape := ⟨2, ![4096, 16]⟩
abbrev S16 : Shape := ⟨1, ![16]⟩
abbrev S4096 : Shape := ⟨1, ![4096]⟩
abbrev S2048x4096 : Shape := ⟨2, ![2048, 4096]⟩
abbrev S2048x16 : Shape := ⟨2, ![2048, 16]⟩
abbrev S_ : Shape := ⟨0, ![]⟩
abbrev S1 : Shape := ⟨1, ![1]⟩
abbrev S1x16 : Shape := ⟨2, ![1, 16]⟩
abbrev S1x4096 : Shape := ⟨2, ![1, 4096]⟩

abbrev nBuf : Space → Nat
  | .hbm => 85
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S16x4096, .f32⟩
  | .hbm, ⟨3, _⟩ => ⟨S4096x16, .f32⟩
  | .hbm, ⟨4, _⟩ => ⟨S16x4096, .f32⟩
  | .hbm, ⟨5, _⟩ => ⟨S4096x16, .f32⟩
  | .hbm, ⟨6, _⟩ => ⟨S16x4096, .f32⟩
  | .hbm, ⟨7, _⟩ => ⟨S4096x16, .f32⟩
  | .hbm, ⟨8, _⟩ => ⟨S16, .f32⟩
  | .hbm, ⟨9, _⟩ => ⟨S4096, .f32⟩
  | .hbm, ⟨10, _⟩ => ⟨S16x4096, .f32⟩
  | .hbm, ⟨11, _⟩ => ⟨S4096x16, .f32⟩
  | .hbm, ⟨12, _⟩ => ⟨S4096, .f32⟩
  | .hbm, ⟨13, _⟩ => ⟨S4096x4096, .f32⟩
  | .hbm, ⟨14, _⟩ => ⟨S8192x4096, .f32⟩
  | .hbm, ⟨15, _⟩ => ⟨S2048x4096, .f32⟩
  | .hbm, ⟨16, _⟩ => ⟨S4096x16, .f32⟩
  | .hbm, ⟨17, _⟩ => ⟨S2048x16, .f32⟩
  | .hbm, ⟨18, _⟩ => ⟨S16x4096, .f32⟩
  | .hbm, ⟨19, _⟩ => ⟨S2048x4096, .f32⟩
  | .hbm, ⟨20, _⟩ => ⟨S_, .f32⟩
  | .hbm, ⟨21, _⟩ => ⟨S2048x4096, .f32⟩
  | .hbm, ⟨22, _⟩ => ⟨S2048x4096, .f32⟩
  | .hbm, ⟨23, _⟩ => ⟨S_, .i32⟩
  | .hbm, ⟨24, _⟩ => ⟨S1, .i32⟩
  | .hbm, ⟨25, _⟩ => ⟨S8192x4096, .f32⟩
  | .hbm, ⟨26, _⟩ => ⟨S2048x4096, .f32⟩
  | .hbm, ⟨27, _⟩ => ⟨S4096x16, .f32⟩
  | .hbm, ⟨28, _⟩ => ⟨S2048x16, .f32⟩
  | .hbm, ⟨29, _⟩ => ⟨S16x4096, .f32⟩
  | .hbm, ⟨30, _⟩ => ⟨S2048x4096, .f32⟩
  | .hbm, ⟨31, _⟩ => ⟨S_, .f32⟩
  | .hbm, ⟨32, _⟩ => ⟨S2048x4096, .f32⟩
  | .hbm, ⟨33, _⟩ => ⟨S2048x4096, .f32⟩
  | .hbm, ⟨34, _⟩ => ⟨S_, .i32⟩
  | .hbm, ⟨35, _⟩ => ⟨S1, .i32⟩
  | .hbm, ⟨36, _⟩ => ⟨S8192x4096, .f32⟩
  | .hbm, ⟨37, _⟩ => ⟨S2048x4096, .f32⟩
  | .hbm, ⟨38, _⟩ => ⟨S_, .f32⟩
  | .hbm, ⟨39, _⟩ => ⟨S2048x4096, .f32⟩
  | .hbm, ⟨40, _⟩ => ⟨S2048x4096, .f32⟩
  | .hbm, ⟨41, _⟩ => ⟨S4096x16, .f32⟩
  | .hbm, ⟨42, _⟩ => ⟨S2048x16, .f32⟩
  | .hbm, ⟨43, _⟩ => ⟨S1x16, .f32⟩
  | .hbm, ⟨44, _⟩ => ⟨S2048x16, .f32⟩
  | .hbm, ⟨45, _⟩ => ⟨S2048x16, .f32⟩
  | .hbm, ⟨46, _⟩ => ⟨S16x4096, .f32⟩
  | .hbm, ⟨47, _⟩ => ⟨S2048x4096, .f32⟩
  | .hbm, ⟨48, _⟩ => ⟨S1x4096, .f32⟩
  | .hbm, ⟨49, _⟩ => ⟨S2048x4096, .f32⟩
  | .hbm, ⟨50, _⟩ => ⟨S2048x4096, .f32⟩
  | .hbm, ⟨51, _⟩ => ⟨S_, .i32⟩
  | .hbm, ⟨52, _⟩ => ⟨S1, .i32⟩
  | .hbm, ⟨53, _⟩ => ⟨S8192x4096, .f32⟩
  | .hbm, ⟨54, _⟩ => ⟨S4096x4096, .f32⟩
  | .hbm, ⟨55, _⟩ => ⟨S_, .f32⟩
  | .hbm, ⟨56, _⟩ => ⟨S4096x4096, .f32⟩
  | .hbm, ⟨57, _⟩ => ⟨S4096x4096, .f32⟩
  | .hbm, ⟨58, _⟩ => ⟨S4096x4096, .f32⟩
  | .hbm, ⟨59, _⟩ => ⟨S4096x4096, .f32⟩
  | .hbm, ⟨60, _⟩ => ⟨S_, .f32⟩
  | .hbm, ⟨61, _⟩ => ⟨S4096, .f32⟩
  | .hbm, ⟨62, _⟩ => ⟨S4096, .f32⟩
  | .hbm, ⟨63, _⟩ => ⟨S4096, .f32⟩
  | .hbm, ⟨64, _⟩ => ⟨S1x4096, .f32⟩
  | .hbm, ⟨65, _⟩ => ⟨S2048x4096, .f32⟩
  | .hbm, ⟨66, _⟩ => ⟨S4096x16, .f32⟩
  | .hbm, ⟨67, _⟩ => ⟨S2048x16, .f32⟩
  | .hbm, ⟨68, _⟩ => ⟨S16x4096, .f32⟩
  | .hbm, ⟨69, _⟩ => ⟨S2048x4096, .f32⟩
  | .hbm, ⟨70, _⟩ => ⟨S2048x4096, .f32⟩
  | .hbm, ⟨71, _⟩ => ⟨S2048x4096, .f32⟩
  | .hbm, ⟨72, _⟩ => ⟨S_, .f32⟩
  | .hbm, ⟨73, _⟩ => ⟨S2048x4096, .f32⟩
  | .hbm, ⟨74, _⟩ => ⟨S2048x4096, .f32⟩
  | .hbm, ⟨75, _⟩ => ⟨S2048x4096, .f32⟩
  | .hbm, ⟨76, _⟩ => ⟨S_, .f32⟩
  | .hbm, ⟨77, _⟩ => ⟨S1x4096, .f32⟩
  | .hbm, ⟨78, _⟩ => ⟨S1x4096, .f32⟩
  | .hbm, ⟨79, _⟩ => ⟨S2048x4096, .f32⟩
  | .hbm, ⟨80, _⟩ => ⟨S2048x4096, .f32⟩
  | .hbm, ⟨81, _⟩ => ⟨S2048x4096, .f32⟩
  | .hbm, ⟨82, _⟩ => ⟨S_, .i32⟩
  | .hbm, ⟨83, _⟩ => ⟨S1, .i32⟩
  | .hbm, ⟨84, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_c : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_0 : Ref sig .tc := ⟨.hbm, 31, rfl⟩
abbrev main_v16 : Ref sig .tc := ⟨.hbm, 32, rfl⟩
abbrev main_v17 : Ref sig .tc := ⟨.hbm, 33, rfl⟩
abbrev main_c_1 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_2 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_c_3 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_4 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_call0_v0 : Ref sig .tc := ⟨.hbm, 59, rfl⟩
abbrev main_call0_cst : Ref sig .tc := ⟨.hbm, 60, rfl⟩
abbrev main_call0_v1 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_cst_5 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_cst_6 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_c_7 : Ref sig .tc := ⟨.hbm, 82, rfl⟩
abbrev main_v57 : Ref sig .tc := ⟨.hbm, 83, rfl⟩
abbrev main_v58 : Ref sig .tc := ⟨.hbm, 84, rfl⟩

abbrev nD : Nat := 1
abbrev τ : Topo := Topo.v7x

variable {F : FTy → Type} [FloatOps F]

class Facts₀ : Prop where
  transposes_S4096x4096_S4096x4096_1_0 : S4096x4096.Transposes [1, 0] S4096x4096
  slices_S8192x4096_S2048x4096_0_0 : S8192x4096.Slices ![0, 0] S2048x4096
  transposes_S16x4096_S4096x16_1_0 : S16x4096.Transposes [1, 0] S4096x16
  transposes_S4096x16_S16x4096_1_0 : S4096x16.Transposes [1, 0] S16x4096
  bcast_S_S2048x4096 : S_.BroadcastsInDim S2048x4096 (![] : Fin 0 → Fin S2048x4096.rank)
  bcast_S_S1 : S_.BroadcastsInDim S1 (![] : Fin 0 → Fin S1.rank)
  slices_S8192x4096_S2048x4096_2048_0 : S8192x4096.Slices ![2048, 0] S2048x4096
  slices_S8192x4096_S2048x4096_4096_0 : S8192x4096.Slices ![4096, 0] S2048x4096
  bcast_S16_S1x16_1 : S16.BroadcastsInDim S1x16 (![1] : Fin 1 → Fin S1x16.rank)
  bcast_S1x16_S2048x16_0_1 : S1x16.BroadcastsInDim S2048x16 (![0, 1] : Fin 2 → Fin S2048x16.rank)
  bcast_S4096_S1x4096_1 : S4096.BroadcastsInDim S1x4096 (![1] : Fin 1 → Fin S1x4096.rank)
  bcast_S1x4096_S2048x4096_0_1 : S1x4096.BroadcastsInDim S2048x4096 (![0, 1] : Fin 2 → Fin S2048x4096.rank)
  bcast_S_S4096x4096 : S_.BroadcastsInDim S4096x4096 (![] : Fin 0 → Fin S4096x4096.rank)
  reducesTo_S4096x4096_S4096_d1 : S4096x4096.ReducesTo [1] S4096
  h_S_ : 0 < S_.numel
  slices_S8192x4096_S2048x4096_6144_0 : S8192x4096.Slices ![6144, 0] S2048x4096
  bcast_S_S1x4096 : S_.BroadcastsInDim S1x4096 (![] : Fin 0 → Fin S1x4096.rank)
  dot_S8192x4096_S4096x4096_S8192x4096_1_0_0_1_n_n_wf : DotDims.WF S8192x4096 S4096x4096 S8192x4096 [1] [0] [0] [1] [] []
  dot_S2048x4096_S4096x16_S2048x16_1_0_0_1_n_n_wf : DotDims.WF S2048x4096 S4096x16 S2048x16 [1] [0] [0] [1] [] []
  dot_S2048x16_S16x4096_S2048x4096_1_0_0_1_n_n_wf : DotDims.WF S2048x16 S16x4096 S2048x4096 [1] [0] [0] [1] [] []
  scatter_S8192x4096_S1_S2048x4096_01_n_0_0_wf : ScatterDims.WF S8192x4096 S1 S2048x4096 [0, 1] [] [0] 0
  dot_S4096x16_S16x4096_S4096x4096_1_0_0_1_n_n_wf : DotDims.WF S4096x16 S16x4096 S4096x4096 [1] [0] [0] [1] [] []

variable [Facts₀]

def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf
def dot_S2048x4096_S4096x16_S2048x16_1_0_0_1_n_n : DotDims S2048x4096 S4096x16 S2048x16 where
  lhsContracting := [1]
  rhsContracting := [0]
  lhsNonContracting := [0]
  rhsNonContracting := [1]
  lhsBatch := []
  rhsBatch := []
  wf := dot_S2048x4096_S4096x16_S2048x16_1_0_0_1_n_n_wf
def dot_S2048x16_S16x4096_S2048x4096_1_0_0_1_n_n : DotDims S2048x16 S16x4096 S2048x4096 where
  lhsContracting := [1]
  rhsContracting := [0]
  lhsNonContracting := [0]
  rhsNonContracting := [1]
  lhsBatch := []
  rhsBatch := []
  wf := dot_S2048x16_S16x4096_S2048x4096_1_0_0_1_n_n_wf
def scatter_S8192x4096_S1_S2048x4096_01_n_0_0 : ScatterDims S8192x4096 S1 S2048x4096 where
  updateWindowDims := [0, 1]
  insertedWindowDims := []
  scatterDimsToOperandDims := [0]
  indexVectorDim := 0
  wf := scatter_S8192x4096_S1_S2048x4096_01_n_0_0_wf
def dot_S4096x16_S16x4096_S4096x4096_1_0_0_1_n_n : DotDims S4096x16 S16x4096 S4096x4096 where
  lhsContracting := [1]
  rhsContracting := [0]
  lhsNonContracting := [0]
  rhsNonContracting := [1]
  lhsBatch := []
  rhsBatch := []
  wf := dot_S4096x16_S16x4096_S4096x4096_1_0_0_1_n_n_wf

class Facts : Prop extends Facts₀ where

variable [Facts]
-- ==== Proof.KB.Entry.lean ====
/-
  The region of this program as the pipeline finds it.

  @main is 36 host operations and then one region on the grid (i, j, k) ∈ 4 × 2 × 8. This module fixes what the
  rest of the frame is stated over: the buffers' contents when the region is entered (the fold of the host
  operations over the launch memory); that none of those operations writes an argument; a window's block at a
  point read off its array; that an input window's staging buffer holds that block at every point; how the frame
  claim follows from a run that names every array afterwards; and the two conditions the body branches on, which
  depend on the reduction coordinate k alone: k = 0 (reset the accumulator) and k = 7 (finish the tile).
-/
import proofs.«169635_j23201413333001_2_alg».proof.Proof.Gen.Kernel.Launch
import proofs.«169635_j23201413333001_2_alg».proof.Proof.Gen.Kernel.Skeleton
import proofs.«169635_j23201413333001_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core c's buffers when the region is entered: the launch memory after the 36 host operations. -/
abbrev V (c : Dev nD) (b : Ref sig .tc) : Buf (Elt F) ((c : Thread nD τ).loc b) :=
  StableHlo.after hostOps0 (fun b => m (c, b)) b

/-- No host operation allocates. -/
theorem hostOps0_fresh : (hostOps0 : List (HloOp τ sig (Elt F))).Forall fun op => op.fresh = ∅ := by
  simp only [List.Forall]; repeat' constructor

/-- @main is the host operations and then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
/-- No host operation before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
/-- No host operation before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
/-- No host operation before the region writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
/-- No host operation before the region writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
/-- No host operation before the region writes argument 10: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
/-- No host operation before the region writes argument 11: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
/-- No host operation before the region writes argument 12: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before_in0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not. -/
theorem before_in1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not. -/
theorem before_in2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not. -/
theorem before_in3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not. -/
theorem before_in4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not. -/
theorem before_in5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim from a run that names the arrays -/

/-- Arguments 0 and 1 are staged by windows 0 and 1 and come back as they were; the other eleven are staged by no
    window and no host operation writes them. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c)⟩) h

/-! ## The body's two conditions -/

/-- The first branch is taken when the reduction coordinate is 0. -/
abbrev condFirst (i : grid0.Coords) : Prop := (Scalar.cmpi .ne (Scalar.extui (Scalar.cmpi .eq (BitVec.ofNat 32 (i 2).val) 0#32)) 0#32) = 1#1
theorem hcondFirst : ∀ t : Fin cfg0.N, condFirst (grid0.coords t) ↔ t.val % 8 = 0 :=
  (by decide +kernel : ∀ t : Fin grid0.N, condFirst (grid0.coords t) ↔ t.val % 8 = 0)
/-- The second branch is taken when the reduction coordinate is 7. -/
abbrev condLast (i : grid0.Coords) : Prop := (Scalar.cmpi .ne (Scalar.extui (Scalar.cmpi .eq (BitVec.ofNat 32 (i 2).val) 7#32)) 0#32) = 1#1
theorem hcondLast : ∀ t : Fin cfg0.N, condLast (grid0.coords t) ↔ t.val % 8 = 7 :=
  (by decide +kernel : ∀ t : Fin grid0.N, condLast (grid0.coords t) ↔ t.val % 8 = 7)

/-! ## The staging memrefs at a point -/

/-- One staging buffer of the output window, through which its contents are stated. -/
abbrev VO : View sig .tc .vmem S2048x2048 .f32 := (Memref.whole cc0_stg6_0 : Memref sig .tc .vmem S2048x2048 .f32).view
abbrev ms0 (t : Fin cfg0.N) : Memref sig .tc .vmem S2048x512 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S2048x512 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S2048x16 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x2048x16 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x2048 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x2048 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S2048x2048 .f32 := win0_6.stage (cfg0.slots t 6)
abbrev hs6 (t : Fin cfg0.N) : (ms6 t).IsWhole := hstage0_6 ((cfg0.slots t 6).cast nbuf0_6)

end Cert.Kernel.Fr

end
-- ==== Proof.KB.RunA.lean ====
/-
  The kernel body run once, in the case where the reduction coordinate is 0: the accumulator is reset to zero, then this step's product is added; nothing of what the buffer held before is read.
  The run is by symbolic execution of the body's loads and stores; its witness is the list of pieces the output's
  staging buffer ends with, and every input buffer is handed back as it was.
-/
import proofs.«169635_j23201413333001_2_alg».proof.Proof.KB.Entry

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the output's staging buffer ends with in this case, with the proof that from whole staging
    memrefs — the inputs at their contents, the output at anything — the body runs to a continuation that holds the inputs as they
    were and the output's buffer with those pieces written. -/
noncomputable def runA (c : Dev nD) (i : grid0.Coords) (arg3 : Memref sig .tc .vmem S2048x512 .f32) (harg3 : arg3.IsWhole) (arg4 : Memref sig .tc .vmem S2048x512 .f32) (harg4 : arg4.IsWhole) (arg5 : Memref sig .tc .vmem S2048x16 .f32) (harg5 : arg5.IsWhole) (arg6 : Memref sig .tc .vmem S1x2048x16 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S2048x2048 .f32) (harg9 : arg9.IsWhole) (hc0 : condFirst i) (hc1 : ¬condLast i)
    (x0 : Vec F S2048x512 .f32) (x1 : Vec F S2048x512 .f32) (x2 : Vec F S2048x16 .f32) (x3 : Vec F S1x2048x16 .f32) (x4 : Vec F S1x2048 .f32) (x5 : Vec F S1x2048 .f32) :
    { L : List (View.Piece (Elt F) S2048x2048 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ f, arg9.view.loc (c : Thread nD τ) ↦[arg9.view.set]{fullShare} arg9.view.writes (Elt F) f L)) -∗ K ⟨⟩))
          ⊢ wp frame (wpE (defs₀ (F := F)) Variants.none c none) E (cc0__kernel i arg3 harg3 arg4 harg4 arg5 harg5 arg6 harg6 arg7 harg7 arg8 harg8 arg9 harg9) K } := by
  refine ⟨?_, fun E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    iexists _; iexact H6

end Cert.Kernel.Fr

end
-- ==== Proof.KB.RunB.lean ====
/-
  The kernel body run once, in the case where the reduction coordinate is strictly between 0 and 7: this step's product is added to what the buffer held (xo).
  The run is by symbolic execution of the body's loads and stores; its witness is the list of pieces the output's
  staging buffer ends with, and every input buffer is handed back as it was.
-/
import proofs.«169635_j23201413333001_2_alg».proof.Proof.KB.RunA

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the output's staging buffer ends with in this case, with the proof that from whole staging
    memrefs — the inputs at their contents, the output at its running contents — the body runs to a continuation that holds the inputs as they
    were and the output's buffer with those pieces written. -/
noncomputable def runB (c : Dev nD) (i : grid0.Coords) (arg3 : Memref sig .tc .vmem S2048x512 .f32) (harg3 : arg3.IsWhole) (arg4 : Memref sig .tc .vmem S2048x512 .f32) (harg4 : arg4.IsWhole) (arg5 : Memref sig .tc .vmem S2048x16 .f32) (harg5 : arg5.IsWhole) (arg6 : Memref sig .tc .vmem S1x2048x16 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S2048x2048 .f32) (harg9 : arg9.IsWhole) (hc0 : ¬condFirst i) (hc1 : ¬condLast i)
    (x0 : Vec F S2048x512 .f32) (x1 : Vec F S2048x512 .f32) (x2 : Vec F S2048x16 .f32) (x3 : Vec F S1x2048x16 .f32) (x4 : Vec F S1x2048 .f32) (x5 : Vec F S1x2048 .f32) (xo : Vec F S2048x2048 .f32) :
    { L : List (View.Piece (Elt F) S2048x2048 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xo
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ f, arg9.view.loc (c : Thread nD τ) ↦[arg9.view.set]{fullShare} arg9.view.writes (Elt F) f L)) -∗ K ⟨⟩))
          ⊢ wp frame (wpE (defs₀ (F := F)) Variants.none c none) E (cc0__kernel i arg3 harg3 arg4 harg4 arg5 harg5 arg6 harg6 arg7 harg7 arg8 harg8 arg9 harg9) K } := by
  refine ⟨?_, fun E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    iexists _; iexact H6

end Cert.Kernel.Fr

end
-- ==== Proof.KB.RunC.lean ====
/-
  The kernel body run once, in the case where the reduction coordinate is 7: this step's product is added to what the buffer held (xo), then the tile is finished with the rank-16 adapter term.
  The run is by symbolic execution of the body's loads and stores; its witness is the list of pieces the output's
  staging buffer ends with, and every input buffer is handed back as it was.
-/
import proofs.«169635_j23201413333001_2_alg».proof.Proof.KB.RunB

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the output's staging buffer ends with in this case, with the proof that from whole staging
    memrefs — the inputs at their contents, the output at its running contents — the body runs to a continuation that holds the inputs as they
    were and the output's buffer with those pieces written. -/
noncomputable def runC (c : Dev nD) (i : grid0.Coords) (arg3 : Memref sig .tc .vmem S2048x512 .f32) (harg3 : arg3.IsWhole) (arg4 : Memref sig .tc .vmem S2048x512 .f32) (harg4 : arg4.IsWhole) (arg5 : Memref sig .tc .vmem S2048x16 .f32) (harg5 : arg5.IsWhole) (arg6 : Memref sig .tc .vmem S1x2048x16 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S2048x2048 .f32) (harg9 : arg9.IsWhole) (hc0 : ¬condFirst i) (hc1 : condLast i)
    (x0 : Vec F S2048x512 .f32) (x1 : Vec F S2048x512 .f32) (x2 : Vec F S2048x16 .f32) (x3 : Vec F S1x2048x16 .f32) (x4 : Vec F S1x2048 .f32) (x5 : Vec F S1x2048 .f32) (xo : Vec F S2048x2048 .f32) :
    { L : List (View.Piece (Elt F) S2048x2048 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xo
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ f, arg9.view.loc (c : Thread nD τ) ↦[arg9.view.set]{fullShare} arg9.view.writes (Elt F) f L)) -∗ K ⟨⟩))
          ⊢ wp frame (wpE (defs₀ (F := F)) Variants.none c none) E (cc0__kernel i arg3 harg3 arg4 harg4 arg5 harg5 arg6 harg6 arg7 harg7 arg8 harg8 arg9 harg9) K } := by
  refine ⟨?_, fun E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    iexists _; iexact H6

end Cert.Kernel.Fr

end
-- ==== Proof.KB.Frame.lean ====
/-
  The frame of the program: what the output's staging buffer holds after each grid point, the pipeline's proof
  data, the body obligation, the run and the frame claim.

  The grid is 4 × 2 × 8 and a point t has reduction coordinate k = t mod 8. The output block (i, j) is visited at
  eight consecutive points: at k = 0 the buffer is reset and the first product added, at 0 < k < 7 a product is
  added to what the point before left, at k = 7 a product is added and the tile finished; the block is written back
  after k = 7 only. So the contents after point t are defined by recursion on t, each case applied to what the point
  before left, and the buffer at a point with k ≠ 0 is found holding exactly that.
-/
import proofs.«169635_j23201413333001_2_alg».proof.Proof.KB.RunC

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The pieces of this case tile the output block (one whole-block store last), so they cover it. -/
theorem coverA (c : Dev nD) (i : grid0.Coords) (arg3 : Memref sig .tc .vmem S2048x512 .f32) (harg3 : arg3.IsWhole) (arg4 : Memref sig .tc .vmem S2048x512 .f32) (harg4 : arg4.IsWhole) (arg5 : Memref sig .tc .vmem S2048x16 .f32) (harg5 : arg5.IsWhole) (arg6 : Memref sig .tc .vmem S1x2048x16 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S2048x2048 .f32) (harg9 : arg9.IsWhole) (hc0 : condFirst i) (hc1 : ¬condLast i)
    (x0 : Vec F S2048x512 .f32) (x1 : Vec F S2048x512 .f32) (x2 : Vec F S2048x16 .f32) (x3 : Vec F S1x2048x16 .f32) (x4 : Vec F S1x2048 .f32) (x5 : Vec F S1x2048 .f32) (y : S2048x2048.Idx) :
    ∃ pc ∈ (runA c i arg3 harg3 arg4 harg4 arg5 harg5 arg6 harg6 arg7 harg7 arg8 harg8 arg9 harg9 hc0 hc1 x0 x1 x2 x3 x4 x5).1, y ∈ pc.1.set :=
  View.cover_of_tiledL (runA c i arg3 harg3 arg4 harg4 arg5 harg5 arg6 harg6 arg7 harg7 arg8 harg8 arg9 harg9 hc0 hc1 x0 x1 x2 x3 x4 x5).1 S2048x2048.size (by sl_kernel_rfl) y

/-- What this case leaves in the output's staging buffer: its pieces read back. -/
def outA (c : Dev nD) (i : grid0.Coords) (arg3 : Memref sig .tc .vmem S2048x512 .f32) (harg3 : arg3.IsWhole) (arg4 : Memref sig .tc .vmem S2048x512 .f32) (harg4 : arg4.IsWhole) (arg5 : Memref sig .tc .vmem S2048x16 .f32) (harg5 : arg5.IsWhole) (arg6 : Memref sig .tc .vmem S1x2048x16 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S2048x2048 .f32) (harg9 : arg9.IsWhole) (hc0 : condFirst i) (hc1 : ¬condLast i)
    (x0 : Vec F S2048x512 .f32) (x1 : Vec F S2048x512 .f32) (x2 : Vec F S2048x16 .f32) (x3 : Vec F S1x2048x16 .f32) (x4 : Vec F S1x2048 .f32) (x5 : Vec F S1x2048 .f32) : Vec F S2048x2048 .f32 :=
  VO.read (Elt F) (VO.writes (Elt F) VO.junk (runA c i arg3 harg3 arg4 harg4 arg5 harg5 arg6 harg6 arg7 harg7 arg8 harg8 arg9 harg9 hc0 hc1 x0 x1 x2 x3 x4 x5).1)

/-- The pieces of this case tile the output block (one whole-block store last), so they cover it. -/
theorem coverB (c : Dev nD) (i : grid0.Coords) (arg3 : Memref sig .tc .vmem S2048x512 .f32) (harg3 : arg3.IsWhole) (arg4 : Memref sig .tc .vmem S2048x512 .f32) (harg4 : arg4.IsWhole) (arg5 : Memref sig .tc .vmem S2048x16 .f32) (harg5 : arg5.IsWhole) (arg6 : Memref sig .tc .vmem S1x2048x16 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S2048x2048 .f32) (harg9 : arg9.IsWhole) (hc0 : ¬condFirst i) (hc1 : ¬condLast i)
    (x0 : Vec F S2048x512 .f32) (x1 : Vec F S2048x512 .f32) (x2 : Vec F S2048x16 .f32) (x3 : Vec F S1x2048x16 .f32) (x4 : Vec F S1x2048 .f32) (x5 : Vec F S1x2048 .f32) (xo : Vec F S2048x2048 .f32) (y : S2048x2048.Idx) :
    ∃ pc ∈ (runB c i arg3 harg3 arg4 harg4 arg5 harg5 arg6 harg6 arg7 harg7 arg8 harg8 arg9 harg9 hc0 hc1 x0 x1 x2 x3 x4 x5 xo).1, y ∈ pc.1.set :=
  View.cover_of_tiledL (runB c i arg3 harg3 arg4 harg4 arg5 harg5 arg6 harg6 arg7 harg7 arg8 harg8 arg9 harg9 hc0 hc1 x0 x1 x2 x3 x4 x5 xo).1 S2048x2048.size (by sl_kernel_rfl) y

/-- What this case leaves in the output's staging buffer: its pieces read back. -/
def outB (c : Dev nD) (i : grid0.Coords) (arg3 : Memref sig .tc .vmem S2048x512 .f32) (harg3 : arg3.IsWhole) (arg4 : Memref sig .tc .vmem S2048x512 .f32) (harg4 : arg4.IsWhole) (arg5 : Memref sig .tc .vmem S2048x16 .f32) (harg5 : arg5.IsWhole) (arg6 : Memref sig .tc .vmem S1x2048x16 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S2048x2048 .f32) (harg9 : arg9.IsWhole) (hc0 : ¬condFirst i) (hc1 : ¬condLast i)
    (x0 : Vec F S2048x512 .f32) (x1 : Vec F S2048x512 .f32) (x2 : Vec F S2048x16 .f32) (x3 : Vec F S1x2048x16 .f32) (x4 : Vec F S1x2048 .f32) (x5 : Vec F S1x2048 .f32) (xo : Vec F S2048x2048 .f32) : Vec F S2048x2048 .f32 :=
  VO.read (Elt F) (VO.writes (Elt F) VO.junk (runB c i arg3 harg3 arg4 harg4 arg5 harg5 arg6 harg6 arg7 harg7 arg8 harg8 arg9 harg9 hc0 hc1 x0 x1 x2 x3 x4 x5 xo).1)

/-- The pieces of this case tile the output block (one whole-block store last), so they cover it. -/
theorem coverC (c : Dev nD) (i : grid0.Coords) (arg3 : Memref sig .tc .vmem S2048x512 .f32) (harg3 : arg3.IsWhole) (arg4 : Memref sig .tc .vmem S2048x512 .f32) (harg4 : arg4.IsWhole) (arg5 : Memref sig .tc .vmem S2048x16 .f32) (harg5 : arg5.IsWhole) (arg6 : Memref sig .tc .vmem S1x2048x16 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S2048x2048 .f32) (harg9 : arg9.IsWhole) (hc0 : ¬condFirst i) (hc1 : condLast i)
    (x0 : Vec F S2048x512 .f32) (x1 : Vec F S2048x512 .f32) (x2 : Vec F S2048x16 .f32) (x3 : Vec F S1x2048x16 .f32) (x4 : Vec F S1x2048 .f32) (x5 : Vec F S1x2048 .f32) (xo : Vec F S2048x2048 .f32) (y : S2048x2048.Idx) :
    ∃ pc ∈ (runC c i arg3 harg3 arg4 harg4 arg5 harg5 arg6 harg6 arg7 harg7 arg8 harg8 arg9 harg9 hc0 hc1 x0 x1 x2 x3 x4 x5 xo).1, y ∈ pc.1.set :=
  View.cover_of_tiledL (runC c i arg3 harg3 arg4 harg4 arg5 harg5 arg6 harg6 arg7 harg7 arg8 harg8 arg9 harg9 hc0 hc1 x0 x1 x2 x3 x4 x5 xo).1 S2048x2048.size (by sl_kernel_rfl) y

/-- What this case leaves in the output's staging buffer: its pieces read back. -/
def outC (c : Dev nD) (i : grid0.Coords) (arg3 : Memref sig .tc .vmem S2048x512 .f32) (harg3 : arg3.IsWhole) (arg4 : Memref sig .tc .vmem S2048x512 .f32) (harg4 : arg4.IsWhole) (arg5 : Memref sig .tc .vmem S2048x16 .f32) (harg5 : arg5.IsWhole) (arg6 : Memref sig .tc .vmem S1x2048x16 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S2048x2048 .f32) (harg9 : arg9.IsWhole) (hc0 : ¬condFirst i) (hc1 : condLast i)
    (x0 : Vec F S2048x512 .f32) (x1 : Vec F S2048x512 .f32) (x2 : Vec F S2048x16 .f32) (x3 : Vec F S1x2048x16 .f32) (x4 : Vec F S1x2048 .f32) (x5 : Vec F S1x2048 .f32) (xo : Vec F S2048x2048 .f32) : Vec F S2048x2048 .f32 :=
  VO.read (Elt F) (VO.writes (Elt F) VO.junk (runC c i arg3 harg3 arg4 harg4 arg5 harg5 arg6 harg6 arg7 harg7 arg8 harg8 arg9 harg9 hc0 hc1 x0 x1 x2 x3 x4 x5 xo).1)

/-! ## What the output's buffer holds after each point -/

/-- The contents after the point at position n: the case its reduction coordinate selects, run at the point's
    memrefs and input blocks, over what the point before left when the case reads the buffer. -/
def outsAt (c : Dev nD) : (n : ℕ) → n < cfg0.N → Vec F S2048x2048 .f32
  | 0, hn => outA c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) ((hcondFirst ⟨0, hn⟩).mpr (Nat.zero_mod 8)) (fun h => absurd ((hcondLast ⟨0, hn⟩).mp h) (by have := (Nat.zero_mod 8); (try dsimp only at this ⊢); omega)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩)
  | n + 1, hn =>
    if h0 : (n + 1) % 8 = 0 then
      outA c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) ((hcondFirst ⟨n + 1, hn⟩).mpr h0) (fun h => absurd ((hcondLast ⟨n + 1, hn⟩).mp h) (by have := h0; (try dsimp only at this ⊢); omega)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩)
    else if h7 : (n + 1) % 8 = 7 then
      outC c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (fun h => h0 ((hcondFirst ⟨n + 1, hn⟩).mp h)) ((hcondLast ⟨n + 1, hn⟩).mpr h7) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt c n (Nat.lt_of_succ_lt hn))
    else
      outB c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (fun h => h0 ((hcondFirst ⟨n + 1, hn⟩).mp h)) (fun h => h7 ((hcondLast ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt c n (Nat.lt_of_succ_lt hn))

theorem outsAt_A (c : Dev nD) (t : Fin cfg0.N) (h0 : t.val % 8 = 0) :
    outsAt m c t.val t.isLt = outA c (grid0.coords t) (ms0 t) (hs0 t) (ms1 t) (hs1 t) (ms2 t) (hs2 t) (ms3 t) (hs3 t) (ms4 t) (hs4 t) (ms5 t) (hs5 t) (ms6 t) (hs6 t) ((hcondFirst t).mpr h0) (fun h => absurd ((hcondLast t).mp h) (by have := h0; (try dsimp only at this ⊢); omega)) (iblk m c 0 t) (iblk m c 1 t) (iblk m c 2 t) (iblk m c 3 t) (iblk m c 4 t) (iblk m c 5 t) := by
  obtain ⟨n, hn⟩ := t
  cases n with
  | zero => exact rfl
  | succ n => exact (dif_pos h0).trans rfl

theorem outsAt_C (c : Dev nD) (t : Fin cfg0.N) (h0 : ¬t.val % 8 = 0) (h7 : t.val % 8 = 7) :
    outsAt m c t.val t.isLt = outC c (grid0.coords t) (ms0 t) (hs0 t) (ms1 t) (hs1 t) (ms2 t) (hs2 t) (ms3 t) (hs3 t) (ms4 t) (hs4 t) (ms5 t) (hs5 t) (ms6 t) (hs6 t) (fun h => h0 ((hcondFirst t).mp h)) ((hcondLast t).mpr h7) (iblk m c 0 t) (iblk m c 1 t) (iblk m c 2 t) (iblk m c 3 t) (iblk m c 4 t) (iblk m c 5 t) (outsAt m c (t.val - 1) (Nat.lt_of_le_of_lt (Nat.sub_le _ _) t.isLt)) := by
  obtain ⟨n, hn⟩ := t
  cases n with
  | zero => exact absurd (Nat.zero_mod 8) h0
  | succ n => exact (dif_neg h0).trans ((dif_pos h7).trans rfl)

theorem outsAt_B (c : Dev nD) (t : Fin cfg0.N) (h0 : ¬t.val % 8 = 0) (h7 : ¬t.val % 8 = 7) :
    outsAt m c t.val t.isLt = outB c (grid0.coords t) (ms0 t) (hs0 t) (ms1 t) (hs1 t) (ms2 t) (hs2 t) (ms3 t) (hs3 t) (ms4 t) (hs4 t) (ms5 t) (hs5 t) (ms6 t) (hs6 t) (fun h => h0 ((hcondFirst t).mp h)) (fun h => h7 ((hcondLast t).mp h)) (iblk m c 0 t) (iblk m c 1 t) (iblk m c 2 t) (iblk m c 3 t) (iblk m c 4 t) (iblk m c 5 t) (outsAt m c (t.val - 1) (Nat.lt_of_le_of_lt (Nat.sub_le _ _) t.isLt)) := by
  obtain ⟨n, hn⟩ := t
  cases n with
  | zero => exact absurd (Nat.zero_mod 8) h0
  | succ n => exact (dif_neg h0).trans ((dif_neg h7).trans rfl)

/-! ## The pipeline's proof data -/

/-- The arrays as the region finds them; after the body each input's buffer at its block and the output's at
    outsAt; the invariant the scoped rest and the generator register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt m c t.val t.isLt)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = (outsAt m c t.val t.isLt) := by dsimp only [dats]

theorem before0 (c : Dev nD) (t : Fin cfg0.N) (d) : (dats m 0 c).before 0 t d = iblk m c 0 t :=
  before_in0_of m (dats m 0 c) (A_eq m c 0) (after0 m c) t d
theorem before1 (c : Dev nD) (t : Fin cfg0.N) (d) : (dats m 0 c).before 1 t d = iblk m c 1 t :=
  before_in1_of m (dats m 0 c) (A_eq m c 1) (after1 m c) t d
theorem before2 (c : Dev nD) (t : Fin cfg0.N) (d) : (dats m 0 c).before 2 t d = iblk m c 2 t :=
  before_in2_of m (dats m 0 c) (A_eq m c 2) (after2 m c) t d
theorem before3 (c : Dev nD) (t : Fin cfg0.N) (d) : (dats m 0 c).before 3 t d = iblk m c 3 t :=
  before_in3_of m (dats m 0 c) (A_eq m c 3) (after3 m c) t d
theorem before4 (c : Dev nD) (t : Fin cfg0.N) (d) : (dats m 0 c).before 4 t d = iblk m c 4 t :=
  before_in4_of m (dats m 0 c) (A_eq m c 4) (after4 m c) t d
theorem before5 (c : Dev nD) (t : Fin cfg0.N) (d) : (dats m 0 c).before 5 t d = iblk m c 5 t :=
  before_in5_of m (dats m 0 c) (A_eq m c 5) (after5 m c) t d

/-- At a point whose reduction coordinate is not 0 the output's buffer holds what the body left at the point
    before: the point is not the first, and the block is written back only after coordinate 7. -/
theorem before6_kept (c : Dev nD) (t : Fin cfg0.N) (h0 : ¬t.val % 8 = 0) (d) :
    (dats m 0 c).before 6 t d = (outsAt m c (t.val - 1) (Nat.lt_of_le_of_lt (Nat.sub_le _ _) t.isLt)) := by
  have hN : t.val < 64 := lt_of_lt_of_eq t.isLt (show cfg0.N = 64 from N_0)
  rw [Dat.before_out_kept _ 6 rfl t (by omega) (Bool.eq_false_iff.mpr fun h => by have := (flush0_6 _).mp h; (try dsimp only at this); omega)
    (fun _ => rfl) (fun _ _ => rfl)]
  dsimp only [dats]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t))

set_option maxHeartbeats 1600000 in
/-- The body at any point: the inputs' memrefs hold their blocks; the reduction coordinate says which case the point
    is in; the output's buffer holds what the point before left whenever the case reads it; so that case's run
    applies, and its pieces read back are the contents recorded for the point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).Φ t.succ = (dats m 0 c).Φ t.castSucc from rfl,
    show (dats m 0 c).owesAt () t.succ = (dats m 0 c).owesAt () t.castSucc from rfl,
    after0, after1, after2, after3, after4, after5, after6]
  by_cases h0 : t.val % 8 = 0
  · rw [outsAt_A m c t h0]
    unfold outA
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((runA c (grid0.coords t) _ _ _ _ _ _ _ _ _ _ _ _ _ _ ((hcondFirst t).mpr h0) (fun h => absurd ((hcondLast t).mp h) (by have := h0; (try dsimp only at this ⊢); omega)) (iblk m c 0 t) (iblk m c 1 t) (iblk m c 2 t) (iblk m c 3 t) (iblk m c 4 t) (iblk m c 5 t)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    iintro ⟨H0, H1, H2, H3, H4, H5, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    unfold owns; iexists _; isplitr
    swap; · iexact H6
    ipureintro; exact View.read_writes_of_cover _ _ _ _ _ (coverA c _ _ _ _ _ _ _ _ _ _ _ _ _ _ _ _ _ _ _ _ _ _ _)
  · simp only [before6_kept m c t h0]
    by_cases h7 : t.val % 8 = 7
    · rw [outsAt_C m c t h0 h7]
      unfold outC
      iintro ⟨HΦ, Ho, ⟨%d0, H0⟩, ⟨%d1, H1⟩, ⟨%d2, H2⟩, ⟨%d3, H3⟩, ⟨%d4, H4⟩, ⟨%d5, H5⟩, ⟨%d6, H6⟩⟩
      iapply ((runC c (grid0.coords t) _ _ _ _ _ _ _ _ _ _ _ _ _ _ (fun h => h0 ((hcondFirst t).mp h)) ((hcondLast t).mpr h7) (iblk m c 0 t) (iblk m c 1 t) (iblk m c 2 t) (iblk m c 3 t) (iblk m c 4 t) (iblk m c 5 t) _).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      iintro ⟨H0, H1, H2, H3, H4, H5, ⟨%e6, H6⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (coverC c _ _ _ _ _ _ _ _ _ _ _ _ _ _ _ _ _ _ _ _ _ _ _ _)
    · rw [outsAt_B m c t h0 h7]
      unfold outB
      iintro ⟨HΦ, Ho, ⟨%d0, H0⟩, ⟨%d1, H1⟩, ⟨%d2, H2⟩, ⟨%d3, H3⟩, ⟨%d4, H4⟩, ⟨%d5, H5⟩, ⟨%d6, H6⟩⟩
      iapply ((runB c (grid0.coords t) _ _ _ _ _ _ _ _ _ _ _ _ _ _ (fun h => h0 ((hcondFirst t).mp h)) (fun h => h7 ((hcondLast t).mp h)) (iblk m c 0 t) (iblk m c 1 t) (iblk m c 2 t) (iblk m c 3 t) (iblk m c 4 t) (iblk m c 5 t) _).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      iintro ⟨H0, H1, H2, H3, H4, H5, ⟨%e6, H6⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (coverB c _ _ _ _ _ _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, every array of the
    pipeline ends at what the proof data says and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame claim at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  frame_of m ρ (dats m) (A_eq m) (run_main m ρ)

end Cert.Kernel.Fr

end
-- ==== Proof.KI.Entry.lean ====
/-
  The region of this program as the pipeline finds it.

  @main is 36 host operations and then one region on the grid (i, j, k) ∈ 4 × 2 × 8. This module fixes what the
  rest of the frame is stated over: the buffers' contents when the region is entered (the fold of the host
  operations over the launch memory); that none of those operations writes an argument; a window's block at a
  point read off its array; that an input window's staging buffer holds that block at every point; how the frame
  claim follows from a run that names every array afterwards; and the two conditions the body branches on, which
  depend on the reduction coordinate k alone: k = 0 (reset the accumulator) and k = 7 (finish the tile).
-/
import proofs.«169635_j23201413333001_2_alg».proof.Proof.Gen.KernelIdeal.Launch
import proofs.«169635_j23201413333001_2_alg».proof.Proof.Gen.KernelIdeal.Skeleton
import proofs.«169635_j23201413333001_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core c's buffers when the region is entered: the launch memory after the 36 host operations. -/
abbrev V (c : Dev nD) (b : Ref sig .tc) : Buf (Elt F) ((c : Thread nD τ).loc b) :=
  StableHlo.after hostOps0 (fun b => m (c, b)) b

/-- No host operation allocates. -/
theorem hostOps0_fresh : (hostOps0 : List (HloOp τ sig (Elt F))).Forall fun op => op.fresh = ∅ := by
  simp only [List.Forall]; repeat' constructor

/-- @main is the host operations and then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
/-- No host operation before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
/-- No host operation before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
/-- No host operation before the region writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
/-- No host operation before the region writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
/-- No host operation before the region writes argument 10: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
/-- No host operation before the region writes argument 11: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
/-- No host operation before the region writes argument 12: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before_in0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not. -/
theorem before_in1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not. -/
theorem before_in2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not. -/
theorem before_in3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not. -/
theorem before_in4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not. -/
theorem before_in5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim from a run that names the arrays -/

/-- Arguments 0 and 1 are staged by windows 0 and 1 and come back as they were; the other eleven are staged by no
    window and no host operation writes them. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c)⟩) h

/-! ## The body's two conditions -/

/-- The first branch is taken when the reduction coordinate is 0. -/
abbrev condFirst (i : grid0.Coords) : Prop := (Scalar.cmpi .ne (Scalar.extui (Scalar.cmpi .eq (BitVec.ofNat 32 (i 2).val) 0#32)) 0#32) = 1#1
theorem hcondFirst : ∀ t : Fin cfg0.N, condFirst (grid0.coords t) ↔ t.val % 8 = 0 :=
  (by decide +kernel : ∀ t : Fin grid0.N, condFirst (grid0.coords t) ↔ t.val % 8 = 0)
/-- The second branch is taken when the reduction coordinate is 7. -/
abbrev condLast (i : grid0.Coords) : Prop := (Scalar.cmpi .ne (Scalar.extui (Scalar.cmpi .eq (BitVec.ofNat 32 (i 2).val) 7#32)) 0#32) = 1#1
theorem hcondLast : ∀ t : Fin cfg0.N, condLast (grid0.coords t) ↔ t.val % 8 = 7 :=
  (by decide +kernel : ∀ t : Fin grid0.N, condLast (grid0.coords t) ↔ t.val % 8 = 7)

/-! ## The staging memrefs at a point -/

/-- One staging buffer of the output window, through which its contents are stated. -/
abbrev VO : View sig .tc .vmem S2048x2048 .f32 := (Memref.whole cc0_stg6_0 : Memref sig .tc .vmem S2048x2048 .f32).view
abbrev ms0 (t : Fin cfg0.N) : Memref sig .tc .vmem S2048x512 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S2048x512 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S2048x16 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x2048x16 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x2048 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x2048 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S2048x2048 .f32 := win0_6.stage (cfg0.slots t 6)
abbrev hs6 (t : Fin cfg0.N) : (ms6 t).IsWhole := hstage0_6 ((cfg0.slots t 6).cast nbuf0_6)

end Cert.KernelIdeal.Fr

end
-- ==== Proof.KI.RunA.lean ====
/-
  The kernel body run once, in the case where the reduction coordinate is 0: the accumulator is reset to zero, then this step's product is added; nothing of what the buffer held before is read.
  The run is by symbolic execution of the body's loads and stores; its witness is the list of pieces the output's
  staging buffer ends with, and every input buffer is handed back as it was.
-/
import proofs.«169635_j23201413333001_2_alg».proof.Proof.KI.Entry

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the output's staging buffer ends with in this case, with the proof that from whole staging
    memrefs — the inputs at their contents, the output at anything — the body runs to a continuation that holds the inputs as they
    were and the output's buffer with those pieces written. -/
noncomputable def runA (c : Dev nD) (i : grid0.Coords) (arg3 : Memref sig .tc .vmem S2048x512 .f32) (harg3 : arg3.IsWhole) (arg4 : Memref sig .tc .vmem S2048x512 .f32) (harg4 : arg4.IsWhole) (arg5 : Memref sig .tc .vmem S2048x16 .f32) (harg5 : arg5.IsWhole) (arg6 : Memref sig .tc .vmem S1x2048x16 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S2048x2048 .f32) (harg9 : arg9.IsWhole) (hc0 : condFirst i) (hc1 : ¬condLast i)
    (x0 : Vec F S2048x512 .f32) (x1 : Vec F S2048x512 .f32) (x2 : Vec F S2048x16 .f32) (x3 : Vec F S1x2048x16 .f32) (x4 : Vec F S1x2048 .f32) (x5 : Vec F S1x2048 .f32) :
    { L : List (View.Piece (Elt F) S2048x2048 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ f, arg9.view.loc (c : Thread nD τ) ↦[arg9.view.set]{fullShare} arg9.view.writes (Elt F) f L)) -∗ K ⟨⟩))
          ⊢ wp frame (wpE (defs₀ (F := F)) Variants.none c none) E (cc0__kernel i arg3 harg3 arg4 harg4 arg5 harg5 arg6 harg6 arg7 harg7 arg8 harg8 arg9 harg9) K } := by
  refine ⟨?_, fun E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    iexists _; iexact H6

end Cert.KernelIdeal.Fr

end
-- ==== Proof.KI.RunB.lean ====
/-
  The kernel body run once, in the case where the reduction coordinate is strictly between 0 and 7: this step's product is added to what the buffer held (xo).
  The run is by symbolic execution of the body's loads and stores; its witness is the list of pieces the output's
  staging buffer ends with, and every input buffer is handed back as it was.
-/
import proofs.«169635_j23201413333001_2_alg».proof.Proof.KI.RunA

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the output's staging buffer ends with in this case, with the proof that from whole staging
    memrefs — the inputs at their contents, the output at its running contents — the body runs to a continuation that holds the inputs as they
    were and the output's buffer with those pieces written. -/
noncomputable def runB (c : Dev nD) (i : grid0.Coords) (arg3 : Memref sig .tc .vmem S2048x512 .f32) (harg3 : arg3.IsWhole) (arg4 : Memref sig .tc .vmem S2048x512 .f32) (harg4 : arg4.IsWhole) (arg5 : Memref sig .tc .vmem S2048x16 .f32) (harg5 : arg5.IsWhole) (arg6 : Memref sig .tc .vmem S1x2048x16 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S2048x2048 .f32) (harg9 : arg9.IsWhole) (hc0 : ¬condFirst i) (hc1 : ¬condLast i)
    (x0 : Vec F S2048x512 .f32) (x1 : Vec F S2048x512 .f32) (x2 : Vec F S2048x16 .f32) (x3 : Vec F S1x2048x16 .f32) (x4 : Vec F S1x2048 .f32) (x5 : Vec F S1x2048 .f32) (xo : Vec F S2048x2048 .f32) :
    { L : List (View.Piece (Elt F) S2048x2048 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xo
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ f, arg9.view.loc (c : Thread nD τ) ↦[arg9.view.set]{fullShare} arg9.view.writes (Elt F) f L)) -∗ K ⟨⟩))
          ⊢ wp frame (wpE (defs₀ (F := F)) Variants.none c none) E (cc0__kernel i arg3 harg3 arg4 harg4 arg5 harg5 arg6 harg6 arg7 harg7 arg8 harg8 arg9 harg9) K } := by
  refine ⟨?_, fun E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    iexists _; iexact H6

end Cert.KernelIdeal.Fr

end
-- ==== Proof.KI.RunC.lean ====
/-
  The kernel body run once, in the case where the reduction coordinate is 7: this step's product is added to what the buffer held (xo), then the tile is finished with the rank-16 adapter term.
  The run is by symbolic execution of the body's loads and stores; its witness is the list of pieces the output's
  staging buffer ends with, and every input buffer is handed back as it was.
-/
import proofs.«169635_j23201413333001_2_alg».proof.Proof.KI.RunB

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the output's staging buffer ends with in this case, with the proof that from whole staging
    memrefs — the inputs at their contents, the output at its running contents — the body runs to a continuation that holds the inputs as they
    were and the output's buffer with those pieces written. -/
noncomputable def runC (c : Dev nD) (i : grid0.Coords) (arg3 : Memref sig .tc .vmem S2048x512 .f32) (harg3 : arg3.IsWhole) (arg4 : Memref sig .tc .vmem S2048x512 .f32) (harg4 : arg4.IsWhole) (arg5 : Memref sig .tc .vmem S2048x16 .f32) (harg5 : arg5.IsWhole) (arg6 : Memref sig .tc .vmem S1x2048x16 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S2048x2048 .f32) (harg9 : arg9.IsWhole) (hc0 : ¬condFirst i) (hc1 : condLast i)
    (x0 : Vec F S2048x512 .f32) (x1 : Vec F S2048x512 .f32) (x2 : Vec F S2048x16 .f32) (x3 : Vec F S1x2048x16 .f32) (x4 : Vec F S1x2048 .f32) (x5 : Vec F S1x2048 .f32) (xo : Vec F S2048x2048 .f32) :
    { L : List (View.Piece (Elt F) S2048x2048 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xo
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ f, arg9.view.loc (c : Thread nD τ) ↦[arg9.view.set]{fullShare} arg9.view.writes (Elt F) f L)) -∗ K ⟨⟩))
          ⊢ wp frame (wpE (defs₀ (F := F)) Variants.none c none) E (cc0__kernel i arg3 harg3 arg4 harg4 arg5 harg5 arg6 harg6 arg7 harg7 arg8 harg8 arg9 harg9) K } := by
  refine ⟨?_, fun E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    iexists _; iexact H6

end Cert.KernelIdeal.Fr

end
-- ==== Proof.KI.Frame.lean ====
/-
  The frame of the program: what the output's staging buffer holds after each grid point, the pipeline's proof
  data, the body obligation, the run and the frame claim.

  The grid is 4 × 2 × 8 and a point t has reduction coordinate k = t mod 8. The output block (i, j) is visited at
  eight consecutive points: at k = 0 the buffer is reset and the first product added, at 0 < k < 7 a product is
  added to what the point before left, at k = 7 a product is added and the tile finished; the block is written back
  after k = 7 only. So the contents after point t are defined by recursion on t, each case applied to what the point
  before left, and the buffer at a point with k ≠ 0 is found holding exactly that.
-/
import proofs.«169635_j23201413333001_2_alg».proof.Proof.KI.RunC

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The pieces of this case tile the output block (one whole-block store last), so they cover it. -/
theorem coverA (c : Dev nD) (i : grid0.Coords) (arg3 : Memref sig .tc .vmem S2048x512 .f32) (harg3 : arg3.IsWhole) (arg4 : Memref sig .tc .vmem S2048x512 .f32) (harg4 : arg4.IsWhole) (arg5 : Memref sig .tc .vmem S2048x16 .f32) (harg5 : arg5.IsWhole) (arg6 : Memref sig .tc .vmem S1x2048x16 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S2048x2048 .f32) (harg9 : arg9.IsWhole) (hc0 : condFirst i) (hc1 : ¬condLast i)
    (x0 : Vec F S2048x512 .f32) (x1 : Vec F S2048x512 .f32) (x2 : Vec F S2048x16 .f32) (x3 : Vec F S1x2048x16 .f32) (x4 : Vec F S1x2048 .f32) (x5 : Vec F S1x2048 .f32) (y : S2048x2048.Idx) :
    ∃ pc ∈ (runA c i arg3 harg3 arg4 harg4 arg5 harg5 arg6 harg6 arg7 harg7 arg8 harg8 arg9 harg9 hc0 hc1 x0 x1 x2 x3 x4 x5).1, y ∈ pc.1.set :=
  View.cover_of_tiledL (runA c i arg3 harg3 arg4 harg4 arg5 harg5 arg6 harg6 arg7 harg7 arg8 harg8 arg9 harg9 hc0 hc1 x0 x1 x2 x3 x4 x5).1 S2048x2048.size (by sl_kernel_rfl) y

/-- What this case leaves in the output's staging buffer: its pieces read back. -/
def outA (c : Dev nD) (i : grid0.Coords) (arg3 : Memref sig .tc .vmem S2048x512 .f32) (harg3 : arg3.IsWhole) (arg4 : Memref sig .tc .vmem S2048x512 .f32) (harg4 : arg4.IsWhole) (arg5 : Memref sig .tc .vmem S2048x16 .f32) (harg5 : arg5.IsWhole) (arg6 : Memref sig .tc .vmem S1x2048x16 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S2048x2048 .f32) (harg9 : arg9.IsWhole) (hc0 : condFirst i) (hc1 : ¬condLast i)
    (x0 : Vec F S2048x512 .f32) (x1 : Vec F S2048x512 .f32) (x2 : Vec F S2048x16 .f32) (x3 : Vec F S1x2048x16 .f32) (x4 : Vec F S1x2048 .f32) (x5 : Vec F S1x2048 .f32) : Vec F S2048x2048 .f32 :=
  VO.read (Elt F) (VO.writes (Elt F) VO.junk (runA c i arg3 harg3 arg4 harg4 arg5 harg5 arg6 harg6 arg7 harg7 arg8 harg8 arg9 harg9 hc0 hc1 x0 x1 x2 x3 x4 x5).1)

/-- The pieces of this case tile the output block (one whole-block store last), so they cover it. -/
theorem coverB (c : Dev nD) (i : grid0.Coords) (arg3 : Memref sig .tc .vmem S2048x512 .f32) (harg3 : arg3.IsWhole) (arg4 : Memref sig .tc .vmem S2048x512 .f32) (harg4 : arg4.IsWhole) (arg5 : Memref sig .tc .vmem S2048x16 .f32) (harg5 : arg5.IsWhole) (arg6 : Memref sig .tc .vmem S1x2048x16 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S2048x2048 .f32) (harg9 : arg9.IsWhole) (hc0 : ¬condFirst i) (hc1 : ¬condLast i)
    (x0 : Vec F S2048x512 .f32) (x1 : Vec F S2048x512 .f32) (x2 : Vec F S2048x16 .f32) (x3 : Vec F S1x2048x16 .f32) (x4 : Vec F S1x2048 .f32) (x5 : Vec F S1x2048 .f32) (xo : Vec F S2048x2048 .f32) (y : S2048x2048.Idx) :
    ∃ pc ∈ (runB c i arg3 harg3 arg4 harg4 arg5 harg5 arg6 harg6 arg7 harg7 arg8 harg8 arg9 harg9 hc0 hc1 x0 x1 x2 x3 x4 x5 xo).1, y ∈ pc.1.set :=
  View.cover_of_tiledL (runB c i arg3 harg3 arg4 harg4 arg5 harg5 arg6 harg6 arg7 harg7 arg8 harg8 arg9 harg9 hc0 hc1 x0 x1 x2 x3 x4 x5 xo).1 S2048x2048.size (by sl_kernel_rfl) y

/-- What this case leaves in the output's staging buffer: its pieces read back. -/
def outB (c : Dev nD) (i : grid0.Coords) (arg3 : Memref sig .tc .vmem S2048x512 .f32) (harg3 : arg3.IsWhole) (arg4 : Memref sig .tc .vmem S2048x512 .f32) (harg4 : arg4.IsWhole) (arg5 : Memref sig .tc .vmem S2048x16 .f32) (harg5 : arg5.IsWhole) (arg6 : Memref sig .tc .vmem S1x2048x16 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S2048x2048 .f32) (harg9 : arg9.IsWhole) (hc0 : ¬condFirst i) (hc1 : ¬condLast i)
    (x0 : Vec F S2048x512 .f32) (x1 : Vec F S2048x512 .f32) (x2 : Vec F S2048x16 .f32) (x3 : Vec F S1x2048x16 .f32) (x4 : Vec F S1x2048 .f32) (x5 : Vec F S1x2048 .f32) (xo : Vec F S2048x2048 .f32) : Vec F S2048x2048 .f32 :=
  VO.read (Elt F) (VO.writes (Elt F) VO.junk (runB c i arg3 harg3 arg4 harg4 arg5 harg5 arg6 harg6 arg7 harg7 arg8 harg8 arg9 harg9 hc0 hc1 x0 x1 x2 x3 x4 x5 xo).1)

/-- The pieces of this case tile the output block (one whole-block store last), so they cover it. -/
theorem coverC (c : Dev nD) (i : grid0.Coords) (arg3 : Memref sig .tc .vmem S2048x512 .f32) (harg3 : arg3.IsWhole) (arg4 : Memref sig .tc .vmem S2048x512 .f32) (harg4 : arg4.IsWhole) (arg5 : Memref sig .tc .vmem S2048x16 .f32) (harg5 : arg5.IsWhole) (arg6 : Memref sig .tc .vmem S1x2048x16 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S2048x2048 .f32) (harg9 : arg9.IsWhole) (hc0 : ¬condFirst i) (hc1 : condLast i)
    (x0 : Vec F S2048x512 .f32) (x1 : Vec F S2048x512 .f32) (x2 : Vec F S2048x16 .f32) (x3 : Vec F S1x2048x16 .f32) (x4 : Vec F S1x2048 .f32) (x5 : Vec F S1x2048 .f32) (xo : Vec F S2048x2048 .f32) (y : S2048x2048.Idx) :
    ∃ pc ∈ (runC c i arg3 harg3 arg4 harg4 arg5 harg5 arg6 harg6 arg7 harg7 arg8 harg8 arg9 harg9 hc0 hc1 x0 x1 x2 x3 x4 x5 xo).1, y ∈ pc.1.set :=
  View.cover_of_tiledL (runC c i arg3 harg3 arg4 harg4 arg5 harg5 arg6 harg6 arg7 harg7 arg8 harg8 arg9 harg9 hc0 hc1 x0 x1 x2 x3 x4 x5 xo).1 S2048x2048.size (by sl_kernel_rfl) y

/-- What this case leaves in the output's staging buffer: its pieces read back. -/
def outC (c : Dev nD) (i : grid0.Coords) (arg3 : Memref sig .tc .vmem S2048x512 .f32) (harg3 : arg3.IsWhole) (arg4 : Memref sig .tc .vmem S2048x512 .f32) (harg4 : arg4.IsWhole) (arg5 : Memref sig .tc .vmem S2048x16 .f32) (harg5 : arg5.IsWhole) (arg6 : Memref sig .tc .vmem S1x2048x16 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S2048x2048 .f32) (harg9 : arg9.IsWhole) (hc0 : ¬condFirst i) (hc1 : condLast i)
    (x0 : Vec F S2048x512 .f32) (x1 : Vec F S2048x512 .f32) (x2 : Vec F S2048x16 .f32) (x3 : Vec F S1x2048x16 .f32) (x4 : Vec F S1x2048 .f32) (x5 : Vec F S1x2048 .f32) (xo : Vec F S2048x2048 .f32) : Vec F S2048x2048 .f32 :=
  VO.read (Elt F) (VO.writes (Elt F) VO.junk (runC c i arg3 harg3 arg4 harg4 arg5 harg5 arg6 harg6 arg7 harg7 arg8 harg8 arg9 harg9 hc0 hc1 x0 x1 x2 x3 x4 x5 xo).1)

/-! ## What the output's buffer holds after each point -/

/-- The contents after the point at position n: the case its reduction coordinate selects, run at the point's
    memrefs and input blocks, over what the point before left when the case reads the buffer. -/
def outsAt (c : Dev nD) : (n : ℕ) → n < cfg0.N → Vec F S2048x2048 .f32
  | 0, hn => outA c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) ((hcondFirst ⟨0, hn⟩).mpr (Nat.zero_mod 8)) (fun h => absurd ((hcondLast ⟨0, hn⟩).mp h) (by have := (Nat.zero_mod 8); (try dsimp only at this ⊢); omega)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩)
  | n + 1, hn =>
    if h0 : (n + 1) % 8 = 0 then
      outA c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) ((hcondFirst ⟨n + 1, hn⟩).mpr h0) (fun h => absurd ((hcondLast ⟨n + 1, hn⟩).mp h) (by have := h0; (try dsimp only at this ⊢); omega)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩)
    else if h7 : (n + 1) % 8 = 7 then
      outC c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (fun h => h0 ((hcondFirst ⟨n + 1, hn⟩).mp h)) ((hcondLast ⟨n + 1, hn⟩).mpr h7) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt c n (Nat.lt_of_succ_lt hn))
    else
      outB c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (fun h => h0 ((hcondFirst ⟨n + 1, hn⟩).mp h)) (fun h => h7 ((hcondLast ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt c n (Nat.lt_of_succ_lt hn))

theorem outsAt_A (c : Dev nD) (t : Fin cfg0.N) (h0 : t.val % 8 = 0) :
    outsAt m c t.val t.isLt = outA c (grid0.coords t) (ms0 t) (hs0 t) (ms1 t) (hs1 t) (ms2 t) (hs2 t) (ms3 t) (hs3 t) (ms4 t) (hs4 t) (ms5 t) (hs5 t) (ms6 t) (hs6 t) ((hcondFirst t).mpr h0) (fun h => absurd ((hcondLast t).mp h) (by have := h0; (try dsimp only at this ⊢); omega)) (iblk m c 0 t) (iblk m c 1 t) (iblk m c 2 t) (iblk m c 3 t) (iblk m c 4 t) (iblk m c 5 t) := by
  obtain ⟨n, hn⟩ := t
  cases n with
  | zero => exact rfl
  | succ n => exact (dif_pos h0).trans rfl

theorem outsAt_C (c : Dev nD) (t : Fin cfg0.N) (h0 : ¬t.val % 8 = 0) (h7 : t.val % 8 = 7) :
    outsAt m c t.val t.isLt = outC c (grid0.coords t) (ms0 t) (hs0 t) (ms1 t) (hs1 t) (ms2 t) (hs2 t) (ms3 t) (hs3 t) (ms4 t) (hs4 t) (ms5 t) (hs5 t) (ms6 t) (hs6 t) (fun h => h0 ((hcondFirst t).mp h)) ((hcondLast t).mpr h7) (iblk m c 0 t) (iblk m c 1 t) (iblk m c 2 t) (iblk m c 3 t) (iblk m c 4 t) (iblk m c 5 t) (outsAt m c (t.val - 1) (Nat.lt_of_le_of_lt (Nat.sub_le _ _) t.isLt)) := by
  obtain ⟨n, hn⟩ := t
  cases n with
  | zero => exact absurd (Nat.zero_mod 8) h0
  | succ n => exact (dif_neg h0).trans ((dif_pos h7).trans rfl)

theorem outsAt_B (c : Dev nD) (t : Fin cfg0.N) (h0 : ¬t.val % 8 = 0) (h7 : ¬t.val % 8 = 7) :
    outsAt m c t.val t.isLt = outB c (grid0.coords t) (ms0 t) (hs0 t) (ms1 t) (hs1 t) (ms2 t) (hs2 t) (ms3 t) (hs3 t) (ms4 t) (hs4 t) (ms5 t) (hs5 t) (ms6 t) (hs6 t) (fun h => h0 ((hcondFirst t).mp h)) (fun h => h7 ((hcondLast t).mp h)) (iblk m c 0 t) (iblk m c 1 t) (iblk m c 2 t) (iblk m c 3 t) (iblk m c 4 t) (iblk m c 5 t) (outsAt m c (t.val - 1) (Nat.lt_of_le_of_lt (Nat.sub_le _ _) t.isLt)) := by
  obtain ⟨n, hn⟩ := t
  cases n with
  | zero => exact absurd (Nat.zero_mod 8) h0
  | succ n => exact (dif_neg h0).trans ((dif_neg h7).trans rfl)

/-! ## The pipeline's proof data -/

/-- The arrays as the region finds them; after the body each input's buffer at its block and the output's at
    outsAt; the invariant the scoped rest and the generator register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt m c t.val t.isLt)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = (outsAt m c t.val t.isLt) := by dsimp only [dats]

theorem before0 (c : Dev nD) (t : Fin cfg0.N) (d) : (dats m 0 c).before 0 t d = iblk m c 0 t :=
  before_in0_of m (dats m 0 c) (A_eq m c 0) (after0 m c) t d
theorem before1 (c : Dev nD) (t : Fin cfg0.N) (d) : (dats m 0 c).before 1 t d = iblk m c 1 t :=
  before_in1_of m (dats m 0 c) (A_eq m c 1) (after1 m c) t d
theorem before2 (c : Dev nD) (t : Fin cfg0.N) (d) : (dats m 0 c).before 2 t d = iblk m c 2 t :=
  before_in2_of m (dats m 0 c) (A_eq m c 2) (after2 m c) t d
theorem before3 (c : Dev nD) (t : Fin cfg0.N) (d) : (dats m 0 c).before 3 t d = iblk m c 3 t :=
  before_in3_of m (dats m 0 c) (A_eq m c 3) (after3 m c) t d
theorem before4 (c : Dev nD) (t : Fin cfg0.N) (d) : (dats m 0 c).before 4 t d = iblk m c 4 t :=
  before_in4_of m (dats m 0 c) (A_eq m c 4) (after4 m c) t d
theorem before5 (c : Dev nD) (t : Fin cfg0.N) (d) : (dats m 0 c).before 5 t d = iblk m c 5 t :=
  before_in5_of m (dats m 0 c) (A_eq m c 5) (after5 m c) t d

/-- At a point whose reduction coordinate is not 0 the output's buffer holds what the body left at the point
    before: the point is not the first, and the block is written back only after coordinate 7. -/
theorem before6_kept (c : Dev nD) (t : Fin cfg0.N) (h0 : ¬t.val % 8 = 0) (d) :
    (dats m 0 c).before 6 t d = (outsAt m c (t.val - 1) (Nat.lt_of_le_of_lt (Nat.sub_le _ _) t.isLt)) := by
  have hN : t.val < 64 := lt_of_lt_of_eq t.isLt (show cfg0.N = 64 from N_0)
  rw [Dat.before_out_kept _ 6 rfl t (by omega) (Bool.eq_false_iff.mpr fun h => by have := (flush0_6 _).mp h; (try dsimp only at this); omega)
    (fun _ => rfl) (fun _ _ => rfl)]
  dsimp only [dats]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t))

set_option maxHeartbeats 1600000 in
/-- The body at any point: the inputs' memrefs hold their blocks; the reduction coordinate says which case the point
    is in; the output's buffer holds what the point before left whenever the case reads it; so that case's run
    applies, and its pieces read back are the contents recorded for the point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).Φ t.succ = (dats m 0 c).Φ t.castSucc from rfl,
    show (dats m 0 c).owesAt () t.succ = (dats m 0 c).owesAt () t.castSucc from rfl,
    after0, after1, after2, after3, after4, after5, after6]
  by_cases h0 : t.val % 8 = 0
  · rw [outsAt_A m c t h0]
    unfold outA
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((runA c (grid0.coords t) _ _ _ _ _ _ _ _ _ _ _ _ _ _ ((hcondFirst t).mpr h0) (fun h => absurd ((hcondLast t).mp h) (by have := h0; (try dsimp only at this ⊢); omega)) (iblk m c 0 t) (iblk m c 1 t) (iblk m c 2 t) (iblk m c 3 t) (iblk m c 4 t) (iblk m c 5 t)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    iintro ⟨H0, H1, H2, H3, H4, H5, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    unfold owns; iexists _; isplitr
    swap; · iexact H6
    ipureintro; exact View.read_writes_of_cover _ _ _ _ _ (coverA c _ _ _ _ _ _ _ _ _ _ _ _ _ _ _ _ _ _ _ _ _ _ _)
  · simp only [before6_kept m c t h0]
    by_cases h7 : t.val % 8 = 7
    · rw [outsAt_C m c t h0 h7]
      unfold outC
      iintro ⟨HΦ, Ho, ⟨%d0, H0⟩, ⟨%d1, H1⟩, ⟨%d2, H2⟩, ⟨%d3, H3⟩, ⟨%d4, H4⟩, ⟨%d5, H5⟩, ⟨%d6, H6⟩⟩
      iapply ((runC c (grid0.coords t) _ _ _ _ _ _ _ _ _ _ _ _ _ _ (fun h => h0 ((hcondFirst t).mp h)) ((hcondLast t).mpr h7) (iblk m c 0 t) (iblk m c 1 t) (iblk m c 2 t) (iblk m c 3 t) (iblk m c 4 t) (iblk m c 5 t) _).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      iintro ⟨H0, H1, H2, H3, H4, H5, ⟨%e6, H6⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (coverC c _ _ _ _ _ _ _ _ _ _ _ _ _ _ _ _ _ _ _ _ _ _ _ _)
    · rw [outsAt_B m c t h0 h7]
      unfold outB
      iintro ⟨HΦ, Ho, ⟨%d0, H0⟩, ⟨%d1, H1⟩, ⟨%d2, H2⟩, ⟨%d3, H3⟩, ⟨%d4, H4⟩, ⟨%d5, H5⟩, ⟨%d6, H6⟩⟩
      iapply ((runB c (grid0.coords t) _ _ _ _ _ _ _ _ _ _ _ _ _ _ (fun h => h0 ((hcondFirst t).mp h)) (fun h => h7 ((hcondLast t).mp h)) (iblk m c 0 t) (iblk m c 1 t) (iblk m c 2 t) (iblk m c 3 t) (iblk m c 4 t) (iblk m c 5 t) _).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      iintro ⟨H0, H1, H2, H3, H4, H5, ⟨%e6, H6⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (coverB c _ _ _ _ _ _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, every array of the
    pipeline ends at what the proof data says and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame claim at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  frame_of m ρ (dats m) (A_eq m) (run_main m ρ)

end Cert.KernelIdeal.Fr

end
-- ==== Proof.KI.Pieces.lean ====
/-
  What each case of the body leaves in the output's staging buffer, as the body's own arithmetic.

  Every store of the body writes the whole 2048 × 2048 block, so the buffer ends holding the last store's value,
  and a load that follows a store reads that store's value. With pay1 the zero block, pay2 x w acc = acc + x·wᵀ on
  one 512-wide slab of the contraction, and pay3 the finishing step:
    reduction coordinate 0      :  pay2 x w pay1
    strictly between 0 and 7    :  pay2 x w (what the buffer held)
    7                           :  pay3 … (pay2 x w (what the buffer held))
-/
import proofs.«169635_j23201413333001_2_alg».proof.Proof.KI.Frame
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- Strictly inside the reduction: the one store's value, its loads reading the whole buffers. -/
theorem outB_eq (c : Dev nD) (i : grid0.Coords) (arg3 : Memref sig .tc .vmem S2048x512 .f32) (harg3 : arg3.IsWhole) (arg4 : Memref sig .tc .vmem S2048x512 .f32) (harg4 : arg4.IsWhole) (arg5 : Memref sig .tc .vmem S2048x16 .f32) (harg5 : arg5.IsWhole) (arg6 : Memref sig .tc .vmem S1x2048x16 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S2048x2048 .f32) (harg9 : arg9.IsWhole) (hc0 : ¬condFirst i) (hc1 : ¬condLast i)
    (x0 : Vec F S2048x512 .f32) (x1 : Vec F S2048x512 .f32) (x2 : Vec F S2048x16 .f32) (x3 : Vec F S1x2048x16 .f32) (x4 : Vec F S1x2048 .f32) (x5 : Vec F S1x2048 .f32) (xo : Vec F S2048x2048 .f32) :
    outB c i arg3 harg3 arg4 harg4 arg5 harg5 arg6 harg6 arg7 harg7 arg8 harg8 arg9 harg9 hc0 hc1 x0 x1 x2 x3 x4 x5 xo = k0_pay2 x0 x1 xo := by
  unfold outB
  rw [View.read_writes_eq_canon _ _ _ (coverB c i arg3 harg3 arg4 harg4 arg5 harg5 arg6 harg6 arg7 harg7 arg8 harg8 arg9 harg9 hc0 hc1 x0 x1 x2 x3 x4 x5 xo)]
  unfold runB
  dsimp only
  rw [View.canon_unit_zero hz2]
  simp only [View.readAt_eq_ld, harg3.read_unread, harg4.read_unread, harg5.read_unread, harg6.read_unread, harg7.read_unread, harg8.read_unread, harg9.read_unread, View.ld_unit_zero (S := S2048x512) hz2, View.ld_unit_zero (S := S2048x2048) hz2, View.ld_unit_zero (S := S2048x16) hz2, View.ld_unit_zero (S := S1x2048) hz2, View.ld_unit_zero (S := S1x2048x16) hz3]

/-- At the first step: the zero block is stored, read back, and the first product added to it. -/
theorem outA_eq (c : Dev nD) (i : grid0.Coords) (arg3 : Memref sig .tc .vmem S2048x512 .f32) (harg3 : arg3.IsWhole) (arg4 : Memref sig .tc .vmem S2048x512 .f32) (harg4 : arg4.IsWhole) (arg5 : Memref sig .tc .vmem S2048x16 .f32) (harg5 : arg5.IsWhole) (arg6 : Memref sig .tc .vmem S1x2048x16 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S2048x2048 .f32) (harg9 : arg9.IsWhole) (hc0 : condFirst i) (hc1 : ¬condLast i)
    (x0 : Vec F S2048x512 .f32) (x1 : Vec F S2048x512 .f32) (x2 : Vec F S2048x16 .f32) (x3 : Vec F S1x2048x16 .f32) (x4 : Vec F S1x2048 .f32) (x5 : Vec F S1x2048 .f32) :
    outA c i arg3 harg3 arg4 harg4 arg5 harg5 arg6 harg6 arg7 harg7 arg8 harg8 arg9 harg9 hc0 hc1 x0 x1 x2 x3 x4 x5 = k0_pay2 x0 x1 (k0_pay1 (F := F)) := by
  unfold outA
  rw [View.read_writes_eq_canon _ _ _ (coverA c i arg3 harg3 arg4 harg4 arg5 harg5 arg6 harg6 arg7 harg7 arg8 harg8 arg9 harg9 hc0 hc1 x0 x1 x2 x3 x4 x5)]
  unfold runA
  dsimp only
  sl_unfold_words
  rw [View.canon_cons_unit_zero (S := S2048x2048) hz2, View.readCov_unit_zero (S := S2048x2048) _ hz2]
  simp only [View.readAt_eq_ld, harg3.read_unread, harg4.read_unread, harg5.read_unread, harg6.read_unread, harg7.read_unread, harg8.read_unread, harg9.read_unread, View.ld_unit_zero (S := S2048x512) hz2, View.ld_unit_zero (S := S2048x2048) hz2, View.ld_unit_zero (S := S2048x16) hz2, View.ld_unit_zero (S := S1x2048) hz2, View.ld_unit_zero (S := S1x2048x16) hz3]

/-- At the last step: the product is added to what the buffer held, stored, read back, and the tile finished. -/
theorem outC_eq (c : Dev nD) (i : grid0.Coords) (arg3 : Memref sig .tc .vmem S2048x512 .f32) (harg3 : arg3.IsWhole) (arg4 : Memref sig .tc .vmem S2048x512 .f32) (harg4 : arg4.IsWhole) (arg5 : Memref sig .tc .vmem S2048x16 .f32) (harg5 : arg5.IsWhole) (arg6 : Memref sig .tc .vmem S1x2048x16 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S2048x2048 .f32) (harg9 : arg9.IsWhole) (hc0 : ¬condFirst i) (hc1 : condLast i)
    (x0 : Vec F S2048x512 .f32) (x1 : Vec F S2048x512 .f32) (x2 : Vec F S2048x16 .f32) (x3 : Vec F S1x2048x16 .f32) (x4 : Vec F S1x2048 .f32) (x5 : Vec F S1x2048 .f32) (xo : Vec F S2048x2048 .f32) :
    outC c i arg3 harg3 arg4 harg4 arg5 harg5 arg6 harg6 arg7 harg7 arg8 harg8 arg9 harg9 hc0 hc1 x0 x1 x2 x3 x4 x5 xo = k0_pay3 i x2 x3 x4 x5 (k0_pay2 x0 x1 xo) := by
  unfold outC
  rw [View.read_writes_eq_canon _ _ _ (coverC c i arg3 harg3 arg4 harg4 arg5 harg5 arg6 harg6 arg7 harg7 arg8 harg8 arg9 harg9 hc0 hc1 x0 x1 x2 x3 x4 x5 xo)]
  unfold runC
  dsimp only
  sl_unfold_words
  rw [View.canon_cons_unit_zero (S := S2048x2048) hz2, View.readCov_unit_zero (S := S2048x2048) _ hz2]
  simp only [View.readAt_eq_ld, harg3.read_unread, harg4.read_unread, harg5.read_unread, harg6.read_unread, harg7.read_unread, harg8.read_unread, harg9.read_unread, View.ld_unit_zero (S := S2048x512) hz2, View.ld_unit_zero (S := S2048x2048) hz2, View.ld_unit_zero (S := S2048x16) hz2, View.ld_unit_zero (S := S1x2048) hz2, View.ld_unit_zero (S := S1x2048x16) hz3]

end Cert.KernelIdeal.Fr

end
-- ==== Proof.KI.Blocks.lean ====
/-
  The windows' blocks at explicit coordinates.

  A grid point t of the 4 × 2 × 8 grid has coordinates i = t / 16 (row band), j = (t / 8) mod 2 (column half) and
  k = t mod 8 (slab of the contraction). The printed index maps, decided once over the 64 points, put
    window 0 (data, blocks 2048 × 512)   at block (i, k),      window 1 (W, 2048 × 512)       at block (j, k),
    window 2 (rank-16 rows, 2048 × 16)   at block (i, 0),      window 3 (stacked factors, 1 × 2048 × 16) at (i, j, 0),
    windows 4, 5 (two rows, 1 × 2048)    at block (0, j),      window 6 (the result, 2048 × 2048) at block (i, j),
  and an entry of a block is the array's entry at block index × block size + the coordinate inside the block.
-/
import proofs.«169635_j23201413333001_2_alg».proof.Proof.KI.Frame
import Idealize.ShloMosaic.Lib.Pipeline.Value
import Idealize.ShloMosaic.Lib.ValueIdx

set_option maxRecDepth 16384

noncomputable section

namespace Cert.KernelIdeal.Fr

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable {F : FTy → Type} [FloatOps F]
variable (m : (ℓ : Loc nD τ sig) → Buf (Elt F) ℓ)

/-- The index maps in closed form, decided over the grid. -/
theorem idx_facts : ∀ t : Fin cfg0.N,
    win0_0.index t (0 : Fin 2) = t.val / 16 ∧ win0_0.index t (1 : Fin 2) = t.val % 8
    ∧ win0_1.index t (0 : Fin 2) = (t.val / 8) % 2 ∧ win0_1.index t (1 : Fin 2) = t.val % 8
    ∧ win0_2.index t (0 : Fin 2) = t.val / 16 ∧ win0_2.index t (1 : Fin 2) = 0
    ∧ win0_3.index t (0 : Fin 3) = t.val / 16 ∧ win0_3.index t (1 : Fin 3) = (t.val / 8) % 2 ∧ win0_3.index t (2 : Fin 3) = 0
    ∧ win0_4.index t (0 : Fin 2) = 0 ∧ win0_4.index t (1 : Fin 2) = (t.val / 8) % 2
    ∧ win0_5.index t (0 : Fin 2) = 0 ∧ win0_5.index t (1 : Fin 2) = (t.val / 8) % 2
    ∧ win0_6.index t (0 : Fin 2) = t.val / 16 ∧ win0_6.index t (1 : Fin 2) = (t.val / 8) % 2 :=
  (by decide +kernel : ∀ t : Fin grid0.N, _)

theorem iblk0_at (c : Dev nD) (t : Fin cfg0.N) (p : Fin 2048) (kk : Fin 512) (r : Fin 8192) (k : Fin 4096)
    (hr : r.val = 2048 * (t.val / 16) + p.val) (hk : k.val = 512 * (t.val % 8) + kk.val) :
    iblk m c 0 t (ix2 p kk) = V m c main_arg0 (ix2 r k) := by
  obtain ⟨e00, e01, -⟩ := idx_facts t
  show V m c main_arg0 (((cfg0.win 0).blk t).view.emb (ix2 p kk)) = V m c main_arg0 (ix2 r k)
  refine congrArg (V m c main_arg0) ?_
  funext a; apply Fin.ext
  match a with
  | ⟨0, _⟩ => show win0_0.index t (0 : Fin 2) * 2048 + 1 * p.val = r.val; omega
  | ⟨1, _⟩ => show win0_0.index t (1 : Fin 2) * 512 + 1 * kk.val = k.val; omega

theorem iblk1_at (c : Dev nD) (t : Fin cfg0.N) (q : Fin 2048) (kk : Fin 512) (cc : Fin 4096) (k : Fin 4096)
    (hc : cc.val = 2048 * ((t.val / 8) % 2) + q.val) (hk : k.val = 512 * (t.val % 8) + kk.val) :
    iblk m c 1 t (ix2 q kk) = V m c main_arg1 (ix2 cc k) := by
  obtain ⟨-, -, e10, e11, -⟩ := idx_facts t
  show V m c main_arg1 (((cfg0.win 1).blk t).view.emb (ix2 q kk)) = V m c main_arg1 (ix2 cc k)
  refine congrArg (V m c main_arg1) ?_
  funext a; apply Fin.ext
  match a with
  | ⟨0, _⟩ => show win0_1.index t (0 : Fin 2) * 2048 + 1 * q.val = cc.val; omega
  | ⟨1, _⟩ => show win0_1.index t (1 : Fin 2) * 512 + 1 * kk.val = k.val; omega

theorem iblk2_at (c : Dev nD) (t : Fin cfg0.N) (p : Fin 2048) (s : Fin 16) (r : Fin 8192)
    (hr : r.val = 2048 * (t.val / 16) + p.val) :
    iblk m c 2 t (ix2 p s) = V m c main_v25 (ix2 r s) := by
  obtain ⟨-, -, -, -, e20, e21, -⟩ := idx_facts t
  show V m c main_v25 (((cfg0.win 2).blk t).view.emb (ix2 p s)) = V m c main_v25 (ix2 r s)
  refine congrArg (V m c main_v25) ?_
  funext a; apply Fin.ext
  match a with
  | ⟨0, _⟩ => show win0_2.index t (0 : Fin 2) * 2048 + 1 * p.val = r.val; omega
  | ⟨1, _⟩ => show win0_2.index t (1 : Fin 2) * 16 + 1 * s.val = s.val; omega

theorem iblk3_at (c : Dev nD) (t : Fin cfg0.N) (q : Fin 2048) (s : Fin 16) (g : Fin 4) (cc : Fin 4096)
    (hg : g.val = t.val / 16) (hc : cc.val = 2048 * ((t.val / 8) % 2) + q.val) :
    iblk m c 3 t (ix3 0 q s) = V m c main_v30 (ix3 g cc s) := by
  obtain ⟨-, -, -, -, -, -, e30, e31, e32, -⟩ := idx_facts t
  show V m c main_v30 (((cfg0.win 3).blk t).view.emb (ix3 0 q s)) = V m c main_v30 (ix3 g cc s)
  refine congrArg (V m c main_v30) ?_
  funext a; apply Fin.ext
  match a with
  | ⟨0, _⟩ => show win0_3.index t (0 : Fin 3) * 1 + 1 * (0 : Fin 1).val = g.val; simp only [Fin.val_zero]; omega
  | ⟨1, _⟩ => show win0_3.index t (1 : Fin 3) * 2048 + 1 * q.val = cc.val; omega
  | ⟨2, _⟩ => show win0_3.index t (2 : Fin 3) * 16 + 1 * s.val = s.val; omega

theorem iblk4_at (c : Dev nD) (t : Fin cfg0.N) (q : Fin 2048) (cc : Fin 4096)
    (hc : cc.val = 2048 * ((t.val / 8) % 2) + q.val) :
    iblk m c 4 t (ix2 0 q) = V m c main_v31 (ix2 0 cc) := by
  obtain ⟨-, -, -, -, -, -, -, -, -, e40, e41, -⟩ := idx_facts t
  show V m c main_v31 (((cfg0.win 4).blk t).view.emb (ix2 0 q)) = V m c main_v31 (ix2 0 cc)
  refine congrArg (V m c main_v31) ?_
  funext a; apply Fin.ext
  match a with
  | ⟨0, _⟩ => show win0_4.index t (0 : Fin 2) * 1 + 1 * (0 : Fin 1).val = (0 : Fin 1).val; simp only [Fin.val_zero]; omega
  | ⟨1, _⟩ => show win0_4.index t (1 : Fin 2) * 2048 + 1 * q.val = cc.val; omega

theorem iblk5_at (c : Dev nD) (t : Fin cfg0.N) (q : Fin 2048) (cc : Fin 4096)
    (hc : cc.val = 2048 * ((t.val / 8) % 2) + q.val) :
    iblk m c 5 t (ix2 0 q) = V m c main_v32 (ix2 0 cc) := by
  obtain ⟨-, -, -, -, -, -, -, -, -, -, -, e50, e51, -⟩ := idx_facts t
  show V m c main_v32 (((cfg0.win 5).blk t).view.emb (ix2 0 q)) = V m c main_v32 (ix2 0 cc)
  refine congrArg (V m c main_v32) ?_
  funext a; apply Fin.ext
  match a with
  | ⟨0, _⟩ => show win0_5.index t (0 : Fin 2) * 1 + 1 * (0 : Fin 1).val = (0 : Fin 1).val; simp only [Fin.val_zero]; omega
  | ⟨1, _⟩ => show win0_5.index t (1 : Fin 2) * 2048 + 1 * q.val = cc.val; omega

/-- The result block's entry (p, q) at point t is the array's entry (2048·i + p, 2048·j + q). -/
theorem emb6_at (t : Fin cfg0.N) (p q : Fin 2048) (r : Fin 8192) (cc : Fin 4096)
    (hr : r.val = 2048 * (t.val / 16) + p.val) (hc : cc.val = 2048 * ((t.val / 8) % 2) + q.val) :
    ((cfg0.win 6).blk t).view.emb (ix2 p q) = ix2 r cc := by
  obtain ⟨-, -, -, -, -, -, -, -, -, -, -, -, -, e60, e61⟩ := idx_facts t
  funext a; apply Fin.ext
  match a with
  | ⟨0, _⟩ => show win0_6.index t (0 : Fin 2) * 2048 + 1 * p.val = r.val; omega
  | ⟨1, _⟩ => show win0_6.index t (1 : Fin 2) * 2048 + 1 * q.val = cc.val; omega

/-- An index of the result array is in point t's block iff each coordinate is in the block's range. -/
theorem mem_blk6 (t : Fin cfg0.N) (i : S8192x4096.Idx) :
    i ∈ ((cfg0.win 6).blk t).view.set ↔ ∀ a : Fin 2, win0_6.index t a * S2048x2048.size a ≤ (i a).val ∧ (i a).val < win0_6.index t a * S2048x2048.size a + S2048x2048.size a := by
  show i ∈ ((View.whole main_v33).slice (win0_6.rect t)).set ↔ _
  rw [View.set_slice_whole, Rect.mem_set_unit]
  exact Iff.rfl

/-- Every block of the result is some last-step point's: block (i, j) is point 16·i + 8·j + 7's. -/
theorem cover6 (i : S8192x4096.Idx) :
    ∃ t : Fin cfg0.N, (cfg0.win 6).flush t = true ∧ i ∈ ((cfg0.win 6).blk t).view.set := by
  have hi0 : (i 0).val < 8192 := (i 0).isLt
  have hi1 : (i 1).val < 4096 := (i 1).isLt
  have hN : cfg0.N = 64 := N_0
  refine ⟨⟨16 * ((i 0).val / 2048) + 8 * ((i 1).val / 2048) + 7, by rw [hN]; omega⟩, (flush0_6 _).mpr (by show (16 * ((i 0).val / 2048) + 8 * ((i 1).val / 2048) + 7) % 8 = 7; omega), ?_⟩
  rw [mem_blk6]
  obtain ⟨-, -, -, -, -, -, -, -, -, -, -, -, -, e60, e61⟩ := idx_facts ⟨16 * ((i 0).val / 2048) + 8 * ((i 1).val / 2048) + 7, by rw [hN]; omega⟩
  intro a
  match a with
  | ⟨0, _⟩ =>
    show win0_6.index _ (0 : Fin 2) * 2048 ≤ (i 0).val ∧ (i 0).val < win0_6.index _ (0 : Fin 2) * 2048 + 2048
    rw [e60]; dsimp only; omega
  | ⟨1, _⟩ =>
    show win0_6.index _ (1 : Fin 2) * 2048 ≤ (i 1).val ∧ (i 1).val < win0_6.index _ (1 : Fin 2) * 2048 + 2048
    rw [e61]; dsimp only; omega

end Cert.KernelIdeal.Fr

end
-- ==== Proof.KerMatmul.lean ====
/-
  The two products of the kernel's body, read at one entry.

  Both contract the LAST axis of both operands into a zero accumulator: entry (p, q) of the result is
  Σ_k l[p,k]·r[q,k] (the right operand is used transposed). The contraction index has one axis; the sum is
  re-indexed through its one coordinate.
-/
import proofs.«169635_j23201413333001_2_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators

namespace Cert.KerVal

open Cert.KernelIdeal Cert.KernelIdeal.Gen Idealize.ShloMosaic Idealize.ShloMosaic.ValueIdx

variable [Cert.KernelIdeal.Facts]

theorem lhs512_0 (i : S2048x2048.Idx) (k : dot_S2048x512_S2048x512_S2048x2048_1_1_0_0_n_n.contr.Idx) : (dot_S2048x512_S2048x512_S2048x2048_1_1_0_0_n_n.lhsIdx i k 0).val = (i 0).val := by
  unfold DotDims.lhsIdx
  rw [dif_neg (show ¬(0 : Fin S2048x512.rank) ∈ dot_S2048x512_S2048x512_S2048x2048_1_1_0_0_n_n.lhsBatch by decide), dif_pos (show (0 : Fin S2048x512.rank) ∈ dot_S2048x512_S2048x512_S2048x2048_1_1_0_0_n_n.lhsNonContracting by decide)]
  rfl
theorem rhs512_0 (i : S2048x2048.Idx) (k : dot_S2048x512_S2048x512_S2048x2048_1_1_0_0_n_n.contr.Idx) : (dot_S2048x512_S2048x512_S2048x2048_1_1_0_0_n_n.rhsIdx i k 0).val = (i 1).val := by
  unfold DotDims.rhsIdx
  rw [dif_neg (show ¬(0 : Fin S2048x512.rank) ∈ dot_S2048x512_S2048x512_S2048x2048_1_1_0_0_n_n.rhsBatch by decide), dif_pos (show (0 : Fin S2048x512.rank) ∈ dot_S2048x512_S2048x512_S2048x2048_1_1_0_0_n_n.rhsNonContracting by decide)]
  rfl

/-- [2048,512] × [2048,512]ᵀ into the zero splat: entry (p, q) is Σ_kk l[p,kk]·r[q,kk]. -/
theorem matmul512_at {φ₁ φ₂ : FTy} (l : FVec Ideal S2048x512 φ₁) (r : FVec Ideal S2048x512 φ₂) (p q : Fin 2048) :
    matmul dot_S2048x512_S2048x512_S2048x2048_1_1_0_0_n_n none l r (constant (F := Ideal) S2048x2048 .f32 0x00000000#32) (ix2 p q)
      = ∑ kk : Fin 512, l (ix2 p kk) * r (ix2 q kk) := by
  show FloatOps.matmul _ _ _ _ _ _ = _
  rw [Ideal.matmul_constant_zero_apply, ← Equiv.sum_comp (contrEquiv1 dot_S2048x512_S2048x512_S2048x2048_1_1_0_0_n_n 512 rfl rfl).symm]
  refine Finset.sum_congr rfl fun k _ => ?_
  have hk := contrEquiv1_symm_val dot_S2048x512_S2048x512_S2048x2048_1_1_0_0_n_n 512 rfl rfl k
  have el : dot_S2048x512_S2048x512_S2048x2048_1_1_0_0_n_n.lhsIdx (ix2 p q) ((contrEquiv1 dot_S2048x512_S2048x512_S2048x2048_1_1_0_0_n_n 512 rfl rfl).symm k) = ix2 p k :=
    funext fun a => Fin.ext (by
      match a with
      | ⟨0, _⟩ => exact lhs512_0 _ _
      | ⟨1, _⟩ => exact (dot_S2048x512_S2048x512_S2048x2048_1_1_0_0_n_n.lhsIdx_val_of_single rfl _ _).trans hk)
  have er : dot_S2048x512_S2048x512_S2048x2048_1_1_0_0_n_n.rhsIdx (ix2 p q) ((contrEquiv1 dot_S2048x512_S2048x512_S2048x2048_1_1_0_0_n_n 512 rfl rfl).symm k) = ix2 q k :=
    funext fun a => Fin.ext (by
      match a with
      | ⟨0, _⟩ => exact rhs512_0 _ _
      | ⟨1, _⟩ => exact (dot_S2048x512_S2048x512_S2048x2048_1_1_0_0_n_n.rhsIdx_val_of_single rfl _ _).trans hk)
  rw [el, er]

theorem lhs16_0 (i : S2048x2048.Idx) (k : dot_S2048x16_S2048x16_S2048x2048_1_1_0_0_n_n.contr.Idx) : (dot_S2048x16_S2048x16_S2048x2048_1_1_0_0_n_n.lhsIdx i k 0).val = (i 0).val := by
  unfold DotDims.lhsIdx
  rw [dif_neg (show ¬(0 : Fin S2048x16.rank) ∈ dot_S2048x16_S2048x16_S2048x2048_1_1_0_0_n_n.lhsBatch by decide), dif_pos (show (0 : Fin S2048x16.rank) ∈ dot_S2048x16_S2048x16_S2048x2048_1_1_0_0_n_n.lhsNonContracting by decide)]
  rfl
theorem rhs16_0 (i : S2048x2048.Idx) (k : dot_S2048x16_S2048x16_S2048x2048_1_1_0_0_n_n.contr.Idx) : (dot_S2048x16_S2048x16_S2048x2048_1_1_0_0_n_n.rhsIdx i k 0).val = (i 1).val := by
  unfold DotDims.rhsIdx
  rw [dif_neg (show ¬(0 : Fin S2048x16.rank) ∈ dot_S2048x16_S2048x16_S2048x2048_1_1_0_0_n_n.rhsBatch by decide), dif_pos (show (0 : Fin S2048x16.rank) ∈ dot_S2048x16_S2048x16_S2048x2048_1_1_0_0_n_n.rhsNonContracting by decide)]
  rfl

/-- [2048,16] × [2048,16]ᵀ into the zero splat: entry (p, q) is Σ_s l[p,s]·r[q,s]. -/
theorem matmul16_at {φ₁ φ₂ : FTy} (l : FVec Ideal S2048x16 φ₁) (r : FVec Ideal S2048x16 φ₂) (p q : Fin 2048) :
    matmul dot_S2048x16_S2048x16_S2048x2048_1_1_0_0_n_n none l r (constant (F := Ideal) S2048x2048 .f32 0x00000000#32) (ix2 p q)
      = ∑ s : Fin 16, l (ix2 p s) * r (ix2 q s) := by
  show FloatOps.matmul _ _ _ _ _ _ = _
  rw [Ideal.matmul_constant_zero_apply, ← Equiv.sum_comp (contrEquiv1 dot_S2048x16_S2048x16_S2048x2048_1_1_0_0_n_n 16 rfl rfl).symm]
  refine Finset.sum_congr rfl fun k _ => ?_
  have hk := contrEquiv1_symm_val dot_S2048x16_S2048x16_S2048x2048_1_1_0_0_n_n 16 rfl rfl k
  have el : dot_S2048x16_S2048x16_S2048x2048_1_1_0_0_n_n.lhsIdx (ix2 p q) ((contrEquiv1 dot_S2048x16_S2048x16_S2048x2048_1_1_0_0_n_n 16 rfl rfl).symm k) = ix2 p k :=
    funext fun a => Fin.ext (by
      match a with
      | ⟨0, _⟩ => exact lhs16_0 _ _
      | ⟨1, _⟩ => exact (dot_S2048x16_S2048x16_S2048x2048_1_1_0_0_n_n.lhsIdx_val_of_single rfl _ _).trans hk)
  have er : dot_S2048x16_S2048x16_S2048x2048_1_1_0_0_n_n.rhsIdx (ix2 p q) ((contrEquiv1 dot_S2048x16_S2048x16_S2048x2048_1_1_0_0_n_n 16 rfl rfl).symm k) = ix2 q k :=
    funext fun a => Fin.ext (by
      match a with
      | ⟨0, _⟩ => exact rhs16_0 _ _
      | ⟨1, _⟩ => exact (dot_S2048x16_S2048x16_S2048x2048_1_1_0_0_n_n.rhsIdx_val_of_single rfl _ _).trans hk)
  rw [el, er]

end Cert.KerVal

end
-- ==== Proof.Spec.lean ====
/-
  The function both programs compute, entry by entry, on the extended reals.

  Inputs: data [8192,4096], W [4096,4096], four adapter pairs (a_s [16,4096], b_s [4096,16]), d [16], bv [4096]
  and a column scale mns [4096] (magnitude / row norm of the DoRA-shifted weight; both programs compute it by the
  same host chain, so it enters here as an argument and is never opened).

  The 8192 rows fall in four bands of 2048. With base(r,c) = Σ_k data[r,k]·W[c,k], low_s(r,q) = Σ_k data[r,k]·a_s[q,k]
  and up(u,b)(c) = Σ_q u(q)·b[c,q]:
    band 0, 1 :  base + up(low_s, b_s)·2
    band 2    :  base + up(lowV, b_3)·bv[c],   lowV(r,q) = (Σ_k (data[r,k]·1)·a_3[q,k])·d[q]
    band 3    :  base·(mns[c] − 1) + (mns[c]·up(low_4, b_4))·2
  The literals 1 and 2 stay the f32 words the programs print; neither is ever evaluated.
-/
import Idealize.ShloMosaic.PureOps.Ideal
import Idealize.ShloMosaic.Lib.ValueIdx

noncomputable section

open scoped BigOperators

namespace Cert.Spec

open Idealize.ShloMosaic Idealize.ShloMosaic.ValueIdx

/-- A rank-2 array of extended reals. -/
abbrev A2 (n m : Nat) : Type := (⟨2, ![n, m]⟩ : Shape).Idx → EReal
/-- A rank-1 array of extended reals. -/
abbrev A1 (n : Nat) : Type := (⟨1, ![n]⟩ : Shape).Idx → EReal

/-- The f32 word of 1.0, as both programs print it. -/
def one : EReal := Ideal.ofBits .f32 0x3F800000#32
/-- The f32 word of 2.0, as both programs print it. -/
def two : EReal := Ideal.ofBits .f32 0x40000000#32

/-- Entry (r, c) of data·Wᵀ. -/
def base (data : A2 8192 4096) (W : A2 4096 4096) (r : Fin 8192) (c : Fin 4096) : EReal :=
  ∑ k : Fin 4096, data (ix2 r k) * W (ix2 c k)

/-- Entry (r, q) of data·aᵀ: row r projected onto the rank-16 factor. -/
def low (data : A2 8192 4096) (a : A2 16 4096) (r : Fin 8192) (q : Fin 16) : EReal :=
  ∑ k : Fin 4096, data (ix2 r k) * a (ix2 q k)

/-- The VeRA projection: the row times the literal one before the product, the column scale d after it. -/
def lowV (data : A2 8192 4096) (a : A2 16 4096) (d : A1 16) (r : Fin 8192) (q : Fin 16) : EReal :=
  (∑ k : Fin 4096, (data (ix2 r k) * one) * a (ix2 q k)) * d (ix1 q)

/-- Column c of a rank-16 row u expanded through b: Σ_q u(q)·b[c,q]. -/
def up (u : Fin 16 → EReal) (b : A2 4096 16) (c : Fin 4096) : EReal :=
  ∑ q : Fin 16, u q * b (ix2 c q)

/-- The result at row r, column c. -/
def Gat (data : A2 8192 4096) (W : A2 4096 4096) (a1 : A2 16 4096) (b1 : A2 4096 16) (a2 : A2 16 4096) (b2 : A2 4096 16)
    (a3 : A2 16 4096) (b3 : A2 4096 16) (d : A1 16) (bv : A1 4096) (a4 : A2 16 4096) (b4 : A2 4096 16) (mns : A1 4096)
    (r : Fin 8192) (c : Fin 4096) : EReal :=
  if r.val < 2048 then base data W r c + up (low data a1 r) b1 c * two
  else if r.val < 4096 then base data W r c + up (low data a2 r) b2 c * two
  else if r.val < 6144 then base data W r c + up (lowV data a3 d r) b3 c * bv (ix1 c)
  else base data W r c * (mns (ix1 c) - one) + (mns (ix1 c) * up (low data a4 r) b4 c) * two

/-- The whole result array. -/
def G (data : A2 8192 4096) (W : A2 4096 4096) (a1 : A2 16 4096) (b1 : A2 4096 16) (a2 : A2 16 4096) (b2 : A2 4096 16)
    (a3 : A2 16 4096) (b3 : A2 4096 16) (d : A1 16) (bv : A1 4096) (a4 : A2 16 4096) (b4 : A2 4096 16) (mns : A1 4096) :
    A2 8192 4096 :=
  fun i => Gat data W a1 b1 a2 b2 a3 b3 d bv a4 b4 mns (i 0) (i 1)

theorem G_ix2 (data : A2 8192 4096) (W : A2 4096 4096) (a1 : A2 16 4096) (b1 : A2 4096 16) (a2 : A2 16 4096) (b2 : A2 4096 16)
    (a3 : A2 16 4096) (b3 : A2 4096 16) (d : A1 16) (bv : A1 4096) (a4 : A2 16 4096) (b4 : A2 4096 16) (mns : A1 4096)
    (r : Fin 8192) (c : Fin 4096) :
    G data W a1 b1 a2 b2 a3 b3 d bv a4 b4 mns (ix2 r c) = Gat data W a1 b1 a2 b2 a3 b3 d bv a4 b4 mns r c := rfl

end Cert.Spec

end
-- ==== Proof.KerPay.lean ====
/-
  The kernel body's three stored values, read at one entry (p, q) of the [2048,2048] output block.

  * the first grid step along the contraction axis stores zero;
  * every step adds to the block the partial product Σ_{k<512} x[p,k]·w[q,k] of its two [2048,512] operand blocks
    (the rounding to bf16 is the identity on the extended reals);
  * the last step adds the low-rank correction. With raw = Σ_{s<16} u[p,s]·b[0,q,s], row band 3 stores
    acc·(mns[q] − 1) + (raw·mns[q])·2, bands 0 and 1 store acc + raw·2, band 2 stores acc + raw·bv[q]; the band is the first
    grid coordinate, compared as a 32-bit word with 0, 1, 2, 3.
-/
import proofs.«169635_j23201413333001_2_alg».proof.Proof.KerMatmul
import proofs.«169635_j23201413333001_2_alg».proof.Proof.Spec
import Idealize.ShloMosaic.Lib.ValueLayout

noncomputable section

open scoped BigOperators

namespace Cert.KerVal

open Cert.KernelIdeal Cert.KernelIdeal.Gen Idealize.ShloMosaic Idealize.ShloMosaic.ValueIdx

variable [Cert.KernelIdeal.Facts]

/-- The zero splat. -/
theorem pay1_at (p q : Fin 2048) : Gen.k0_pay1 (F := Ideal) (ix2 p q) = 0 := by
  unfold Gen.k0_pay1
  exact Ideal.ofBits_zero_f32

/-- The running block plus this step's partial product. -/
theorem pay2_at (v3 v5 : Vec Ideal S2048x512 .f32) (v7 : Vec Ideal S2048x2048 .f32) (p q : Fin 2048) :
    Gen.k0_pay2 (F := Ideal) v3 v5 v7 (ix2 p q) = v7 (ix2 p q) + ∑ kk : Fin 512, v3 (ix2 p kk) * v5 (ix2 q kk) := by
  unfold Gen.k0_pay2
  rw [addf_apply, shapeCast_self, matmul512_at]
  rfl

/-- A select between whole vectors on one condition bit, read at an entry. -/
theorem select_vec_apply {S : Shape} {α : Type} (c : BitVec 1) (a b : S.Idx → α) (j : S.Idx) :
    (Scalar.select c a b) j = Scalar.select c (a j) (b j) := by
  unfold Scalar.select
  split <;> rfl

/-- The four band tests on the first grid coordinate, as words: below 4 they decide the band. -/
theorem band_select {α : Type} (n : ℕ) (hn : n < 4) (A B C D : α) (f : α → α) :
    Scalar.select (Scalar.cmpi .eq (BitVec.ofNat 32 n) 3#32) A
        (f (Scalar.select (Scalar.ori (Scalar.cmpi .eq (BitVec.ofNat 32 n) 0#32) (Scalar.cmpi .eq (BitVec.ofNat 32 n) 1#32)) B
          (Scalar.select (Scalar.cmpi .eq (BitVec.ofNat 32 n) 2#32) C D)))
      = if n = 3 then A else if n = 0 ∨ n = 1 then f B else if n = 2 then f C else f D := by
  interval_cases n <;> rfl

/-- The rank-16 product of the last step: Σ_s u[p,s]·b[0,q,s]. -/
theorem raw_at (v19 : Vec Ideal S2048x16 .f32) (v21 : Vec Ideal S1x2048x16 .f32) (p q : Fin 2048) :
    matmul (φ₁ := .f32) (φ₂ := .f32) dot_S2048x16_S2048x16_S2048x2048_1_1_0_0_n_n none v19
        (shapeCast S2048x16 v21 Facts₀.shapeCasts_S1x2048x16_S2048x16)
        (constant (F := Ideal) S2048x2048 .f32 0x00000000#32) (ix2 p q)
      = ∑ s : Fin 16, v19 (ix2 p s) * v21 (ix3 0 q s) := by
  rw [matmul16_at]
  refine Finset.sum_congr rfl fun s _ => ?_
  rw [shapeCast_1ab_ab_apply]

/-- The last step's stored value. -/
theorem pay3_at (i : grid0.Coords) (v19 : Vec Ideal S2048x16 .f32) (v21 : Vec Ideal S1x2048x16 .f32) (v24 v26 : Vec Ideal S1x2048 .f32)
    (v40 : Vec Ideal S2048x2048 .f32) (p q : Fin 2048) :
    Gen.k0_pay3 (F := Ideal) i v19 v21 v24 v26 v40 (ix2 p q) =
      (let raw := ∑ s : Fin 16, v19 (ix2 p s) * v21 (ix3 0 q s)
       if (i 0).val = 3 then v40 (ix2 p q) * (v26 (ix2 0 q) - Cert.Spec.one) + (raw * v26 (ix2 0 q)) * Cert.Spec.two
       else if (i 0).val = 0 ∨ (i 0).val = 1 then v40 (ix2 p q) + raw * Cert.Spec.two
       else if (i 0).val = 2 then v40 (ix2 p q) + raw * v24 (ix2 0 q)
       else v40 (ix2 p q) + 0) := by
  unfold Gen.k0_pay3
  simp only [select_vec_apply, addf_apply, mulf_apply, subf_apply, broadcast_apply, shapeCast_self, broadcastTo_1b_ab_apply, raw_at]
  have hz : (FloatOps.ofBits (F := Ideal) .f32 0x00000000#32) = (0 : EReal) := Ideal.ofBits_zero_f32
  rw [hz]
  exact band_select (i 0).val (i 0).isLt _ _ _ _ (fun x => v40 (ix2 p q) + x)

end Cert.KerVal

end
-- ==== Proof.LibBlockSum.lean ====
/-
  Summing a length-4096 family in eight consecutive blocks of 512.

  A sum accumulated block by block, starting from zero — acc₀ = 0 + T₀, accₙ₊₁ = accₙ + Tₙ₊₁ with
  T_b = Σ_{kk<512} f(512·b + kk) — is, after the eighth block, the whole sum Σ_{k<4096} f(k). Only commutativity
  and associativity of + are used, so the law holds in any additive commutative monoid (the extended reals among them).
-/
import Mathlib.Algebra.BigOperators.Fin
import Mathlib.Logic.Equiv.Fin.Basic

open scoped BigOperators

namespace Cert.LibBlockSum

variable {M : Type*} [AddCommMonoid M]

/-- Block `b` of `f`: Σ_{kk<512} f(512·b + kk); zero past the eighth block. -/
def blockSum (f : Fin 4096 → M) (b : ℕ) : M :=
  if h : b < 8 then ∑ kk : Fin 512, f ⟨512 * b + kk.val, by have := kk.isLt; omega⟩ else 0

/-- Inside the range a block is its sum. -/
theorem blockSum_of_lt (f : Fin 4096 → M) (b : ℕ) (h : b < 8) :
    blockSum f b = ∑ kk : Fin 512, f ⟨512 * b + kk.val, by have := kk.isLt; omega⟩ := dif_pos h

/-- The running total after blocks 0..n, accumulated from the left starting at zero. -/
def accum (f : Fin 4096 → M) : ℕ → M
  | 0 => 0 + blockSum f 0
  | n + 1 => accum f n + blockSum f (n + 1)

theorem accum_zero (f : Fin 4096 → M) : accum f 0 = 0 + blockSum f 0 := rfl

theorem accum_succ (f : Fin 4096 → M) (n : ℕ) : accum f (n + 1) = accum f n + blockSum f (n + 1) := rfl

/-- The running total is the sum of the blocks met so far. -/
theorem accum_eq_sum_range (f : Fin 4096 → M) (n : ℕ) : accum f n = ∑ b ∈ Finset.range (n + 1), blockSum f b := by
  induction n with
  | zero => rw [accum_zero, zero_add, Finset.sum_range_one]
  | succ n ih => rw [accum_succ, ih, Finset.sum_range_succ _ (n + 1)]

/-- The eight blocks tile the index range: the double sum is the whole sum. -/
theorem sum_blocks (f : Fin 4096 → M) :
    ∑ b : Fin 8, ∑ kk : Fin 512, f ⟨512 * b.val + kk.val, by have := kk.isLt; have := b.isLt; omega⟩ = ∑ k : Fin 4096, f k := by
  rw [← Equiv.sum_comp (finProdFinEquiv (m := 8) (n := 512)) (f : Fin (8 * 512) → M), Fintype.sum_prod_type]
  refine Finset.sum_congr rfl fun b _ => Finset.sum_congr rfl fun kk _ => congrArg f (Fin.ext ?_)
  show 512 * b.val + kk.val = kk.val + 512 * b.val
  omega

/-- After the eighth block the running total is the whole sum. -/
theorem accum_seven (f : Fin 4096 → M) : accum f 7 = ∑ k : Fin 4096, f k := by
  rw [accum_eq_sum_range, ← sum_blocks f, ← Fin.sum_univ_eq_sum_range (fun b => blockSum f b) 8]
  exact Finset.sum_congr rfl fun b _ => blockSum_of_lt f b.val b.isLt

/-- The same law with the eight additions written out. -/
theorem chain_eq_sum (f : Fin 4096 → M) :
    ((((((((0 + blockSum f 0) + blockSum f 1) + blockSum f 2) + blockSum f 3) + blockSum f 4) + blockSum f 5) + blockSum f 6)
      + blockSum f 7) = ∑ k : Fin 4096, f k :=
  accum_seven f

end Cert.LibBlockSum
-- ==== Proof.KI.Partial.lean ====
/-
  What the result's staging buffer holds, entry by entry, at the exact values.

  Fix a result entry (r, cc) with r = 2048·i + p and cc = 2048·j + q, and write f(k) = data[r,k]·W[cc,k]. The eight
  points that visit block (i, j) are t = 16·i + 8·j + k, k = 0..7, and point t's two input blocks are the k-th
  512-wide slabs of row r of data and of row cc of W. So the value added at point t is the k-th block sum of f, and
  after a point with k < 7 the buffer's entry (p, q) is the running total 0 + T₀ + … + T_k, by induction on the point.
-/
import proofs.«169635_j23201413333001_2_alg».proof.Proof.KI.Pieces
import proofs.«169635_j23201413333001_2_alg».proof.Proof.KI.Blocks
import proofs.«169635_j23201413333001_2_alg».proof.Proof.KerPay
import proofs.«169635_j23201413333001_2_alg».proof.Proof.LibBlockSum
import proofs.«169635_j23201413333001_2_alg».proof.Proof.Spec

set_option maxRecDepth 16384

noncomputable section

open scoped BigOperators

namespace Cert.KernelIdeal.Fr

open Cert.KernelIdeal Cert.KernelIdeal.Gen Cert.KerVal Cert.LibBlockSum
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ)

/-- The data array and the weight array as the region finds them, and a point's blocks of them, at their literal types. -/
abbrev dataArr (c : Dev nD) : Vec Ideal S8192x4096 .f32 := V m c main_arg0
abbrev wArr (c : Dev nD) : Vec Ideal S4096x4096 .f32 := V m c main_arg1
abbrev blk0 (c : Dev nD) (t : Fin cfg0.N) : Vec Ideal S2048x512 .f32 := iblk m c 0 t
abbrev blk1 (c : Dev nD) (t : Fin cfg0.N) : Vec Ideal S2048x512 .f32 := iblk m c 1 t

/-- The products along the contraction for the result entry (r, cc). -/
def prods (c : Dev nD) (r : Fin 8192) (cc : Fin 4096) : Fin 4096 → EReal :=
  fun k => dataArr m c (ix2 r k) * wArr m c (ix2 cc k)

/-- The first grid coordinate of a point is its row band. -/
theorem coord0 : ∀ t : Fin cfg0.N, ((grid0.coords t) 0).val = t.val / 16 :=
  (by decide +kernel : ∀ t : Fin grid0.N, ((grid0.coords t) 0).val = t.val / 16)

/-- What point t adds at entry (p, q): the block sum of the products over the point's slab. -/
theorem slab_at (c : Dev nD) (t : Fin cfg0.N) (p q : Fin 2048) (r : Fin 8192) (cc : Fin 4096)
    (hr : r.val = 2048 * (t.val / 16) + p.val) (hc : cc.val = 2048 * ((t.val / 8) % 2) + q.val) :
    (∑ kk : Fin 512, blk0 m c t (ix2 p kk) * blk1 m c t (ix2 q kk))
      = blockSum (prods m c r cc) (t.val % 8) := by
  rw [blockSum_of_lt _ _ (Nat.mod_lt _ (by decide))]
  refine Finset.sum_congr rfl fun kk _ => ?_
  exact congrArg₂ (fun a b : EReal => a * b)
    (iblk0_at m c t p kk r ⟨512 * (t.val % 8) + kk.val, by have := kk.isLt; omega⟩ hr rfl)
    (iblk1_at m c t q kk cc ⟨512 * (t.val % 8) + kk.val, by have := kk.isLt; omega⟩ hc rfl)

/-- After a point whose reduction coordinate k is below 7 the buffer's entry (p, q) is the running total of the
    first k + 1 block sums, accumulated from zero. -/
theorem partial_at (c : Dev nD) : ∀ (n : ℕ) (hn : n < cfg0.N), n % 8 ≠ 7 → ∀ (p q : Fin 2048) (r : Fin 8192) (cc : Fin 4096),
    r.val = 2048 * (n / 16) + p.val → cc.val = 2048 * ((n / 8) % 2) + q.val →
    outsAt m c n hn (ix2 p q) = accum (prods m c r cc) (n % 8)
  | 0, hn, _, p, q, r, cc, hr, hc => by
    rw [outsAt_A m c ⟨0, hn⟩ (Nat.zero_mod 8), outA_eq, pay2_at, pay1_at, slab_at m c ⟨0, hn⟩ p q r cc hr hc]
    rfl
  | n + 1, hn, h7, p, q, r, cc, hr, hc => by
    by_cases h0 : (n + 1) % 8 = 0
    · rw [outsAt_A m c ⟨n + 1, hn⟩ h0, outA_eq, pay2_at, pay1_at, slab_at m c ⟨n + 1, hn⟩ p q r cc hr hc]
      show 0 + blockSum _ ((n + 1) % 8) = accum _ ((n + 1) % 8)
      rw [h0]; rfl
    · have h7' : ¬(n + 1) % 8 = 7 := h7
      rw [outsAt_B m c ⟨n + 1, hn⟩ h0 h7', outB_eq, pay2_at, slab_at m c ⟨n + 1, hn⟩ p q r cc hr hc]
      have ih := partial_at c n (Nat.lt_of_succ_lt hn) (by omega) p q r cc (by omega) (by omega)
      show outsAt m c n _ (ix2 p q) + blockSum _ ((n + 1) % 8) = accum _ ((n + 1) % 8)
      rw [ih]
      obtain ⟨k, hk⟩ : ∃ k, (n + 1) % 8 = k + 1 := ⟨(n + 1) % 8 - 1, by omega⟩
      have hk' : n % 8 = k := by omega
      rw [hk, hk']; rfl

/-- After the last step of a block, before the finishing arithmetic, entry (p, q) of the accumulated product is the
    whole contraction Σ_k data[r,k]·W[cc,k]. -/
theorem full_at (c : Dev nD) (t : Fin cfg0.N) (h7 : t.val % 8 = 7) (p q : Fin 2048) (r : Fin 8192) (cc : Fin 4096)
    (hr : r.val = 2048 * (t.val / 16) + p.val) (hc : cc.val = 2048 * ((t.val / 8) % 2) + q.val) :
    outsAt m c (t.val - 1) (Nat.lt_of_le_of_lt (Nat.sub_le _ _) t.isLt) (ix2 p q)
        + (∑ kk : Fin 512, blk0 m c t (ix2 p kk) * blk1 m c t (ix2 q kk))
      = Cert.Spec.base (dataArr m c) (wArr m c) r cc := by
  rw [slab_at m c t p q r cc hr hc, partial_at m c (t.val - 1) _ (by omega) p q r cc (by omega) (by omega)]
  have e1 : (t.val - 1) % 8 = 6 := by omega
  rw [e1, h7, ← accum_succ, accum_seven]
  rfl

end Cert.KernelIdeal.Fr

end
-- ==== Proof.KerHostDefs.lean ====
/-
  The arrays the host computes before the kernel runs, as functions of the program's arguments.

  * u [8192,16]: the four row bands of data (2048 rows each) projected onto the four rank-16 factors, stacked along the
    rows; the third band multiplies the rows by the literal one before the product and scales column q by d[q] after it.
  * b [4,4096,16]: the four expansion factors stacked along a new leading axis.
  * bv, mns as [1,4096] rows. mns is magnitude / row norm of the shifted weight W + 2·(b₄·a₄); it is carried as one
    function of the arguments and is not opened further.

  Each definition is the composition of the host operations in program order.
-/
import proofs.«169635_j23201413333001_2_alg».proof.Proof.Gen.KernelIdeal.Skeleton
import Idealize.ShloMosaic.Lib.ValueIdx

noncomputable section

open scoped BigOperators

namespace Cert.KerVal

open Cert.KernelIdeal Cert.KernelIdeal.Gen Idealize.ShloMosaic Idealize.ShloMosaic.ValueIdx

variable [Cert.KernelIdeal.Facts]

/-- Band 0: rows 0..2047 of data against a₁ᵀ. -/
def uPiece0 (x0 : FVec Ideal S8192x4096 .f32) (x2 : FVec Ideal S16x4096 .f32) : FVec Ideal S2048x16 .f32 :=
  Host.dotGeneral (F := Ideal) (φ₁ := .f32) (φ₂ := .f32) dot_S2048x4096_S4096x16_S2048x16_1_0_0_1_n_n none
    (extractStridedSlice S2048x4096 ![0, 0] x0 Facts₀.slices_S8192x4096_S2048x4096_0_0)
    (transpose S4096x16 [1, 0] x2 Facts₀.transposes_S16x4096_S4096x16_1_0)

/-- Band 1: rows 2048..4095 of data against a₂ᵀ. -/
def uPiece1 (x0 : FVec Ideal S8192x4096 .f32) (x4 : FVec Ideal S16x4096 .f32) : FVec Ideal S2048x16 .f32 :=
  Host.dotGeneral (F := Ideal) (φ₁ := .f32) (φ₂ := .f32) dot_S2048x4096_S4096x16_S2048x16_1_0_0_1_n_n none
    (extractStridedSlice S2048x4096 ![2048, 0] x0 Facts₀.slices_S8192x4096_S2048x4096_2048_0)
    (transpose S4096x16 [1, 0] x4 Facts₀.transposes_S16x4096_S4096x16_1_0)

/-- Band 2: rows 4096..6143 of data, times the literal one, against a₃ᵀ, then column q scaled by d[q]. -/
def uPiece2 (x0 : FVec Ideal S8192x4096 .f32) (x6 : FVec Ideal S16x4096 .f32) (x8 : FVec Ideal S16 .f32) : FVec Ideal S2048x16 .f32 :=
  mulf
    (Host.dotGeneral (F := Ideal) (φ₁ := .f32) (φ₂ := .f32) dot_S2048x4096_S4096x16_S2048x16_1_0_0_1_n_n none
      (mulf (extractStridedSlice S2048x4096 ![4096, 0] x0 Facts₀.slices_S8192x4096_S2048x4096_4096_0)
        (broadcastInDim S2048x4096 ![] Facts₀.bcast_S_S2048x4096 (constant (F := Ideal) S_ .f32 0x3F800000#32)))
      (transpose S4096x16 [1, 0] x6 Facts₀.transposes_S16x4096_S4096x16_1_0))
    (broadcastInDim S2048x16 ![0, 1] Facts₀.bcast_S1x16_S2048x16_0_1 (broadcastInDim S1x16 ![1] Facts₀.bcast_S16_S1x16_1 x8))

/-- Band 3: rows 6144..8191 of data against a₄ᵀ. -/
def uPiece3 (x0 : FVec Ideal S8192x4096 .f32) (x10 : FVec Ideal S16x4096 .f32) : FVec Ideal S2048x16 .f32 :=
  Host.dotGeneral (F := Ideal) (φ₁ := .f32) (φ₂ := .f32) dot_S2048x4096_S4096x16_S2048x16_1_0_0_1_n_n none
    (extractStridedSlice S2048x4096 ![6144, 0] x0 Facts₀.slices_S8192x4096_S2048x4096_6144_0)
    (transpose S4096x16 [1, 0] x10 Facts₀.transposes_S16x4096_S4096x16_1_0)

/-- The four projected bands stacked along the rows. -/
def uTerm (x0 : FVec Ideal S8192x4096 .f32) (x2 x4 x6 : FVec Ideal S16x4096 .f32) (x8 : FVec Ideal S16 .f32) (x10 : FVec Ideal S16x4096 .f32) :
    FVec Ideal S8192x16 .f32 :=
  concatenate S8192x16 0 [⟨S2048x16, uPiece0 x0 x2⟩, ⟨S2048x16, uPiece1 x0 x4⟩, ⟨S2048x16, uPiece2 x0 x6 x8⟩, ⟨S2048x16, uPiece3 x0 x10⟩]
    Facts₀.concatenates_S2048x16_S2048x16_S2048x16_S2048x16_S8192x16_d0

/-- One expansion factor under a new leading axis of extent one. -/
def bPiece (x : FVec Ideal S4096x16 .f32) : FVec Ideal S1x4096x16 .f32 :=
  broadcastInDim S1x4096x16 ![1, 2] Facts₀.bcast_S4096x16_S1x4096x16_1_2 x

/-- The four expansion factors stacked along the leading axis. -/
def bTerm (x3 x5 x7 x11 : FVec Ideal S4096x16 .f32) : FVec Ideal S4x4096x16 .f32 :=
  concatenate S4x4096x16 0 [⟨S1x4096x16, bPiece x3⟩, ⟨S1x4096x16, bPiece x5⟩, ⟨S1x4096x16, bPiece x7⟩, ⟨S1x4096x16, bPiece x11⟩]
    Facts₀.concatenates_S1x4096x16_S1x4096x16_S1x4096x16_S1x4096x16_S4x4096x16_d0

/-- The column vector bv as a [1,4096] row. -/
def bvTerm (x9 : FVec Ideal S4096 .f32) : FVec Ideal S1x4096 .f32 :=
  shapeCast S1x4096 x9 Facts₀.shapeCasts_S4096_S1x4096

/-- The shifted weight W + 2·(b₄·a₄). -/
def wShift (x1 : FVec Ideal S4096x4096 .f32) (x10 : FVec Ideal S16x4096 .f32) (x11 : FVec Ideal S4096x16 .f32) : FVec Ideal S4096x4096 .f32 :=
  addf x1
    (mulf (broadcastInDim S4096x4096 ![] Facts₀.bcast_S_S4096x4096 (constant (F := Ideal) S_ .f32 0x40000000#32))
      (Host.dotGeneral (F := Ideal) (φ₁ := .f32) (φ₂ := .f32) dot_S4096x16_S16x4096_S4096x4096_1_0_0_1_n_n none x11 x10))

/-- Magnitude over the row norm of the shifted weight: m[c] / sqrt(Σ_k wShift[c,k]²). -/
def mnsTerm (x1 : FVec Ideal S4096x4096 .f32) (x10 : FVec Ideal S16x4096 .f32) (x11 : FVec Ideal S4096x16 .f32) (x12 : FVec Ideal S4096 .f32) :
    FVec Ideal S4096 .f32 :=
  Host.divf (F := Ideal) x12
    (Host.sqrt (F := Ideal)
      (Host.reduceAdd (F := Ideal) (mulf (wShift x1 x10 x11) (wShift x1 x10 x11)) (constant (F := Ideal) S_ .f32 0x00000000#32)
        Facts₀.reducesTo_S4096x4096_S4096_d1 Facts₀.h_S_))

/-- The column scale as a [1,4096] row. -/
def mns2Term (x1 : FVec Ideal S4096x4096 .f32) (x10 : FVec Ideal S16x4096 .f32) (x11 : FVec Ideal S4096x16 .f32) (x12 : FVec Ideal S4096 .f32) :
    FVec Ideal S1x4096 .f32 :=
  shapeCast S1x4096 (mnsTerm x1 x10 x11 x12) Facts₀.shapeCasts_S4096_S1x4096

end Cert.KerVal

end
-- ==== Proof.KI.Prefix.lean ====
/-
  The four operands the host computes for the region, as functions of the arguments.

  When the region is entered, the rank-16 rows (window 2), the stacked expansion factors (window 3), the row of
  column biases (window 4) and the row of column scales (window 5) hold the host operations' composed values of the
  argument arrays: each is read off the fold of the host operations, one result at a time.
-/
import proofs.«169635_j23201413333001_2_alg».proof.Proof.KI.Entry
import proofs.«169635_j23201413333001_2_alg».proof.Proof.KerHostDefs
import Idealize.ShloMosaic.Lib.StableHlo.Run

set_option maxRecDepth 16384

noncomputable section

namespace Cert.KernelIdeal.Fr

open Cert.KernelIdeal Cert.KernelIdeal.Gen Cert.KerVal
open Idealize.ShloMosaic Idealize.ShloMosaic.TcCoe Idealize.ShloMosaic.StableHlo
open Idealize.SL Idealize.SL.Sem

variable (m : (ℓ : Loc nD τ sig) → Buf (Elt Ideal) ℓ)

/-- The rank-16 rows: the four projected bands stacked. -/
theorem V_main_v25 (c : Dev nD) :
    (V m c main_v25 : Vec Ideal S8192x16 .f32) = uTerm (m ((c : Thread nD τ).loc main_arg0)) (m ((c : Thread nD τ).loc main_arg2)) (m ((c : Thread nD τ).loc main_arg4)) (m ((c : Thread nD τ).loc main_arg6)) (m ((c : Thread nD τ).loc main_arg8)) (m ((c : Thread nD τ).loc main_arg10)) := by
  dsimp only [V, hostOps0]; after_results; rfl

/-- The expansion factors, stacked. -/
theorem V_main_v30 (c : Dev nD) :
    (V m c main_v30 : Vec Ideal S4x4096x16 .f32) = bTerm (m ((c : Thread nD τ).loc main_arg3)) (m ((c : Thread nD τ).loc main_arg5)) (m ((c : Thread nD τ).loc main_arg7)) (m ((c : Thread nD τ).loc main_arg11)) := by
  dsimp only [V, hostOps0]; after_results; rfl

/-- The column biases as a row. -/
theorem V_main_v31 (c : Dev nD) :
    (V m c main_v31 : Vec Ideal S1x4096 .f32) = bvTerm (m ((c : Thread nD τ).loc main_arg9)) := by
  dsimp only [V, hostOps0]; after_results; rfl

/-- The column scales as a row. -/
theorem V_main_v32 (c : Dev nD) :
    (V m c main_v32 : Vec Ideal S1x4096 .f32) = mns2Term (m ((c : Thread nD τ).loc main_arg1)) (m ((c : Thread nD τ).loc main_arg10)) (m ((c : Thread nD τ).loc main_arg11)) (m ((c : Thread nD τ).loc main_arg12)) := by
  dsimp only [V, hostOps0]; after_results; rfl

end Cert.KernelIdeal.Fr

end
-- ==== Proof.KerHostB.lean ====
/-
  The stacked expansion factors b [4,4096,16] and the two [1,4096] rows read at one entry.

  Slab s of b is the s-th factor: b[s,c,q] = b_s[c,q]. A length-4096 vector reshaped to one row reads the vector:
  row[0,c] = v[c].
-/
import proofs.«169635_j23201413333001_2_alg».proof.Proof.KerHostDefs
import Idealize.ShloMosaic.Lib.Pipeline.Value
import Idealize.ShloMosaic.Lib.ValueLayout

noncomputable section

open scoped BigOperators

namespace Cert.KerVal

open Cert.KernelIdeal Cert.KernelIdeal.Gen Idealize.ShloMosaic Idealize.ShloMosaic.ValueIdx

variable [Cert.KernelIdeal.Facts]

/-- A factor under a new leading unit axis reads the factor. -/
theorem bPiece_at (x : FVec Ideal S4096x16 .f32) (c : Fin 4096) (q : Fin 16) : bPiece x (ix3 (0 : Fin 1) c q) = x (ix2 c q) := by
  unfold bPiece
  exact broadcastInDim_apply _ Facts₀.bcast_S4096x16_S1x4096x16_1_2 x (ix3 (0 : Fin 1) c q) (ix2 c q) (fun a => match a with
    | ⟨0, _⟩ => by show c.val = if (4096 : Nat) = 1 then 0 else c.val; rw [if_neg (by decide)]
    | ⟨1, _⟩ => by show q.val = if (16 : Nat) = 1 then 0 else q.val; rw [if_neg (by decide)])

/-- Slab 0 of the stacked factors. -/
theorem bTerm_at0 (x3 x5 x7 x11 : FVec Ideal S4096x16 .f32) (s : Fin 4) (hs : s.val = 0) (c : Fin 4096) (q : Fin 16) :
    bTerm x3 x5 x7 x11 (ix3 s c q) = x3 (ix2 c q) := by
  unfold bTerm
  refine (concatenate_apply_piece (0 : Fin S4x4096x16.rank) _ _ (ix3 s c q) 0 (by show (0 : ℕ) < 4; omega) S1x4096x16 (bPiece x3) rfl rfl 0 rfl
    (ix3 (0 : Fin 1) c q) (fun b hb => by
      match b with
      | ⟨0, _⟩ => exact absurd rfl hb
      | ⟨1, _⟩ => rfl
      | ⟨2, _⟩ => rfl) (by show 0 + 0 = s.val; omega)).trans ?_
  exact bPiece_at x3 c q

/-- Slab 1 of the stacked factors. -/
theorem bTerm_at1 (x3 x5 x7 x11 : FVec Ideal S4096x16 .f32) (s : Fin 4) (hs : s.val = 1) (c : Fin 4096) (q : Fin 16) :
    bTerm x3 x5 x7 x11 (ix3 s c q) = x5 (ix2 c q) := by
  unfold bTerm
  refine (concatenate_apply_piece (0 : Fin S4x4096x16.rank) _ _ (ix3 s c q) 1 (by show (1 : ℕ) < 4; omega) S1x4096x16 (bPiece x5) rfl rfl 1 rfl
    (ix3 (0 : Fin 1) c q) (fun b hb => by
      match b with
      | ⟨0, _⟩ => exact absurd rfl hb
      | ⟨1, _⟩ => rfl
      | ⟨2, _⟩ => rfl) (by show 1 + 0 = s.val; omega)).trans ?_
  exact bPiece_at x5 c q

/-- Slab 2 of the stacked factors. -/
theorem bTerm_at2 (x3 x5 x7 x11 : FVec Ideal S4096x16 .f32) (s : Fin 4) (hs : s.val = 2) (c : Fin 4096) (q : Fin 16) :
    bTerm x3 x5 x7 x11 (ix3 s c q) = x7 (ix2 c q) := by
  unfold bTerm
  refine (concatenate_apply_piece (0 : Fin S4x4096x16.rank) _ _ (ix3 s c q) 2 (by show (2 : ℕ) < 4; omega) S1x4096x16 (bPiece x7) rfl rfl 2 rfl
    (ix3 (0 : Fin 1) c q) (fun b hb => by
      match b with
      | ⟨0, _⟩ => exact absurd rfl hb
      | ⟨1, _⟩ => rfl
      | ⟨2, _⟩ => rfl) (by show 2 + 0 = s.val; omega)).trans ?_
  exact bPiece_at x7 c q

/-- Slab 3 of the stacked factors. -/
theorem bTerm_at3 (x3 x5 x7 x11 : FVec Ideal S4096x16 .f32) (s : Fin 4) (hs : s.val = 3) (c : Fin 4096) (q : Fin 16) :
    bTerm x3 x5 x7 x11 (ix3 s c q) = x11 (ix2 c q) := by
  unfold bTerm
  refine (concatenate_apply_piece (0 : Fin S4x4096x16.rank) _ _ (ix3 s c q) 3 (by show (3 : ℕ) < 4; omega) S1x4096x16 (bPiece x11) rfl rfl 3 rfl
    (ix3 (0 : Fin 1) c q) (fun b hb => by
      match b with
      | ⟨0, _⟩ => exact absurd rfl hb
      | ⟨1, _⟩ => rfl
      | ⟨2, _⟩ => rfl) (by show 3 + 0 = s.val; omega)).trans ?_
  exact bPiece_at x11 c q

/-- The stacked factors at (s, c, q): the s-th factor at (c, q). -/
theorem bTerm_at (x3 x5 x7 x11 : FVec Ideal S4096x16 .f32) (s : Fin 4) (c : Fin 4096) (q : Fin 16) :
    bTerm x3 x5 x7 x11 (ix3 s c q) =
      if s.val = 0 then x3 (ix2 c q) else if s.val = 1 then x5 (ix2 c q) else if s.val = 2 then x7 (ix2 c q) else x11 (ix2 c q) := by
  have hs4 : s.val < 4 := s.isLt
  by_cases h0 : s.val = 0
  · rw [if_pos h0]; exact bTerm_at0 x3 x5 x7 x11 s h0 c q
  · rw [if_neg h0]
    by_cases h1 : s.val = 1
    · rw [if_pos h1]; exact bTerm_at1 x3 x5 x7 x11 s h1 c q
    · rw [if_neg h1]
      by_cases h2 : s.val = 2
      · rw [if_pos h2]; exact bTerm_at2 x3 x5 x7 x11 s h2 c q
      · rw [if_neg h2]; exact bTerm_at3 x3 x5 x7 x11 s (by omega) c q

/-- bv as a row: row[0,c] = bv[c]. -/
theorem bvTerm_at (x9 : FVec Ideal S4096 .f32) (c : Fin 4096) : bvTerm x9 (ix2 (0 : Fin 1) c) = x9 (ix1 c) := by
  unfold bvTerm
  exact shapeCast_a_1a_apply x9 Facts₀.shapeCasts_S4096_S1x4096 0 c

/-- The column scale as a row: row[0,c] = mns[c]. -/
theorem mns2Term_at (x1 : FVec Ideal S4096x4096 .f32) (x10 : FVec Ideal S16x4096 .f32) (x11 : FVec Ideal S4096x16 .f32) (x12 : FVec Ideal S4096 .f32)
    (c : Fin 4096) : mns2Term x1 x10 x11 x12 (ix2 (0 : Fin 1) c) = mnsTerm x1 x10 x11 x12 (ix1 c) := by
  unfold mns2Term
  exact shapeCast_a_1a_apply (mnsTerm x1 x10 x11 x12) Facts₀.shapeCasts_S4096_S1x4096 0 c

end Cert.KerVal

end
-- ==== Proof.KerHostDot.lean ====
/-
  The host's [2048,4096] × [4096,16] product read at one entry: Σ_{k<4096} l[p,k]·r[k,q]
  (left operand contracted on its last axis, right operand on its first).
-/
import proofs.«169635_j23201413333001_2_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators

namespace Cert.KerVal

open Cert.KernelIdeal Cert.KernelIdeal.Gen Idealize.ShloMosaic Idealize.ShloMosaic.ValueIdx

variable [Cert.KernelIdeal.Facts]

theorem lhsLow_0 (i : S2048x16.Idx) (k : dot_S2048x4096_S4096x16_S2048x16_1_0_0_1_n_n.contr.Idx) : (dot_S2048x4096_S4096x16_S2048x16_1_0_0_1_n_n.lhsIdx i k 0).val = (i 0).val := by
  unfold DotDims.lhsIdx
  rw [dif_neg (show ¬(0 : Fin S2048x4096.rank) ∈ dot_S2048x4096_S4096x16_S2048x16_1_0_0_1_n_n.lhsBatch by decide), dif_pos (show (0 : Fin S2048x4096.rank) ∈ dot_S2048x4096_S4096x16_S2048x16_1_0_0_1_n_n.lhsNonContracting by decide)]
  rfl
theorem rhsLow_1 (i : S2048x16.Idx) (k : dot_S2048x4096_S4096x16_S2048x16_1_0_0_1_n_n.contr.Idx) : (dot_S2048x4096_S4096x16_S2048x16_1_0_0_1_n_n.rhsIdx i k 1).val = (i 1).val := by
  unfold DotDims.rhsIdx
  rw [dif_neg (show ¬(1 : Fin S4096x16.rank) ∈ dot_S2048x4096_S4096x16_S2048x16_1_0_0_1_n_n.rhsBatch by decide), dif_pos (show (1 : Fin S4096x16.rank) ∈ dot_S2048x4096_S4096x16_S2048x16_1_0_0_1_n_n.rhsNonContracting by decide)]
  rfl

/-- Entry (p, q) of the host product is Σ_k l[p,k]·r[k,q]. -/
theorem dotLow_at (l : FVec Ideal S2048x4096 .f32) (r : FVec Ideal S4096x16 .f32) (p : Fin 2048) (q : Fin 16) :
    Host.dotGeneral (F := Ideal) dot_S2048x4096_S4096x16_S2048x16_1_0_0_1_n_n none l r (ix2 p q) = ∑ k : Fin 4096, l (ix2 p k) * r (ix2 k q) := by
  simp only [Host.dotGeneral]
  rw [Ideal.dotGeneral_apply, ← Equiv.sum_comp (contrEquiv1 dot_S2048x4096_S4096x16_S2048x16_1_0_0_1_n_n 4096 rfl rfl).symm]
  refine Finset.sum_congr rfl fun k _ => ?_
  have hk := contrEquiv1_symm_val dot_S2048x4096_S4096x16_S2048x16_1_0_0_1_n_n 4096 rfl rfl k
  have el : dot_S2048x4096_S4096x16_S2048x16_1_0_0_1_n_n.lhsIdx (ix2 p q) ((contrEquiv1 dot_S2048x4096_S4096x16_S2048x16_1_0_0_1_n_n 4096 rfl rfl).symm k) = ix2 p k :=
    funext fun a => Fin.ext (by
      match a with
      | ⟨0, _⟩ => exact lhsLow_0 _ _
      | ⟨1, _⟩ => exact (dot_S2048x4096_S4096x16_S2048x16_1_0_0_1_n_n.lhsIdx_val_of_single rfl _ _).trans hk)
  have er : dot_S2048x4096_S4096x16_S2048x16_1_0_0_1_n_n.rhsIdx (ix2 p q) ((contrEquiv1 dot_S2048x4096_S4096x16_S2048x16_1_0_0_1_n_n 4096 rfl rfl).symm k) = ix2 k q :=
    funext fun a => Fin.ext (by
      match a with
      | ⟨0, _⟩ => exact (dot_S2048x4096_S4096x16_S2048x16_1_0_0_1_n_n.rhsIdx_val_of_single rfl _ _).trans hk
      | ⟨1, _⟩ => exact rhsLow_1 _ _)
  rw [el, er]

end Cert.KerVal

end
-- ==== Proof.KerHostU.lean ====
/-
  The stacked projections u [8192,16] read at one entry.

  Row r of u lies in band r / 2048. In bands 0, 1, 3 the entry (r, q) is Σ_k data[r,k]·a[q,k] for that band's factor a;
  in band 2 it is (Σ_k (data[r,k]·1)·a₃[q,k])·d[q]. Each band is a slice of data's rows times a transposed factor; the
  stacking reads the band whose row span holds r, at row r − 2048·band.
-/
import proofs.«169635_j23201413333001_2_alg».proof.Proof.KerHostDefs
import proofs.«169635_j23201413333001_2_alg».proof.Proof.KerHostDot
import proofs.«169635_j23201413333001_2_alg».proof.Proof.Spec
import Idealize.ShloMosaic.Lib.ValueLayout
import Idealize.ShloMosaic.Lib.IdealHost

noncomputable section

open scoped BigOperators

namespace Cert.KerVal

open Cert.KernelIdeal Cert.KernelIdeal.Gen Idealize.ShloMosaic Idealize.ShloMosaic.ValueIdx

variable [Cert.KernelIdeal.Facts]

/-- Band 0 at (p, q): row r = p of data against a₁. -/
theorem uPiece0_at (x0 : FVec Ideal S8192x4096 .f32) (x2 : FVec Ideal S16x4096 .f32) (p : Fin 2048) (q : Fin 16) (r : Fin 8192)
    (hr : r.val = 0 + p.val) : uPiece0 x0 x2 (ix2 p q) = Cert.Spec.low x0 x2 r q := by
  unfold uPiece0 Cert.Spec.low
  rw [dotLow_at]
  refine Finset.sum_congr rfl fun k _ => ?_
  rw [slice2_axis0_apply 0 x0 _ p k r hr, transpose_ix2_apply]

/-- Band 1 at (p, q): row r = 2048 + p of data against a₂. -/
theorem uPiece1_at (x0 : FVec Ideal S8192x4096 .f32) (x4 : FVec Ideal S16x4096 .f32) (p : Fin 2048) (q : Fin 16) (r : Fin 8192)
    (hr : r.val = 2048 + p.val) : uPiece1 x0 x4 (ix2 p q) = Cert.Spec.low x0 x4 r q := by
  unfold uPiece1 Cert.Spec.low
  rw [dotLow_at]
  refine Finset.sum_congr rfl fun k _ => ?_
  rw [slice2_axis0_apply 2048 x0 _ p k r hr, transpose_ix2_apply]

/-- Band 3 at (p, q): row r = 6144 + p of data against a₄. -/
theorem uPiece3_at (x0 : FVec Ideal S8192x4096 .f32) (x10 : FVec Ideal S16x4096 .f32) (p : Fin 2048) (q : Fin 16) (r : Fin 8192)
    (hr : r.val = 6144 + p.val) : uPiece3 x0 x10 (ix2 p q) = Cert.Spec.low x0 x10 r q := by
  unfold uPiece3 Cert.Spec.low
  rw [dotLow_at]
  refine Finset.sum_congr rfl fun k _ => ?_
  rw [slice2_axis0_apply 6144 x0 _ p k r hr, transpose_ix2_apply]

/-- The column scale d broadcast over the rows, at (p, q): d[q]. -/
theorem dRow_at (x8 : FVec Ideal S16 .f32) (p : Fin 2048) (q : Fin 16) :
    broadcastInDim S2048x16 ![0, 1] Facts₀.bcast_S1x16_S2048x16_0_1 (broadcastInDim S1x16 ![1] Facts₀.bcast_S16_S1x16_1 x8) (ix2 p q)
      = x8 (ix1 q) := by
  rw [broadcastInDim_apply _ Facts₀.bcast_S1x16_S2048x16_0_1 _ (ix2 p q) (ix2 (0 : Fin 1) q) (fun a => match a with
    | ⟨0, _⟩ => by show 0 = if (1 : Nat) = 1 then 0 else p.val; rw [if_pos rfl]
    | ⟨1, _⟩ => by show q.val = if (16 : Nat) = 1 then 0 else q.val; rw [if_neg (by decide)])]
  exact broadcastInDim_apply _ Facts₀.bcast_S16_S1x16_1 x8 (ix2 (0 : Fin 1) q) (ix1 q) (fun a => match a with
    | ⟨0, _⟩ => by show q.val = if (16 : Nat) = 1 then 0 else q.val; rw [if_neg (by decide)])

/-- Band 2 at (p, q): row r = 4096 + p of data, times one, against a₃, times d[q]. -/
theorem uPiece2_at (x0 : FVec Ideal S8192x4096 .f32) (x6 : FVec Ideal S16x4096 .f32) (x8 : FVec Ideal S16 .f32) (p : Fin 2048) (q : Fin 16)
    (r : Fin 8192) (hr : r.val = 4096 + p.val) : uPiece2 x0 x6 x8 (ix2 p q) = Cert.Spec.lowV x0 x6 x8 r q := by
  unfold uPiece2 Cert.Spec.lowV
  rw [mulf_apply, dotLow_at, dRow_at]
  refine congrArg (· * x8 (ix1 q)) (Finset.sum_congr rfl fun k _ => ?_)
  rw [mulf_apply, slice2_axis0_apply 4096 x0 _ p k r hr, transpose_ix2_apply, broadcastInDim_scalar_apply]
  rfl

/-- The stacked array at (r, q): the band that holds row r. -/
theorem uTerm_at (x0 : FVec Ideal S8192x4096 .f32) (x2 x4 x6 : FVec Ideal S16x4096 .f32) (x8 : FVec Ideal S16 .f32) (x10 : FVec Ideal S16x4096 .f32)
    (r : Fin 8192) (q : Fin 16) :
    uTerm x0 x2 x4 x6 x8 x10 (ix2 r q) =
      if r.val < 2048 then Cert.Spec.low x0 x2 r q
      else if r.val < 4096 then Cert.Spec.low x0 x4 r q
      else if r.val < 6144 then Cert.Spec.lowV x0 x6 x8 r q
      else Cert.Spec.low x0 x10 r q := by
  have hr8 : r.val < 8192 := r.isLt
  unfold uTerm
  by_cases h0 : r.val < 2048
  · rw [if_pos h0]
    refine (concatenate_apply_piece (0 : Fin S8192x16.rank) _ _ (ix2 r q) 0 (by show (0 : ℕ) < 4; omega) S2048x16 (uPiece0 x0 x2) rfl rfl 0 rfl
      (ix2 (⟨r.val, h0⟩ : Fin 2048) q) (fun b hb => by
        match b with
        | ⟨0, _⟩ => exact absurd rfl hb
        | ⟨1, _⟩ => rfl) (by show 0 + r.val = r.val; omega)).trans ?_
    exact uPiece0_at x0 x2 _ q r (by show r.val = 0 + r.val; omega)
  · rw [if_neg h0]
    by_cases h1 : r.val < 4096
    · rw [if_pos h1]
      refine (concatenate_apply_piece (0 : Fin S8192x16.rank) _ _ (ix2 r q) 1 (by show (1 : ℕ) < 4; omega) S2048x16 (uPiece1 x0 x4) rfl rfl 2048 rfl
        (ix2 (⟨r.val - 2048, by omega⟩ : Fin 2048) q) (fun b hb => by
          match b with
          | ⟨0, _⟩ => exact absurd rfl hb
          | ⟨1, _⟩ => rfl) (by show 2048 + (r.val - 2048) = r.val; omega)).trans ?_
      exact uPiece1_at x0 x4 _ q r (by show r.val = 2048 + (r.val - 2048); omega)
    · rw [if_neg h1]
      by_cases h2 : r.val < 6144
      · rw [if_pos h2]
        refine (concatenate_apply_piece (0 : Fin S8192x16.rank) _ _ (ix2 r q) 2 (by show (2 : ℕ) < 4; omega) S2048x16 (uPiece2 x0 x6 x8) rfl rfl 4096 rfl
          (ix2 (⟨r.val - 4096, by omega⟩ : Fin 2048) q) (fun b hb => by
            match b with
            | ⟨0, _⟩ => exact absurd rfl hb
            | ⟨1, _⟩ => rfl) (by show 4096 + (r.val - 4096) = r.val; omega)).trans ?_
        exact uPiece2_at x0 x6 x8 _ q r (by show r.val = 4096 + (r.val - 4096); omega)
      · rw [if_neg h2]
        refine (concatenate_apply_piece (0 : Fin S8192x16.rank) _ _ (ix2 r q) 3 (by show (3 : ℕ) < 4; omega) S2048x16 (uPiece3 x0 x10) rfl rfl 6144 rfl
          (ix2 (⟨r.val - 6144, by omega⟩ : Fin 2048) q) (fun b hb => by
            match b with
            | ⟨0, _⟩ => exact absurd rfl hb
            | ⟨1, _⟩ => rfl) (by show 6144 + (r.val - 6144) = r.val; omega)).trans ?_
        exact uPiece3_at x0 x10 _ q r (by show r.val = 6144 + (r.val - 6144); omega)

end Cert.KerVal

end
-- ==== Proof.KI.Last.lean ====
/-
  The finishing step at an entry.

  At a point t with reduction coordinate 7, in row band g = t / 16 and column half j, entry (p, q) of what the body
  leaves is the finishing arithmetic applied to: the whole contraction base(r, cc) (r = 2048·g + p, cc = 2048·j + q);
  raw = Σ_s u[r,s]·b_g[cc,s], where u's row r is band g's projection of data's row r; the column bias bv[cc]; and the
  column scale mns[cc]. Band by band this is the specification's entry; in band 3 the one law used is commutativity
  of the product (raw·mns = mns·raw).
-/
import proofs.«169635_j23201413333001_2_alg».proof.Proof.KI.Partial
import proofs.«169635_j23201413333001_2_alg».proof.Proof.KI.Prefix
import proofs.«169635_j23201413333001_2_alg».proof.Proof.KerHostB
import proofs.«169635_j23201413333001_2_alg».proof.Proof.KerHostU

set_option maxRecDepth 16384

noncomputable section

open scoped BigOperators

namespace Cert.KernelIdeal.Fr

open Cert.KernelIdeal Cert.KernelIdeal.Gen Cert.KerVal Cert.LibBlockSum
open Idealize.ShloMosaic Idealize.ShloMosaic.TcCoe Idealize.ShloMosaic.ValueIdx
open Idealize.SL Idealize.SL.Sem
open Idealize.ShloMosaic.Pipeline (Dat Cfg Window)

/-- Row r of the stacked projected rows, band by band. -/
theorem uTerm_band0 (x0 : Vec Ideal S8192x4096 .f32) (x2 x4 x6 : Vec Ideal S16x4096 .f32) (x8 : Vec Ideal S16 .f32) (x10 : Vec Ideal S16x4096 .f32)
    (r : Fin 8192) (q : Fin 16) (h : r.val < 2048) : uTerm x0 x2 x4 x6 x8 x10 (ix2 r q) = Cert.Spec.low x0 x2 r q := by
  rw [uTerm_at, if_pos h]
theorem uTerm_band1 (x0 : Vec Ideal S8192x4096 .f32) (x2 x4 x6 : Vec Ideal S16x4096 .f32) (x8 : Vec Ideal S16 .f32) (x10 : Vec Ideal S16x4096 .f32)
    (r : Fin 8192) (q : Fin 16) (h1 : 2048 ≤ r.val) (h2 : r.val < 4096) : uTerm x0 x2 x4 x6 x8 x10 (ix2 r q) = Cert.Spec.low x0 x4 r q := by
  rw [uTerm_at, if_neg (by omega), if_pos h2]
theorem uTerm_band2 (x0 : Vec Ideal S8192x4096 .f32) (x2 x4 x6 : Vec Ideal S16x4096 .f32) (x8 : Vec Ideal S16 .f32) (x10 : Vec Ideal S16x4096 .f32)
    (r : Fin 8192) (q : Fin 16) (h1 : 4096 ≤ r.val) (h2 : r.val < 6144) : uTerm x0 x2 x4 x6 x8 x10 (ix2 r q) = Cert.Spec.lowV x0 x6 x8 r q := by
  rw [uTerm_at, if_neg (by omega), if_neg (by omega), if_pos h2]
theorem uTerm_band3 (x0 : Vec Ideal S8192x4096 .f32) (x2 x4 x6 : Vec Ideal S16x4096 .f32) (x8 : Vec Ideal S16 .f32) (x10 : Vec Ideal S16x4096 .f32)
    (r : Fin 8192) (q : Fin 16) (h1 : 6144 ≤ r.val) : uTerm x0 x2 x4 x6 x8 x10 (ix2 r q) = Cert.Spec.low x0 x10 r q := by
  rw [uTerm_at, if_neg (by omega), if_neg (by omega), if_neg (by omega)]

variable (m : (ℓ : Loc nD τ sig) → Buf (Elt Ideal) ℓ)

/-- A point's blocks of the four host-computed operands, at their literal types. -/
abbrev blk2 (c : Dev nD) (t : Fin cfg0.N) : Vec Ideal S2048x16 .f32 := iblk m c 2 t
abbrev blk3 (c : Dev nD) (t : Fin cfg0.N) : Vec Ideal S1x2048x16 .f32 := iblk m c 3 t
abbrev blk4 (c : Dev nD) (t : Fin cfg0.N) : Vec Ideal S1x2048 .f32 := iblk m c 4 t
abbrev blk5 (c : Dev nD) (t : Fin cfg0.N) : Vec Ideal S1x2048 .f32 := iblk m c 5 t

/-- The kernel's column scale, as a term of its arguments. -/
abbrev mnsK (c : Dev nD) : Vec Ideal S4096 .f32 := mnsTerm (m ((c : Thread nD τ).loc main_arg1)) (m ((c : Thread nD τ).loc main_arg10)) (m ((c : Thread nD τ).loc main_arg11)) (m ((c : Thread nD τ).loc main_arg12))

/-- The specification's array at the kernel's arguments. -/
def Gk (c : Dev nD) : Vec Ideal S8192x4096 .f32 :=
  Cert.Spec.G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (mnsK m c)

/-- The rank-16 contraction of a point's blocks is the contraction of row r of the projected rows with row cc of band
    g's expansion factor. -/
theorem raw_blocks (c : Dev nD) (t : Fin cfg0.N) (p q : Fin 2048) (r : Fin 8192) (cc : Fin 4096) (g : Fin 4)
    (hr : r.val = 2048 * (t.val / 16) + p.val) (hc : cc.val = 2048 * ((t.val / 8) % 2) + q.val) (hg : g.val = t.val / 16) :
    (∑ s : Fin 16, blk2 m c t (ix2 p s) * blk3 m c t (ix3 0 q s))
      = ∑ s : Fin 16, uTerm (m ((c : Thread nD τ).loc main_arg0)) (m ((c : Thread nD τ).loc main_arg2)) (m ((c : Thread nD τ).loc main_arg4)) (m ((c : Thread nD τ).loc main_arg6)) (m ((c : Thread nD τ).loc main_arg8)) (m ((c : Thread nD τ).loc main_arg10)) (ix2 r s)
          * bTerm (m ((c : Thread nD τ).loc main_arg3)) (m ((c : Thread nD τ).loc main_arg5)) (m ((c : Thread nD τ).loc main_arg7)) (m ((c : Thread nD τ).loc main_arg11)) (ix3 g cc s) :=
  Finset.sum_congr rfl fun s _ => congrArg₂ (fun a b : EReal => a * b)
    ((iblk2_at m c t p s r hr).trans (congrFun (V_main_v25 m c) _))
    ((iblk3_at m c t q s g cc hg hc).trans (congrFun (V_main_v30 m c) _))

/-- The column bias and the column scale a point's blocks hold at column q. -/
theorem bias_block (c : Dev nD) (t : Fin cfg0.N) (q : Fin 2048) (cc : Fin 4096) (hc : cc.val = 2048 * ((t.val / 8) % 2) + q.val) :
    blk4 m c t (ix2 0 q) = (m ((c : Thread nD τ).loc main_arg9)) (ix1 cc) :=
  ((iblk4_at m c t q cc hc).trans (congrFun (V_main_v31 m c) _)).trans (bvTerm_at _ cc)
theorem scale_block (c : Dev nD) (t : Fin cfg0.N) (q : Fin 2048) (cc : Fin 4096) (hc : cc.val = 2048 * ((t.val / 8) % 2) + q.val) :
    blk5 m c t (ix2 0 q) = mnsK m c (ix1 cc) :=
  ((iblk5_at m c t q cc hc).trans (congrFun (V_main_v32 m c) _)).trans (mns2Term_at _ _ _ _ cc)

/-- After a point with reduction coordinate 7 the buffer's entry (p, q) is the specification's entry (r, cc). -/
theorem last_at (c : Dev nD) (t : Fin cfg0.N) (h7 : t.val % 8 = 7) (p q : Fin 2048) (r : Fin 8192) (cc : Fin 4096)
    (hr : r.val = 2048 * (t.val / 16) + p.val) (hc : cc.val = 2048 * ((t.val / 8) % 2) + q.val) :
    outsAt m c t.val t.isLt (ix2 p q) = Gk m c (ix2 r cc) := by
  have h0 : ¬t.val % 8 = 0 := by omega
  have hN : t.val < 64 := lt_of_lt_of_eq t.isLt (show cfg0.N = 64 from N_0)
  rw [outsAt_C m c t h0 h7, outC_eq, pay3_at]
  dsimp only
  rw [pay2_at, full_at m c t h7 p q r cc hr hc, coord0 t]
  rw [show (iblk m c 4 t : Vec Ideal S1x2048 .f32) (ix2 0 q) = (m ((c : Thread nD τ).loc main_arg9)) (ix1 cc) from bias_block m c t q cc hc,
    show (iblk m c 5 t : Vec Ideal S1x2048 .f32) (ix2 0 q) = mnsK m c (ix1 cc) from scale_block m c t q cc hc]
  unfold Gk
  rw [Cert.Spec.G_ix2]
  unfold Cert.Spec.Gat
  rcases (by omega : t.val / 16 = 0 ∨ t.val / 16 = 1 ∨ t.val / 16 = 2 ∨ t.val / 16 = 3) with hb | hb | hb | hb
  · have hr0 : r.val < 2048 := by omega
    rw [raw_blocks m c t p q r cc 0 hr hc hb.symm, if_neg (by omega), if_pos (Or.inl hb), if_pos hr0]
    refine congrArg (fun z : EReal => (Cert.Spec.base (m ((c : Thread nD τ).loc main_arg0)) (m ((c : Thread nD τ).loc main_arg1)) r cc : EReal) + z * Cert.Spec.two) ?_
    unfold Cert.Spec.up
    exact Finset.sum_congr rfl fun s _ => congrArg₂ (fun a b : EReal => a * b) (uTerm_band0 _ _ _ _ _ _ r s hr0) (bTerm_at0 _ _ _ _ 0 rfl cc s)
  · have hr1 : 2048 ≤ r.val := by omega
    have hr2 : r.val < 4096 := by omega
    rw [raw_blocks m c t p q r cc 1 hr hc hb.symm, if_neg (by omega), if_pos (Or.inr hb), if_neg (by omega), if_pos hr2]
    refine congrArg (fun z : EReal => (Cert.Spec.base (m ((c : Thread nD τ).loc main_arg0)) (m ((c : Thread nD τ).loc main_arg1)) r cc : EReal) + z * Cert.Spec.two) ?_
    unfold Cert.Spec.up
    exact Finset.sum_congr rfl fun s _ => congrArg₂ (fun a b : EReal => a * b) (uTerm_band1 _ _ _ _ _ _ r s hr1 hr2) (bTerm_at1 _ _ _ _ 1 rfl cc s)
  · have hr1 : 4096 ≤ r.val := by omega
    have hr2 : r.val < 6144 := by omega
    rw [raw_blocks m c t p q r cc 2 hr hc hb.symm, if_neg (by omega), if_neg (by omega), if_pos hb, if_neg (by omega), if_neg (by omega), if_pos hr2]
    refine congrArg (fun z : EReal => (Cert.Spec.base (m ((c : Thread nD τ).loc main_arg0)) (m ((c : Thread nD τ).loc main_arg1)) r cc : EReal) + z * ((m ((c : Thread nD τ).loc main_arg9)) (ix1 cc) : EReal)) ?_
    unfold Cert.Spec.up
    exact Finset.sum_congr rfl fun s _ => congrArg₂ (fun a b : EReal => a * b) (uTerm_band2 _ _ _ _ _ _ r s hr1 hr2) (bTerm_at2 _ _ _ _ 2 rfl cc s)
  · have hr1 : 6144 ≤ r.val := by omega
    rw [raw_blocks m c t p q r cc 3 hr hc hb.symm, if_pos hb, if_neg (by omega), if_neg (by omega), if_neg (by omega)]
    refine congrArg (fun z : EReal => (Cert.Spec.base (m ((c : Thread nD τ).loc main_arg0)) (m ((c : Thread nD τ).loc main_arg1)) r cc * (mnsK m c (ix1 cc) - Cert.Spec.one) : EReal) + z * Cert.Spec.two) ?_
    refine (mul_comm _ _).trans ?_
    refine congrArg (fun z : EReal => (mnsK m c (ix1 cc) : EReal) * z) ?_
    unfold Cert.Spec.up
    exact Finset.sum_congr rfl fun s _ => congrArg₂ (fun a b : EReal => a * b) (uTerm_band3 _ _ _ _ _ _ r s hr1) (bTerm_at3 _ _ _ _ 3 rfl cc s)

end Cert.KernelIdeal.Fr

end
-- ==== Proof.KI.Final.lean ====
/-
  The result array after the run, at the exact values.

  A point with reduction coordinate 7 writes back block (i, j) of the result; its entry (p, q) is the entry
  (2048·i + p, 2048·j + q) of the specification's array (the finishing step applied to the whole contraction). The
  eight such points' blocks tile the array, so the array ends holding the specification's function of the arguments.
-/
import proofs.«169635_j23201413333001_2_alg».proof.Proof.KI.Last

set_option maxRecDepth 16384

noncomputable section

namespace Cert.KernelIdeal.Fr

open Cert.KernelIdeal Cert.KernelIdeal.Gen Cert.KerVal
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-- What a last-step point writes back is its block of the specification's array. -/
theorem flushed_eq (c : Dev nD) (t : Fin cfg0.N) (hf : (cfg0.win 6).flush t = true) :
    (dats m 0 c).flushed 6 t = ((cfg0.win 6).blk t).view.read (Elt Ideal) (Gk m c) := by
  have h7 : t.val % 8 = 7 := (flush0_6 t).mp hf
  have hN : t.val < 64 := lt_of_lt_of_eq t.isLt (show cfg0.N = 64 from N_0)
  show (cfg0.win 6).cut (grid0.coords t) ((dats m 0 c).after 6 t) = _
  rw [after6]
  funext y
  obtain ⟨p, q, rfl⟩ : ∃ (p q : Fin 2048), y = ix2 p q := ⟨y 0, y 1, eq_ix2 y⟩
  have hr : 2048 * (t.val / 16) + p.val < 8192 := by have := p.isLt; omega
  have hc : 2048 * ((t.val / 8) % 2) + q.val < 4096 := by have := q.isLt; omega
  show outsAt m c t.val t.isLt (ix2 p q) = Gk m c (((cfg0.win 6).blk t).view.emb (ix2 p q))
  rw [emb6_at t p q ⟨_, hr⟩ ⟨_, hc⟩ rfl rfl]
  exact last_at m c t h7 p q ⟨_, hr⟩ ⟨_, hc⟩ rfl rfl

/-- The result array ends holding the specification's function of the arguments. -/
theorem final6 (c : Dev nD) : (dats m 0 c).arrAt 6 cfg0.N = Gk m c :=
  (dats m 0 c).arrAt_eq_of_cover 6 (Gk m c) (flushed_eq m c) cover6

/-- The run, read: the result at the specification, the arguments unchanged. -/
theorem run : θ_run defs (onTc (τ := τ) (main (F := Ideal))) ⟨m, fun _ => 0, ρ⟩ fun r => ∀ c : Dev nD,
      r.2.mem ((c.tc : Thread nD τ).loc main_v33) = Gk m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c => ⟨((h c).1 6).trans (final6 m c),
      ((h c).1 0).trans ((((dats m) 0 c).arrAt_in 0 rfl _).trans ((A_eq m c 0).trans (V_main_arg0 m c))),
      ((h c).1 1).trans ((((dats m) 0 c).arrAt_in 1 rfl _).trans ((A_eq m c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c)⟩)
    (run_main m ρ)

end Cert.KernelIdeal.Fr

end
-- ==== Proof.LibScatterFold.lean ====
/-
  A left fold of point updates read at one index, and `Host.scatter` read at one result index.

  `Host.scatter d f x idx upd` is the left fold, over the update indices in row-major order, of the step that
  replaces the entry at the result index an update index lands on (`ScatterDims.resultIdx?`) by `f` of that
  entry and the update's element, and drops an update index that lands outside the operand. Read at ONE result
  index `i` the fold is decided by which update indices land on `i`:
    * none does: the entry is the operand's, `x i` (`scatter_apply_of_forall_ne`);
    * exactly one, `j`, does: the entry is `f (x i) (upd j)` (`scatter_apply_of_unique`).
  Both follow from two facts about a left fold `l.foldl st x` of any step function `st` read at `i`: a step that
  leaves entry `i` alone at every member of `l` leaves it alone over the whole fold (`foldl_apply_of_forall_eq`),
  and when exactly one member `n₀` of a duplicate-free `l` changes entry `i`, by a function `c` of the entry
  alone, the fold's entry is `c (x i)` (`foldl_apply_of_unique`). Neither fact evaluates the list, so they apply
  to a scatter over millions of update indices.
-/
import Idealize.ShloMosaic.PureOps.ShapeOps
import Idealize.ShloMosaic.Lib.ValueIdx

namespace Cert.LibScatterFold

open Idealize.ShloMosaic

section Fold

variable {ι α β : Type}

/-- A left fold whose step leaves entry `i` alone at every member of the list leaves entry `i` alone. -/
theorem foldl_apply_of_forall_eq (st : (ι → α) → β → ι → α) (i : ι) (l : List β)
    (h : ∀ r, ∀ n ∈ l, st r n i = r i) (x : ι → α) : l.foldl st x i = x i := by
  induction l generalizing x with
  | nil => rfl
  | cons n t ih =>
    rw [List.foldl_cons, ih (fun r m hm => h r m (List.mem_cons_of_mem _ hm)) (st x n)]
    exact h x n (List.mem_cons_self ..)

/-- A left fold over a duplicate-free list in which exactly one member `n₀` changes entry `i`, to `c` of the
    entry, and every other member leaves entry `i` alone: the fold's entry `i` is `c` of the initial one. -/
theorem foldl_apply_of_unique (st : (ι → α) → β → ι → α) (i : ι) (n₀ : β) (c : α → α) (l : List β)
    (hl : l.Nodup) (hn₀ : n₀ ∈ l) (hhit : ∀ r, st r n₀ i = c (r i))
    (hmiss : ∀ r, ∀ n ∈ l, n ≠ n₀ → st r n i = r i) (x : ι → α) : l.foldl st x i = c (x i) := by
  induction l generalizing x with
  | nil => exact absurd hn₀ (List.not_mem_nil)
  | cons n t ih =>
    rw [List.foldl_cons]
    have hnd := List.nodup_cons.1 hl
    by_cases hn : n = n₀
    · subst hn
      rw [foldl_apply_of_forall_eq st i t (fun r m hm => hmiss r m (List.mem_cons_of_mem _ hm)
        (fun hmn => hnd.1 (hmn ▸ hm))) (st x n)]
      exact hhit x
    · have hmem : n₀ ∈ t := by
        rcases List.mem_cons.1 hn₀ with h | h
        · exact absurd h.symm hn
        · exact h
      rw [ih hnd.2 hmem (fun r m hm => hmiss r m (List.mem_cons_of_mem _ hm)) (st x n)]
      rw [hmiss x n (List.mem_cons_self ..) hn]

end Fold

section Scatter

variable {s si u : Shape} {α : Type} {w : Nat}

/-- `Host.scatter` at a result index no update index lands on: the operand's entry. -/
theorem scatter_apply_of_forall_ne (d : ScatterDims s si u) (f : α → α → α) (x : s.Idx → α) (idx : IVec si w)
    (upd : u.Idx → α) (i : s.Idx) (h : ∀ j : u.Idx, d.resultIdx? j idx ≠ some i) :
    Host.scatter d f x idx upd i = x i := by
  unfold Host.scatter
  apply foldl_apply_of_forall_eq
  intro r n _
  have hn := h (u.rowMajor.symm n)
  beta_reduce
  generalize d.resultIdx? (u.rowMajor.symm n) idx = o at hn
  cases o with
  | none => rfl
  | some k =>
    show (if i = k then _ else r i) = r i
    rw [if_neg]
    rintro rfl
    exact hn rfl

/-- `Host.scatter` at a result index exactly one update index `j` lands on: the body `f` applied to the
    operand's entry and the update's element at `j`. -/
theorem scatter_apply_of_unique (d : ScatterDims s si u) (f : α → α → α) (x : s.Idx → α) (idx : IVec si w)
    (upd : u.Idx → α) (i : s.Idx) (j : u.Idx) (hj : d.resultIdx? j idx = some i)
    (huniq : ∀ j' : u.Idx, d.resultIdx? j' idx = some i → j' = j) :
    Host.scatter d f x idx upd i = f (x i) (upd j) := by
  unfold Host.scatter
  refine foldl_apply_of_unique _ i (u.rowMajor j) (fun a => f a (upd j)) _ (List.nodup_finRange _)
    (List.mem_finRange _) ?_ ?_ x
  · intro r
    beta_reduce
    rw [Equiv.symm_apply_apply, hj]
    show (if i = i then _ else r i) = _
    rw [if_pos rfl]
  · intro r n _ hne
    beta_reduce
    have hu := huniq (u.rowMajor.symm n)
    generalize d.resultIdx? (u.rowMajor.symm n) idx = o at hu
    cases o with
    | none => rfl
    | some k =>
      show (if i = k then _ else r i) = r i
      rw [if_neg]
      rintro rfl
      apply hne
      rw [← hu rfl, Equiv.apply_symm_apply]

end Scatter

/-! ## A window of whole rows at one start row

  The dimension numbers of adding into, or overwriting, the rows `s0 ≤ r < s0 + n` of a rank-2 operand `[N, M]`: one
  scatter index (the scatter indices have shape `[1]`, holding the start row), both update axes window axes, nothing
  inserted, the start index's one component going to operand axis 0. Update index `(p, q)` lands on `(s0 + p, q)`;
  so the scatter's row `r` is `f` of the operand's entry and the update's row `r - s0` inside the band
  `s0 ≤ r < s0 + n`, and the operand's row outside it. -/
section Rows

open Idealize.ShloMosaic.ValueIdx

variable {N M n w : Nat} {α : Type}

/-- The dimension numbers of a whole-row window written at one start row. -/
structure RowWindow (d : ScatterDims ⟨2, ![N, M]⟩ ⟨1, ![1]⟩ ⟨2, ![n, M]⟩) : Prop where
  uw : d.updateWindowDims = [0, 1]
  iw : d.insertedWindowDims = []
  sd : d.scatterDimsToOperandDims = [0]
  iv : d.indexVectorDim = 0

variable (d : ScatterDims ⟨2, ![N, M]⟩ ⟨1, ![1]⟩ ⟨2, ![n, M]⟩) (hd : RowWindow d)
include hd

/-- On operand axis 0 the window starts at the start row. -/
theorem start_zero (j : (⟨2, ![n, M]⟩ : Shape).Idx) (idx : IVec ⟨1, ![1]⟩ w) (s0 : Int)
    (hidx : ∀ k, (idx k).toInt = s0) : d.start j idx 0 = s0 := by
  obtain ⟨uw, iw, sd, iv, wf⟩ := d
  obtain ⟨h1, h2, h3, h4⟩ := hd
  simp only at h1 h2 h3 h4
  subst h1 h2 h3 h4
  unfold ScatterDims.start
  rw [dif_pos (show (0 : Fin 2) ∈ ([0] : List (Fin 2)) by decide)]
  exact hidx _

/-- On operand axis 1 the window starts at column 0. -/
theorem start_one (j : (⟨2, ![n, M]⟩ : Shape).Idx) (idx : IVec ⟨1, ![1]⟩ w) : d.start j idx 1 = 0 := by
  obtain ⟨uw, iw, sd, iv, wf⟩ := d
  obtain ⟨h1, h2, h3, h4⟩ := hd
  simp only at h1 h2 h3 h4
  subst h1 h2 h3 h4
  unfold ScatterDims.start
  rw [dif_neg (show (1 : Fin 2) ∉ ([0] : List (Fin 2)) by decide)]

/-- The window coordinate on operand axis 0 is the update's row. -/
theorem window_zero (j : (⟨2, ![n, M]⟩ : Shape).Idx) : d.window j 0 = (j 0).val := by
  obtain ⟨uw, iw, sd, iv, wf⟩ := d
  obtain ⟨h1, h2, h3, h4⟩ := hd
  simp only at h1 h2 h3 h4
  subst h1 h2 h3 h4
  unfold ScatterDims.window
  split
  · rfl
  · rename_i h
    exact absurd (show (0 : Fin 2) ∈ (List.finRange 2).filter (fun a => a ∉ ([] : List (Fin 2))) by decide) h

/-- The window coordinate on operand axis 1 is the update's column. -/
theorem window_one (j : (⟨2, ![n, M]⟩ : Shape).Idx) : d.window j 1 = (j 1).val := by
  obtain ⟨uw, iw, sd, iv, wf⟩ := d
  obtain ⟨h1, h2, h3, h4⟩ := hd
  simp only at h1 h2 h3 h4
  subst h1 h2 h3 h4
  unfold ScatterDims.window
  split
  · rfl
  · rename_i h
    exact absurd (show (1 : Fin 2) ∈ (List.finRange 2).filter (fun a => a ∉ ([] : List (Fin 2))) by decide) h

/-- Update index `(p, q)` lands on the operand's `(s0 + p, q)` when the band `s0 ≤ r < s0 + n` is inside the operand. -/
theorem resultIdx_rows (idx : IVec ⟨1, ![1]⟩ w) (s0 : Nat) (hs : s0 + n ≤ N) (hidx : ∀ k, (idx k).toInt = (s0 : Int))
    (p : Fin n) (q : Fin M) :
    d.resultIdx? (ix2 p q) idx = some (ix2 (⟨s0 + p.val, by have := p.isLt; omega⟩ : Fin N) q) := by
  have e0 : d.start (ix2 p q) idx 0 + (d.window (ix2 p q) 0 : Int) = ((s0 + p.val : Nat) : Int) := by
    rw [start_zero d hd _ idx s0 hidx, window_zero d hd]
    show (s0 : Int) + ((p.val : Nat) : Int) = _
    omega
  have e1 : d.start (ix2 p q) idx 1 + (d.window (ix2 p q) 1 : Int) = ((q.val : Nat) : Int) := by
    rw [start_one d hd, window_one d hd]
    show (0 : Int) + ((q.val : Nat) : Int) = _
    omega
  have hp := p.isLt
  have hq := q.isLt
  have hall : ∀ a, 0 ≤ d.start (ix2 p q) idx a + (d.window (ix2 p q) a : Int) ∧
      d.start (ix2 p q) idx a + (d.window (ix2 p q) a : Int) < ((⟨2, ![N, M]⟩ : Shape).size a : Nat) := by
    intro a
    match a with
    | ⟨0, _⟩ =>
      show 0 ≤ d.start (ix2 p q) idx 0 + (d.window (ix2 p q) 0 : Int) ∧
        d.start (ix2 p q) idx 0 + (d.window (ix2 p q) 0 : Int) < ((N : Nat) : Int)
      rw [e0]; omega
    | ⟨1, _⟩ =>
      show 0 ≤ d.start (ix2 p q) idx 1 + (d.window (ix2 p q) 1 : Int) ∧
        d.start (ix2 p q) idx 1 + (d.window (ix2 p q) 1 : Int) < ((M : Nat) : Int)
      rw [e1]; omega
  unfold ScatterDims.resultIdx?
  rw [dif_pos hall]
  refine congrArg some (funext fun a => Fin.ext ?_)
  match a with
  | ⟨0, _⟩ =>
    show (d.start (ix2 p q) idx 0 + (d.window (ix2 p q) 0 : Int)).toNat = s0 + p.val
    rw [e0]; omega
  | ⟨1, _⟩ =>
    show (d.start (ix2 p q) idx 1 + (d.window (ix2 p q) 1 : Int)).toNat = q.val
    rw [e1]; omega

/-- A whole-row window scattered at start row `s0`, read at row `r`, column `c`: inside the band the body `f` of
    the operand's entry and the update's entry at row `r - s0`; outside it the operand's entry. -/
theorem scatter_rows_apply (f : α → α → α) (x : (⟨2, ![N, M]⟩ : Shape).Idx → α) (idx : IVec ⟨1, ![1]⟩ w)
    (upd : (⟨2, ![n, M]⟩ : Shape).Idx → α) (s0 : Nat) (hs : s0 + n ≤ N) (hidx : ∀ k, (idx k).toInt = (s0 : Int))
    (r : Fin N) (c : Fin M) :
    Host.scatter d f x idx upd (ix2 r c) =
      if h : s0 ≤ r.val ∧ r.val < s0 + n then f (x (ix2 r c)) (upd (ix2 (⟨r.val - s0, by omega⟩ : Fin n) c))
      else x (ix2 r c) := by
  by_cases h : s0 ≤ r.val ∧ r.val < s0 + n
  · rw [dif_pos h]
    refine scatter_apply_of_unique d f x idx upd (ix2 r c) (ix2 (⟨r.val - s0, by omega⟩ : Fin n) c) ?_ ?_
    · rw [resultIdx_rows d hd idx s0 hs hidx]
      have e : (⟨s0 + (r.val - s0), by omega⟩ : Fin N) = r := Fin.ext (by show s0 + (r.val - s0) = r.val; omega)
      rw [e]
    · intro j' hj'
      obtain ⟨p', q', rfl⟩ : ∃ (p' : Fin n) (q' : Fin M), j' = ix2 p' q' := ⟨j' 0, j' 1, eq_ix2 j'⟩
      rw [resultIdx_rows d hd idx s0 hs hidx] at hj'
      have hf := Option.some.inj hj'
      have h0 : s0 + p'.val = r.val := congrArg Fin.val (congrFun hf 0)
      have h1 : q' = c := congrFun hf 1
      subst h1
      have e : p' = (⟨r.val - s0, by omega⟩ : Fin n) := Fin.ext (by show p'.val = r.val - s0; omega)
      rw [e]
  · rw [dif_neg h]
    refine scatter_apply_of_forall_ne d f x idx upd (ix2 r c) ?_
    intro j' hj'
    obtain ⟨p', q', rfl⟩ : ∃ (p' : Fin n) (q' : Fin M), j' = ix2 p' q' := ⟨j' 0, j' 1, eq_ix2 j'⟩
    rw [resultIdx_rows d hd idx s0 hs hidx] at hj'
    have hf := Option.some.inj hj'
    have h0 : s0 + p'.val = r.val := congrArg Fin.val (congrFun hf 0)
    have hp := p'.isLt
    exact h ⟨by omega, by omega⟩

end Rows

end Cert.LibScatterFold
-- ==== Proof.RefScatter.lean ====
/-
  The reference's four scatters, each read at one row and column.

  Each writes a window of 2048 whole rows of a [8192, 4096] array at a literal start row s0 ∈ {0, 2048, 4096, 6144}:
  inside the band s0 ≤ r < s0 + 2048 the result is the scatter's body applied to the operand's entry and the update's
  entry at row r − s0 (the body adds for the first three and returns the update for the fourth); outside the band it
  is the operand's entry.
-/
import proofs.«169635_j23201413333001_2_alg».proof.Proof.Gen.ReferenceIdeal.Read
import proofs.«169635_j23201413333001_2_alg».proof.Proof.LibScatterFold

noncomputable section

open scoped BigOperators

namespace Cert.RefSide

open Cert.ReferenceIdeal Cert.ReferenceIdeal.Gen Cert.ReferenceIdeal.Read Idealize.ShloMosaic Idealize.ShloMosaic.ValueIdx
open Cert.LibScatterFold

/-- The scatters' dimension numbers are those of a whole-row window at one start row. -/
theorem rowWindow : RowWindow (N := 8192) (M := 4096) (n := 2048) scatter_S8192x4096_S1_S2048x4096_01_n_0_0 :=
  ⟨rfl, rfl, rfl, rfl⟩

/-- The start row of the first scatter: the literal 0. -/
theorem start_v9 (k : S1.Idx) : ((val_main_v9 (F := Ideal) : IVec S1 32) k).toInt = ((0 : Nat) : Int) := by
  rw [val_main_v9_apply, val_main_c_apply]
  decide

/-- The start row of the second scatter: the literal 2048. -/
theorem start_v18 (k : S1.Idx) : ((val_main_v18 (F := Ideal) : IVec S1 32) k).toInt = ((2048 : Nat) : Int) := by
  rw [val_main_v18_apply, val_main_c_1_apply]
  decide

/-- The start row of the third scatter: the literal 4096. -/
theorem start_v33 (k : S1.Idx) : ((val_main_v33 (F := Ideal) : IVec S1 32) k).toInt = ((4096 : Nat) : Int) := by
  rw [val_main_v33_apply, val_main_c_3_apply]
  decide

/-- The start row of the fourth scatter: the literal 6144. -/
theorem start_v57 (k : S1.Idx) : ((val_main_v57 (F := Ideal) : IVec S1 32) k).toInt = ((6144 : Nat) : Int) := by
  rw [val_main_v57_apply, val_main_c_7_apply]
  decide

/-- Inside the band of rows 0 ≤ r < 2048: the operand's entry plus the update's at row r − 0. -/
theorem v10_in (x0 : (⟨S8192x4096, .f32⟩ : BufTy).Contents (Elt Ideal)) (x1 : (⟨S4096x4096, .f32⟩ : BufTy).Contents (Elt Ideal)) (x2 : (⟨S16x4096, .f32⟩ : BufTy).Contents (Elt Ideal)) (x3 : (⟨S4096x16, .f32⟩ : BufTy).Contents (Elt Ideal)) (r : Fin 8192) (c : Fin 4096) (h1 : 0 ≤ r.val) (h2 : r.val < 0 + 2048) :
    val_main_v10 (F := Ideal) x0 x1 x2 x3 (ix2 r c) = val_main_v1 (F := Ideal) x0 x1 (ix2 r c) + val_main_v8 (F := Ideal) x0 x2 x3 (ix2 (⟨r.val - 0, by omega⟩ : Fin 2048) c) := by
  unfold val_main_v10
  rw [scatter_rows_apply _ rowWindow _ _ _ _ 0 (by omega) start_v9 r c, dif_pos ⟨h1, h2⟩]
  rfl

/-- Outside that band: the operand's entry. -/
theorem v10_out (x0 : (⟨S8192x4096, .f32⟩ : BufTy).Contents (Elt Ideal)) (x1 : (⟨S4096x4096, .f32⟩ : BufTy).Contents (Elt Ideal)) (x2 : (⟨S16x4096, .f32⟩ : BufTy).Contents (Elt Ideal)) (x3 : (⟨S4096x16, .f32⟩ : BufTy).Contents (Elt Ideal)) (r : Fin 8192) (c : Fin 4096) (h : r.val < 0 ∨ 0 + 2048 ≤ r.val) :
    val_main_v10 (F := Ideal) x0 x1 x2 x3 (ix2 r c) = val_main_v1 (F := Ideal) x0 x1 (ix2 r c) := by
  unfold val_main_v10
  rw [scatter_rows_apply _ rowWindow _ _ _ _ 0 (by omega) start_v9 r c, dif_neg (by omega)]

/-- Inside the band of rows 2048 ≤ r < 4096: the operand's entry plus the update's at row r − 2048. -/
theorem v19_in (x0 : (⟨S8192x4096, .f32⟩ : BufTy).Contents (Elt Ideal)) (x1 : (⟨S4096x4096, .f32⟩ : BufTy).Contents (Elt Ideal)) (x2 : (⟨S16x4096, .f32⟩ : BufTy).Contents (Elt Ideal)) (x3 : (⟨S4096x16, .f32⟩ : BufTy).Contents (Elt Ideal)) (x4 : (⟨S16x4096, .f32⟩ : BufTy).Contents (Elt Ideal)) (x5 : (⟨S4096x16, .f32⟩ : BufTy).Contents (Elt Ideal)) (r : Fin 8192) (c : Fin 4096) (h1 : 2048 ≤ r.val) (h2 : r.val < 2048 + 2048) :
    val_main_v19 (F := Ideal) x0 x1 x2 x3 x4 x5 (ix2 r c) = val_main_v10 (F := Ideal) x0 x1 x2 x3 (ix2 r c) + val_main_v17 (F := Ideal) x0 x4 x5 (ix2 (⟨r.val - 2048, by omega⟩ : Fin 2048) c) := by
  unfold val_main_v19
  rw [scatter_rows_apply _ rowWindow _ _ _ _ 2048 (by omega) start_v18 r c, dif_pos ⟨h1, h2⟩]
  rfl

/-- Outside that band: the operand's entry. -/
theorem v19_out (x0 : (⟨S8192x4096, .f32⟩ : BufTy).Contents (Elt Ideal)) (x1 : (⟨S4096x4096, .f32⟩ : BufTy).Contents (Elt Ideal)) (x2 : (⟨S16x4096, .f32⟩ : BufTy).Contents (Elt Ideal)) (x3 : (⟨S4096x16, .f32⟩ : BufTy).Contents (Elt Ideal)) (x4 : (⟨S16x4096, .f32⟩ : BufTy).Contents (Elt Ideal)) (x5 : (⟨S4096x16, .f32⟩ : BufTy).Contents (Elt Ideal)) (r : Fin 8192) (c : Fin 4096) (h : r.val < 2048 ∨ 2048 + 2048 ≤ r.val) :
    val_main_v19 (F := Ideal) x0 x1 x2 x3 x4 x5 (ix2 r c) = val_main_v10 (F := Ideal) x0 x1 x2 x3 (ix2 r c) := by
  unfold val_main_v19
  rw [scatter_rows_apply _ rowWindow _ _ _ _ 2048 (by omega) start_v18 r c, dif_neg (by omega)]

/-- Inside the band of rows 4096 ≤ r < 6144: the operand's entry plus the update's at row r − 4096. -/
theorem v34_in (x0 : (⟨S8192x4096, .f32⟩ : BufTy).Contents (Elt Ideal)) (x1 : (⟨S4096x4096, .f32⟩ : BufTy).Contents (Elt Ideal)) (x2 : (⟨S16x4096, .f32⟩ : BufTy).Contents (Elt Ideal)) (x3 : (⟨S4096x16, .f32⟩ : BufTy).Contents (Elt Ideal)) (x4 : (⟨S16x4096, .f32⟩ : BufTy).Contents (Elt Ideal)) (x5 : (⟨S4096x16, .f32⟩ : BufTy).Contents (Elt Ideal)) (x6 : (⟨S16x4096, .f32⟩ : BufTy).Contents (Elt Ideal)) (x7 : (⟨S4096x16, .f32⟩ : BufTy).Contents (Elt Ideal)) (x8 : (⟨S16, .f32⟩ : BufTy).Contents (Elt Ideal)) (x9 : (⟨S4096, .f32⟩ : BufTy).Contents (Elt Ideal)) (r : Fin 8192) (c : Fin 4096) (h1 : 4096 ≤ r.val) (h2 : r.val < 4096 + 2048) :
    val_main_v34 (F := Ideal) x0 x1 x2 x3 x4 x5 x6 x7 x8 x9 (ix2 r c) = val_main_v19 (F := Ideal) x0 x1 x2 x3 x4 x5 (ix2 r c) + val_main_v32 (F := Ideal) x0 x6 x7 x8 x9 (ix2 (⟨r.val - 4096, by omega⟩ : Fin 2048) c) := by
  unfold val_main_v34
  rw [scatter_rows_apply _ rowWindow _ _ _ _ 4096 (by omega) start_v33 r c, dif_pos ⟨h1, h2⟩]
  rfl

/-- Outside that band: the operand's entry. -/
theorem v34_out (x0 : (⟨S8192x4096, .f32⟩ : BufTy).Contents (Elt Ideal)) (x1 : (⟨S4096x4096, .f32⟩ : BufTy).Contents (Elt Ideal)) (x2 : (⟨S16x4096, .f32⟩ : BufTy).Contents (Elt Ideal)) (x3 : (⟨S4096x16, .f32⟩ : BufTy).Contents (Elt Ideal)) (x4 : (⟨S16x4096, .f32⟩ : BufTy).Contents (Elt Ideal)) (x5 : (⟨S4096x16, .f32⟩ : BufTy).Contents (Elt Ideal)) (x6 : (⟨S16x4096, .f32⟩ : BufTy).Contents (Elt Ideal)) (x7 : (⟨S4096x16, .f32⟩ : BufTy).Contents (Elt Ideal)) (x8 : (⟨S16, .f32⟩ : BufTy).Contents (Elt Ideal)) (x9 : (⟨S4096, .f32⟩ : BufTy).Contents (Elt Ideal)) (r : Fin 8192) (c : Fin 4096) (h : r.val < 4096 ∨ 4096 + 2048 ≤ r.val) :
    val_main_v34 (F := Ideal) x0 x1 x2 x3 x4 x5 x6 x7 x8 x9 (ix2 r c) = val_main_v19 (F := Ideal) x0 x1 x2 x3 x4 x5 (ix2 r c) := by
  unfold val_main_v34
  rw [scatter_rows_apply _ rowWindow _ _ _ _ 4096 (by omega) start_v33 r c, dif_neg (by omega)]

/-- Inside the band of rows 6144 ≤ r < 8192: the update's entry at row r − 6144. -/
theorem v58_in (x0 : (⟨S8192x4096, .f32⟩ : BufTy).Contents (Elt Ideal)) (x1 : (⟨S4096x4096, .f32⟩ : BufTy).Contents (Elt Ideal)) (x2 : (⟨S16x4096, .f32⟩ : BufTy).Contents (Elt Ideal)) (x3 : (⟨S4096x16, .f32⟩ : BufTy).Contents (Elt Ideal)) (x4 : (⟨S16x4096, .f32⟩ : BufTy).Contents (Elt Ideal)) (x5 : (⟨S4096x16, .f32⟩ : BufTy).Contents (Elt Ideal)) (x6 : (⟨S16x4096, .f32⟩ : BufTy).Contents (Elt Ideal)) (x7 : (⟨S4096x16, .f32⟩ : BufTy).Contents (Elt Ideal)) (x8 : (⟨S16, .f32⟩ : BufTy).Contents (Elt Ideal)) (x9 : (⟨S4096, .f32⟩ : BufTy).Contents (Elt Ideal)) (x10 : (⟨S16x4096, .f32⟩ : BufTy).Contents (Elt Ideal)) (x11 : (⟨S4096x16, .f32⟩ : BufTy).Contents (Elt Ideal)) (x12 : (⟨S4096, .f32⟩ : BufTy).Contents (Elt Ideal)) (r : Fin 8192) (c : Fin 4096) (h1 : 6144 ≤ r.val) (h2 : r.val < 6144 + 2048) :
    val_main_v58 (F := Ideal) x0 x1 x2 x3 x4 x5 x6 x7 x8 x9 x10 x11 x12 (ix2 r c) = val_main_v56 (F := Ideal) x0 x1 x2 x3 x4 x5 x6 x7 x8 x9 x10 x11 x12 (ix2 (⟨r.val - 6144, by omega⟩ : Fin 2048) c) := by
  unfold val_main_v58
  rw [scatter_rows_apply _ rowWindow _ _ _ _ 6144 (by omega) start_v57 r c, dif_pos ⟨h1, h2⟩]

/-- Outside that band: the operand's entry. -/
theorem v58_out (x0 : (⟨S8192x4096, .f32⟩ : BufTy).Contents (Elt Ideal)) (x1 : (⟨S4096x4096, .f32⟩ : BufTy).Contents (Elt Ideal)) (x2 : (⟨S16x4096, .f32⟩ : BufTy).Contents (Elt Ideal)) (x3 : (⟨S4096x16, .f32⟩ : BufTy).Contents (Elt Ideal)) (x4 : (⟨S16x4096, .f32⟩ : BufTy).Contents (Elt Ideal)) (x5 : (⟨S4096x16, .f32⟩ : BufTy).Contents (Elt Ideal)) (x6 : (⟨S16x4096, .f32⟩ : BufTy).Contents (Elt Ideal)) (x7 : (⟨S4096x16, .f32⟩ : BufTy).Contents (Elt Ideal)) (x8 : (⟨S16, .f32⟩ : BufTy).Contents (Elt Ideal)) (x9 : (⟨S4096, .f32⟩ : BufTy).Contents (Elt Ideal)) (x10 : (⟨S16x4096, .f32⟩ : BufTy).Contents (Elt Ideal)) (x11 : (⟨S4096x16, .f32⟩ : BufTy).Contents (Elt Ideal)) (x12 : (⟨S4096, .f32⟩ : BufTy).Contents (Elt Ideal)) (r : Fin 8192) (c : Fin 4096) (h : r.val < 6144 ∨ 6144 + 2048 ≤ r.val) :
    val_main_v58 (F := Ideal) x0 x1 x2 x3 x4 x5 x6 x7 x8 x9 x10 x11 x12 (ix2 r c) = val_main_v34 (F := Ideal) x0 x1 x2 x3 x4 x5 x6 x7 x8 x9 (ix2 r c) := by
  unfold val_main_v58
  rw [scatter_rows_apply _ rowWindow _ _ _ _ 6144 (by omega) start_v57 r c, dif_neg (by omega)]

end Cert.RefSide

end
-- ==== Proof.RefParts.lean ====
/-
  The reference's dense pieces read at one row and column, as the sums the specification names.

  base_at: data·Wᵀ at (r, c) is Spec.base. part1_at / part2_at: a rank-16 adapter's update for a band, read at the
  band's row p and column c, is Spec.up (Spec.low data a r) b c times the literal two, r the operand's row that band
  row p is a slice of. part3_at: the same with the row scaled by the literal one before the first product and by d
  after it, times bv at the column. part4_at: the fourth band's update, base·(mns − 1) + (mns·up)·2 with base the
  third scatter's result at row r.
-/
import proofs.«169635_j23201413333001_2_alg».proof.Proof.Gen.ReferenceIdeal.Read
import proofs.«169635_j23201413333001_2_alg».proof.Proof.Spec

noncomputable section

open scoped BigOperators

namespace Cert.RefSide

open Cert.ReferenceIdeal Cert.ReferenceIdeal.Gen Cert.ReferenceIdeal.Read Idealize.ShloMosaic Idealize.ShloMosaic.ValueIdx

/-- A rank-2 index with the coordinates of `ix2 a b` is `ix2 a b`. -/
theorem idx2_eq {n0 n1 : Nat} (i : (⟨2, ![n0, n1]⟩ : Shape).Idx) (a : Fin n0) (b : Fin n1)
    (h0 : (i 0).val = a.val) (h1 : (i 1).val = b.val) : i = ix2 a b := by
  funext d
  match d with
  | ⟨0, _⟩ => exact Fin.ext h0
  | ⟨1, _⟩ => exact Fin.ext h1

/-- A rank-1 index with the coordinate of `ix1 a` is `ix1 a`. -/
theorem idx1_eq {n : Nat} (i : (⟨1, ![n]⟩ : Shape).Idx) (a : Fin n) (h0 : (i 0).val = a.val) : i = ix1 a := by
  funext d
  match d with
  | ⟨0, _⟩ => exact Fin.ext h0

/-- data·Wᵀ at row r, column c. -/
theorem base_at (x0 : (⟨S8192x4096, .f32⟩ : BufTy).Contents (Elt Ideal)) (x1 : (⟨S4096x4096, .f32⟩ : BufTy).Contents (Elt Ideal)) (r : Fin 8192) (c : Fin 4096) :
    val_main_v1 (F := Ideal) x0 x1 (ix2 r c) = Spec.base x0 x1 r c := by
  rw [val_main_v1_apply]
  unfold Spec.base
  refine Finset.sum_congr rfl fun k _ => ?_
  rw [val_main_v0_apply, show lidx_main_v1 (ix2 r c) k = ix2 r k from idx2_eq _ _ _ rfl rfl,
    show idx_main_v0 (ridx_main_v1 (ix2 r c) k) = ix2 c k from idx2_eq _ _ _ rfl rfl]

/-- The first adapter's update at band row p (operand row r = p), column c. -/
theorem part1_at (x0 : (⟨S8192x4096, .f32⟩ : BufTy).Contents (Elt Ideal)) (x2 : (⟨S16x4096, .f32⟩ : BufTy).Contents (Elt Ideal)) (x3 : (⟨S4096x16, .f32⟩ : BufTy).Contents (Elt Ideal)) (r : Fin 8192) (p : Fin 2048) (hp : p.val = r.val) (c : Fin 4096) :
    val_main_v8 (F := Ideal) x0 x2 x3 (ix2 p c) = Spec.up (Spec.low x0 x2 r) x3 c * Spec.two := by
  rw [val_main_v8_apply, val_main_v7_apply, val_main_cst_apply, val_main_v6_apply]
  show (∑ q : Fin 16, _) * Spec.two = _
  unfold Spec.up
  congr 1
  refine Finset.sum_congr rfl fun q _ => ?_
  rw [show lidx_main_v6 (ix2 p c) q = ix2 p q from idx2_eq _ _ _ rfl rfl, val_main_v4_apply, val_main_v5_apply,
    show idx_main_v5 (ridx_main_v6 (ix2 p c) q) = ix2 c q from idx2_eq _ _ _ rfl rfl]
  congr 1
  unfold Spec.low
  refine Finset.sum_congr rfl fun k _ => ?_
  rw [val_main_v2_apply, val_main_v3_apply,
    show idx_main_v2 (lidx_main_v4 (ix2 p q) k) = ix2 r k from idx2_eq _ _ _ hp rfl,
    show idx_main_v3 (ridx_main_v4 (ix2 p q) k) = ix2 q k from idx2_eq _ _ _ rfl rfl]

/-- The second adapter's update at band row p (operand row r = 2048 + p), column c. -/
theorem part2_at (x0 : (⟨S8192x4096, .f32⟩ : BufTy).Contents (Elt Ideal)) (x4 : (⟨S16x4096, .f32⟩ : BufTy).Contents (Elt Ideal)) (x5 : (⟨S4096x16, .f32⟩ : BufTy).Contents (Elt Ideal)) (r : Fin 8192) (p : Fin 2048) (hp : 2048 + p.val = r.val) (c : Fin 4096) :
    val_main_v17 (F := Ideal) x0 x4 x5 (ix2 p c) = Spec.up (Spec.low x0 x4 r) x5 c * Spec.two := by
  rw [val_main_v17_apply, val_main_v16_apply, val_main_cst_0_apply, val_main_v15_apply]
  show (∑ q : Fin 16, _) * Spec.two = _
  unfold Spec.up
  congr 1
  refine Finset.sum_congr rfl fun q _ => ?_
  rw [show lidx_main_v15 (ix2 p c) q = ix2 p q from idx2_eq _ _ _ rfl rfl, val_main_v13_apply, val_main_v14_apply,
    show idx_main_v14 (ridx_main_v15 (ix2 p c) q) = ix2 c q from idx2_eq _ _ _ rfl rfl]
  congr 1
  unfold Spec.low
  refine Finset.sum_congr rfl fun k _ => ?_
  rw [val_main_v11_apply, val_main_v12_apply,
    show idx_main_v11 (lidx_main_v13 (ix2 p q) k) = ix2 r k from idx2_eq _ _ _ hp rfl,
    show idx_main_v12 (ridx_main_v13 (ix2 p q) k) = ix2 q k from idx2_eq _ _ _ rfl rfl]

/-- The third update at band row p (operand row r = 4096 + p), column c: the row times the literal one, projected, scaled
    by d, expanded, times bv at the column. -/
theorem part3_at (x0 : (⟨S8192x4096, .f32⟩ : BufTy).Contents (Elt Ideal)) (x6 : (⟨S16x4096, .f32⟩ : BufTy).Contents (Elt Ideal)) (x7 : (⟨S4096x16, .f32⟩ : BufTy).Contents (Elt Ideal)) (x8 : (⟨S16, .f32⟩ : BufTy).Contents (Elt Ideal)) (x9 : (⟨S4096, .f32⟩ : BufTy).Contents (Elt Ideal)) (r : Fin 8192) (p : Fin 2048) (hp : 4096 + p.val = r.val) (c : Fin 4096) :
    val_main_v32 (F := Ideal) x0 x6 x7 x8 x9 (ix2 p c) = Spec.up (Spec.lowV x0 x6 x8 r) x7 c * x9 (ix1 c) := by
  rw [val_main_v32_apply, val_main_v31_apply, val_main_v30_apply, val_main_v29_apply,
    show idx_main_v30 (idx_main_v31 (ix2 p c)) = ix1 c from idx1_eq _ _ rfl]
  show (∑ q : Fin 16, _) * x9 (ix1 c) = _
  unfold Spec.up
  congr 1
  refine Finset.sum_congr rfl fun q _ => ?_
  rw [show lidx_main_v29 (ix2 p c) q = ix2 p q from idx2_eq _ _ _ rfl rfl, val_main_v27_apply, val_main_v26_apply,
    val_main_v25_apply, val_main_v24_apply, val_main_v28_apply,
    show idx_main_v28 (ridx_main_v29 (ix2 p c) q) = ix2 c q from idx2_eq _ _ _ rfl rfl,
    show idx_main_v25 (idx_main_v26 (ix2 p q)) = ix1 q from idx1_eq _ _ rfl]
  congr 1
  unfold Spec.lowV
  show (∑ k : Fin 4096, _) * x8 (ix1 q) = _
  congr 1
  refine Finset.sum_congr rfl fun k _ => ?_
  rw [val_main_v22_apply, val_main_v21_apply, val_main_cst_2_apply, val_main_v20_apply, val_main_v23_apply,
    show idx_main_v20 (lidx_main_v24 (ix2 p q) k) = ix2 r k from idx2_eq _ _ _ hp rfl,
    show idx_main_v23 (ridx_main_v24 (ix2 p q) k) = ix2 q k from idx2_eq _ _ _ rfl rfl]
  rfl

/-- The fourth adapter's expansion at band row p (operand row r = 6144 + p), column c. -/
theorem up4_at (x0 : (⟨S8192x4096, .f32⟩ : BufTy).Contents (Elt Ideal)) (x10 : (⟨S16x4096, .f32⟩ : BufTy).Contents (Elt Ideal)) (x11 : (⟨S4096x16, .f32⟩ : BufTy).Contents (Elt Ideal)) (r : Fin 8192) (p : Fin 2048) (hp : 6144 + p.val = r.val) (c : Fin 4096) :
    val_main_v46 (F := Ideal) x0 x10 x11 (ix2 p c) = Spec.up (Spec.low x0 x10 r) x11 c := by
  rw [val_main_v46_apply]
  unfold Spec.up
  refine Finset.sum_congr rfl fun q _ => ?_
  rw [show lidx_main_v46 (ix2 p c) q = ix2 p q from idx2_eq _ _ _ rfl rfl, val_main_v44_apply, val_main_v45_apply,
    show idx_main_v45 (ridx_main_v46 (ix2 p c) q) = ix2 c q from idx2_eq _ _ _ rfl rfl]
  congr 1
  unfold Spec.low
  refine Finset.sum_congr rfl fun k _ => ?_
  rw [val_main_v42_apply, val_main_v43_apply,
    show idx_main_v42 (lidx_main_v44 (ix2 p q) k) = ix2 r k from idx2_eq _ _ _ hp rfl,
    show idx_main_v43 (ridx_main_v44 (ix2 p q) k) = ix2 q k from idx2_eq _ _ _ rfl rfl]

/-- The fourth update at band row p (operand row r = 6144 + p), column c: the third scatter's result at (r, c) times
    (mns − 1), plus (mns · the adapter's expansion) · 2, with mns the column scale at c. -/
theorem part4_at (x0 : (⟨S8192x4096, .f32⟩ : BufTy).Contents (Elt Ideal)) (x1 : (⟨S4096x4096, .f32⟩ : BufTy).Contents (Elt Ideal)) (x2 : (⟨S16x4096, .f32⟩ : BufTy).Contents (Elt Ideal)) (x3 : (⟨S4096x16, .f32⟩ : BufTy).Contents (Elt Ideal)) (x4 : (⟨S16x4096, .f32⟩ : BufTy).Contents (Elt Ideal)) (x5 : (⟨S4096x16, .f32⟩ : BufTy).Contents (Elt Ideal)) (x6 : (⟨S16x4096, .f32⟩ : BufTy).Contents (Elt Ideal)) (x7 : (⟨S4096x16, .f32⟩ : BufTy).Contents (Elt Ideal)) (x8 : (⟨S16, .f32⟩ : BufTy).Contents (Elt Ideal)) (x9 : (⟨S4096, .f32⟩ : BufTy).Contents (Elt Ideal)) (x10 : (⟨S16x4096, .f32⟩ : BufTy).Contents (Elt Ideal)) (x11 : (⟨S4096x16, .f32⟩ : BufTy).Contents (Elt Ideal)) (x12 : (⟨S4096, .f32⟩ : BufTy).Contents (Elt Ideal)) (r : Fin 8192) (p : Fin 2048) (hp : 6144 + p.val = r.val) (c : Fin 4096) :
    val_main_v56 (F := Ideal) x0 x1 x2 x3 x4 x5 x6 x7 x8 x9 x10 x11 x12 (ix2 p c) =
      val_main_v34 (F := Ideal) x0 x1 x2 x3 x4 x5 x6 x7 x8 x9 (ix2 r c) * (val_main_v40 (F := Ideal) x1 x10 x11 x12 (ix1 c) - Spec.one)
        + (val_main_v40 (F := Ideal) x1 x10 x11 x12 (ix1 c) * Spec.up (Spec.low x0 x10 r) x11 c) * Spec.two := by
  rw [val_main_v56_apply, val_main_v55_apply, val_main_v51_apply, val_main_v54_apply, val_main_v53_apply, val_main_v41_apply,
    val_main_v52_apply, val_main_cst_6_apply, val_main_v50_apply, val_main_v49_apply, val_main_cst_5_apply, val_main_v48_apply,
    val_main_v47_apply, val_main_v41_apply, up4_at x0 x10 x11 r p hp c,
    show idx_main_v51 (ix2 p c) = ix2 r c from idx2_eq _ _ _ hp rfl,
    show idx_main_v41 (idx_main_v54 (ix2 p c)) = ix1 c from idx1_eq _ _ rfl]
  rfl

end Cert.RefSide

end
-- ==== Proof.RefMain.lean ====
/-
  The reference program computes the specification's function.

  ref_at: the last scatter's result at row r, column c is Spec.Gat there, by cases on which band of 2048 rows r is in —
  a row meets exactly one scatter's band, whose update is that band's adapter term; the other scatters leave the row as
  it was. ref_is_G: the same for the whole array. The column scale (the magnitude over the row norm of the shifted
  weight) is passed to the specification as it stands and is never opened.
-/
import proofs.«169635_j23201413333001_2_alg».proof.Proof.Gen.ReferenceIdeal.Read
import proofs.«169635_j23201413333001_2_alg».proof.Proof.Spec
import proofs.«169635_j23201413333001_2_alg».proof.Proof.RefScatter
import proofs.«169635_j23201413333001_2_alg».proof.Proof.RefParts

noncomputable section

open scoped BigOperators

namespace Cert.RefSide

open Cert.ReferenceIdeal Cert.ReferenceIdeal.Gen Cert.ReferenceIdeal.Read Idealize.ShloMosaic Idealize.ShloMosaic.ValueIdx

/-- The reference's result at row r, column c. -/
theorem ref_at (x0 : (⟨S8192x4096, .f32⟩ : BufTy).Contents (Elt Ideal)) (x1 : (⟨S4096x4096, .f32⟩ : BufTy).Contents (Elt Ideal)) (x2 : (⟨S16x4096, .f32⟩ : BufTy).Contents (Elt Ideal)) (x3 : (⟨S4096x16, .f32⟩ : BufTy).Contents (Elt Ideal)) (x4 : (⟨S16x4096, .f32⟩ : BufTy).Contents (Elt Ideal)) (x5 : (⟨S4096x16, .f32⟩ : BufTy).Contents (Elt Ideal)) (x6 : (⟨S16x4096, .f32⟩ : BufTy).Contents (Elt Ideal)) (x7 : (⟨S4096x16, .f32⟩ : BufTy).Contents (Elt Ideal)) (x8 : (⟨S16, .f32⟩ : BufTy).Contents (Elt Ideal)) (x9 : (⟨S4096, .f32⟩ : BufTy).Contents (Elt Ideal)) (x10 : (⟨S16x4096, .f32⟩ : BufTy).Contents (Elt Ideal)) (x11 : (⟨S4096x16, .f32⟩ : BufTy).Contents (Elt Ideal)) (x12 : (⟨S4096, .f32⟩ : BufTy).Contents (Elt Ideal)) (r : Fin 8192) (c : Fin 4096) :
    val_main_v58 (F := Ideal) x0 x1 x2 x3 x4 x5 x6 x7 x8 x9 x10 x11 x12 (ix2 r c) =
      Spec.Gat x0 x1 x2 x3 x4 x5 x6 x7 x8 x9 x10 x11 (val_main_v40 (F := Ideal) x1 x10 x11 x12) r c := by
  unfold Spec.Gat
  by_cases h0 : r.val < 2048
  · rw [if_pos h0, v58_out x0 x1 x2 x3 x4 x5 x6 x7 x8 x9 x10 x11 x12 r c (Or.inl (by omega)), v34_out x0 x1 x2 x3 x4 x5 x6 x7 x8 x9 r c (Or.inl (by omega)),
      v19_out x0 x1 x2 x3 x4 x5 r c (Or.inl (by omega)), v10_in x0 x1 x2 x3 r c (by omega) (by omega), base_at,
      part1_at x0 x2 x3 r (⟨r.val - 0, by omega⟩ : Fin 2048) (by show r.val - 0 = r.val; omega) c]
  · rw [if_neg h0]
    by_cases h1 : r.val < 4096
    · rw [if_pos h1, v58_out x0 x1 x2 x3 x4 x5 x6 x7 x8 x9 x10 x11 x12 r c (Or.inl (by omega)), v34_out x0 x1 x2 x3 x4 x5 x6 x7 x8 x9 r c (Or.inl (by omega)),
        v19_in x0 x1 x2 x3 x4 x5 r c (by omega) (by omega), v10_out x0 x1 x2 x3 r c (Or.inr (by omega)), base_at,
        part2_at x0 x4 x5 r (⟨r.val - 2048, by omega⟩ : Fin 2048) (by show 2048 + (r.val - 2048) = r.val; omega) c]
    · rw [if_neg h1]
      by_cases h2 : r.val < 6144
      · rw [if_pos h2, v58_out x0 x1 x2 x3 x4 x5 x6 x7 x8 x9 x10 x11 x12 r c (Or.inl (by omega)),
          v34_in x0 x1 x2 x3 x4 x5 x6 x7 x8 x9 r c (by omega) (by omega),
          v19_out x0 x1 x2 x3 x4 x5 r c (Or.inr (by omega)), v10_out x0 x1 x2 x3 r c (Or.inr (by omega)), base_at,
          part3_at x0 x6 x7 x8 x9 r (⟨r.val - 4096, by omega⟩ : Fin 2048) (by show 4096 + (r.val - 4096) = r.val; omega) c]
      · have h3 := r.isLt
        rw [if_neg h2, v58_in x0 x1 x2 x3 x4 x5 x6 x7 x8 x9 x10 x11 x12 r c (by omega) (by omega),
          part4_at x0 x1 x2 x3 x4 x5 x6 x7 x8 x9 x10 x11 x12 r (⟨r.val - 6144, by omega⟩ : Fin 2048) (by show 6144 + (r.val - 6144) = r.val; omega) c,
          v34_out x0 x1 x2 x3 x4 x5 x6 x7 x8 x9 r c (Or.inr (by omega)),
          v19_out x0 x1 x2 x3 x4 x5 r c (Or.inr (by omega)), v10_out x0 x1 x2 x3 r c (Or.inr (by omega)), base_at]

/-- The reference program computes G, at the column scale it computes itself. -/
theorem ref_is_G (x0 : (⟨S8192x4096, .f32⟩ : BufTy).Contents (Elt Ideal)) (x1 : (⟨S4096x4096, .f32⟩ : BufTy).Contents (Elt Ideal)) (x2 : (⟨S16x4096, .f32⟩ : BufTy).Contents (Elt Ideal)) (x3 : (⟨S4096x16, .f32⟩ : BufTy).Contents (Elt Ideal)) (x4 : (⟨S16x4096, .f32⟩ : BufTy).Contents (Elt Ideal)) (x5 : (⟨S4096x16, .f32⟩ : BufTy).Contents (Elt Ideal)) (x6 : (⟨S16x4096, .f32⟩ : BufTy).Contents (Elt Ideal)) (x7 : (⟨S4096x16, .f32⟩ : BufTy).Contents (Elt Ideal)) (x8 : (⟨S16, .f32⟩ : BufTy).Contents (Elt Ideal)) (x9 : (⟨S4096, .f32⟩ : BufTy).Contents (Elt Ideal)) (x10 : (⟨S16x4096, .f32⟩ : BufTy).Contents (Elt Ideal)) (x11 : (⟨S4096x16, .f32⟩ : BufTy).Contents (Elt Ideal)) (x12 : (⟨S4096, .f32⟩ : BufTy).Contents (Elt Ideal)) :
    val_main_v58 (F := Ideal) x0 x1 x2 x3 x4 x5 x6 x7 x8 x9 x10 x11 x12
      = Spec.G x0 x1 x2 x3 x4 x5 x6 x7 x8 x9 x10 x11 (val_main_v40 (F := Ideal) x1 x10 x11 x12) := by
  funext i
  obtain ⟨r, c, rfl⟩ : ∃ (r : Fin 8192) (c : Fin 4096), i = ix2 r c := ⟨i 0, i 1, eq_ix2 i⟩
  rw [Spec.G_ix2]
  exact ref_at x0 x1 x2 x3 x4 x5 x6 x7 x8 x9 x10 x11 x12 r c

end Cert.RefSide

end
-- ==== Proof.MnsEq.lean ====
/-
  Both programs compute the column scale by the same host chain — magnitude divided by the square root of the row sums
  of squares of W + 2·(b₄·a₄) — so the two terms are one term, spelt in two namespaces.
-/
import proofs.«169635_j23201413333001_2_alg».proof.Proof.Gen.ReferenceIdeal.Read
import proofs.«169635_j23201413333001_2_alg».proof.Proof.KerHostDefs

set_option maxRecDepth 16384

noncomputable section

namespace Cert.Bridge

open Idealize.ShloMosaic

/-- The reference's column scale is the kernel's. -/
theorem mns_eq (x1 : Vec Ideal Cert.KernelIdeal.S4096x4096 .f32) (x10 : Vec Ideal Cert.KernelIdeal.S16x4096 .f32)
    (x11 : Vec Ideal Cert.KernelIdeal.S4096x16 .f32) (x12 : Vec Ideal Cert.KernelIdeal.S4096 .f32) :
    Cert.ReferenceIdeal.Read.val_main_v40 (F := Ideal) x1 x10 x11 x12 = Cert.KerVal.mnsTerm x1 x10 x11 x12 := rfl

end Cert.Bridge

end
-- ==== Proof.lean ====
/-
  The certificate's five claims.

  Both programs compute, entry (r, c), with the 8192 rows in four bands of 2048:
    base(r,c) = Σ_k data[r,k]·W[c,k];  band 0, 1: base + (Σ_q low(r,q)·b[c,q])·2;  band 2: base + (Σ_q lowV(r,q)·b[c,q])·bv[c];
    band 3: base·(mns[c] − 1) + (mns[c]·Σ_q low(r,q)·b[c,q])·2
  (Proof/Spec.lean). The kernel reaches it by accumulating base over eight 512-wide slabs of the contraction from a
  zeroed block and finishing the tile at the last slab; the reference by one product, three window additions and one
  window replacement. On the extended reals the two agree by regrouping the sum into its eight blocks, 0 + x = x, and
  commutativity of the product; no entry needs to be finite, so the precondition is never opened.
  The three frames: each kernel program's by running the body once per case of its two conditions (reduction
  coordinate 0, strictly inside, 7) and the pipeline's launch theorem; the reference's is its run with the result dropped.
-/
import proofs.«169635_j23201413333001_2_alg».proof.Defs
import proofs.«169635_j23201413333001_2_alg».proof.Proof.Gen.Kernel
import proofs.«169635_j23201413333001_2_alg».proof.Proof.Gen.KernelIdeal
import proofs.«169635_j23201413333001_2_alg».proof.Proof.Gen.ReferenceIdeal
import proofs.«169635_j23201413333001_2_alg».proof.Proof.Gen.Pre_finite_inputs
import proofs.«169635_j23201413333001_2_alg».proof.Proof.Gen.ReferenceIdeal.Run
import proofs.«169635_j23201413333001_2_alg».proof.Proof.Gen.ReferenceIdeal.Read
import proofs.«169635_j23201413333001_2_alg».proof.Proof.KB.Frame
import proofs.«169635_j23201413333001_2_alg».proof.Proof.KI.Final
import proofs.«169635_j23201413333001_2_alg».proof.Proof.RefMain
import proofs.«169635_j23201413333001_2_alg».proof.Proof.MnsEq
import Idealize.ShloMosaic.Adequacy
import Idealize.ShloMosaic.Init

noncomputable section

namespace Cert.Proof

open Idealize.ShloMosaic Idealize.SL.Sem

theorem frame_k : Cert.frame_Kernel := fun m ρ _ => Cert.Kernel.Fr.frame m ρ
theorem frame_ki : Cert.frame_KernelIdeal := fun m ρ _ => Cert.KernelIdeal.Fr.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The kernel's result array ends at the specification's function of its arguments, the reference's at the same
    function of arguments that agree, the column scale being one term. -/
theorem algebraic : Cert.algebraic_KernelIdeal_ReferenceIdeal := by
  intro m ρ m' ρ' _ hagree
  refine ⟨fun c => Cert.KernelIdeal.Fr.Gk m c, Cert.KernelIdeal.Fr.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12⟩ := hagree c
  rw [Cert.ReferenceIdeal.Read.val_main_v58_eq, Cert.RefSide.ref_is_G, h0, h1, h2, h3, h4, h5, h6, h7, h8, h9, h10, h11, h12, Cert.Bridge.mns_eq]
  rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
